-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x3072 : Shape := ⟨2, ![256, 3072]⟩
abbrev S3072 : Shape := ⟨1, ![3072]⟩
abbrev S256x768 : Shape := ⟨2, ![256, 768]⟩
abbrev S768 : Shape := ⟨1, ![768]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x3072 : S_.BroadcastsInDim S256x3072 (![] : Fin 0 → Fin S256x3072.rank)
  reducesTo_S256x3072_S_d0_1 : S256x3072.ReducesTo [0, 1] S_
  bcast_S_S3072 : S_.BroadcastsInDim S3072 (![] : Fin 0 → Fin S3072.rank)
  reducesTo_S3072_S_d0 : S3072.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_arg11 : FVec F S256x768 .f32) (main_arg12 : FVec F S768 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S256x768 .f32 := Host.absf main_arg11
  let main_cst_20 : FVec F S_ .f32 := constant S_ .f32 0x7F800000#32
  let main_v55 : FVec F S256x768 .f32 := broadcastInDim S256x768 ![] bcast_S_S256x768 main_cst_20
  let main_v56 : IVec S256x768 1 := cmpf .olt main_v54 main_v55
  let main_c_21 : IVec S_ 1 := constantI S_ 1 1#1
  let main_v57 : IVec S_ 1 := (fun x v => Host.reduce IntOp.andi x v reducesTo_S256x768_S_d0_1 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  main_v63

def fn_part2 {F : FTy → Type} [FloatOps F] (main_arg7 : FVec F S256 .f32) (main_arg8 : FVec F S256 .f32) (main_arg9 : FVec F S256x3072 .f32) (main_arg10 : FVec F S3072 .f32) (main_arg11 : FVec F S256x768 .f32) (main_arg12 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x3072 .f32 := Host.absf main_arg9
  let main_cst_16 : FVec F S_ .f32 := constant S_ .f32 0x7F800000#32
  let main_v45 : FVec F S256x3072 .f32 := broadcastInDim S256x3072 ![] bcast_S_S256x3072 main_cst_16
  let main_v46 : IVec S256x3072 1 := cmpf .olt main_v44 main_v45
  let main_c_17 : IVec S_ 1 := constantI S_ 1 1#1
  let main_v47 : IVec S_ 1 := (fun x v => Host.reduce IntOp.andi x v reducesTo_S256x3072_S_d0_1 h_S_) main_v46 main_c_17
  let main_v48 : IVec S_ 1 := andi main_v43 main_v47
  let main_v49 : FVec F S3072 .f32 := Host.absf main_arg10
  let main_cst_18 : FVec F S_ .f32 := constant S_ .f32 0x7F800000#32
  let main_v50 : FVec F S3072 .f32 := broadcastInDim S3072 ![] bcast_S_S3072 main_cst_18
  fn_part3 (F := F) main_arg11 main_arg12 main_v48 main_v49 main_v50

def fn_part1 {F : FTy → Type} [FloatOps F] (main_arg4 : FVec F S512 .f32) (main_arg5 : FVec F S512x256 .f32) (main_arg6 : FVec F S256 .f32) (main_arg7 : FVec F S256 .f32) (main_arg8 : FVec F S256 .f32) (main_arg9 : FVec F S256x3072 .f32) (main_arg10 : FVec F S3072 .f32) (main_arg11 : FVec F S256x768 .f32) (main_arg12 : FVec F S768 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x768 .f32) (main_arg1 : FVec F S768x512 .f32) (main_arg2 : FVec F S512 .f32) (main_arg3 : FVec F S512 .f32) (main_arg4 : FVec F S512 .f32) (main_arg5 : FVec F S512x256 .f32) (main_arg6 : FVec F S256 .f32) (main_arg7 : FVec F S256 .f32) (main_arg8 : FVec F S256 .f32) (main_arg9 : FVec F S256x3072 .f32) (main_arg10 : FVec F S3072 .f32) (main_arg11 : FVec F S256x768 .f32) (main_arg12 : FVec F S768 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x3072 : Shape := ⟨2, ![256, 3072]⟩
abbrev S3072 : Shape := ⟨1, ![3072]⟩
abbrev S256x768 : Shape := ⟨2, ![256, 768]⟩
abbrev S768 : Shape := ⟨1, ![768]⟩
abbrev S1x512 : Shape := ⟨2, ![1, 512]⟩
abbrev S1x256 : Shape := ⟨2, ![1, 256]⟩
abbrev S1x3072 : Shape := ⟨2, ![1, 3072]⟩
abbrev S1x768 : Shape := ⟨2, ![1, 768]⟩
abbrev S16384x3072 : Shape := ⟨2, ![16384, 3072]⟩
abbrev S256x512 : Shape := ⟨2, ![256, 512]⟩
abbrev S256x1 : Shape := ⟨2, ![256, 1]⟩
abbrev S256x256 : Shape := ⟨2, ![256, 256]⟩
abbrev S16384x4x768 : Shape := ⟨3, ![16384, 4, 768]⟩

abbrev nBuf : Space → Nat
  | .hbm => 28
  | .vmem => 18
  | .smem => 0
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x3072, .f32⟩
  | .hbm, ⟨10, _⟩ => ⟨S3072, .f32⟩
  | .hbm, ⟨11, _⟩ => ⟨S256x768, .f32⟩
  | .hbm, ⟨12, _⟩ => ⟨S768, .f32⟩
  | .hbm, ⟨13, _⟩ => ⟨S768x512, .bf16⟩
  | .hbm, ⟨14, _⟩ => ⟨S512x256, .bf16⟩
  | .hbm, ⟨15, _⟩ => ⟨S256x3072, .bf16⟩
  | .hbm, ⟨16, _⟩ => ⟨S256x768, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x3072, .f32⟩
  | .hbm, ⟨24, _⟩ => ⟨S1x768, .f32⟩
  | .hbm, ⟨25, _⟩ => ⟨S16384x3072, .f32⟩
  | .hbm, ⟨26, _⟩ => ⟨S16384x768, .f32⟩
  | .hbm, ⟨27, _⟩ => ⟨S16384x4x768, .f32⟩
  | .local _ .vmem, ⟨0, _⟩ => ⟨S256x768, .f32⟩
  | .local _ .vmem, ⟨1, _⟩ => ⟨S256x768, .f32⟩
  | .local _ .vmem, ⟨2, _⟩ => ⟨S768x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x3072, .bf16⟩
  | .local _ .vmem, ⟨11, _⟩ => ⟨S1x3072, .f32⟩
  | .local _ .vmem, ⟨12, _⟩ => ⟨S256x768, .bf16⟩
  | .local _ .vmem, ⟨13, _⟩ => ⟨S1x768, .f32⟩
  | .local _ .vmem, ⟨14, _⟩ => ⟨S256x3072, .f32⟩
  | .local _ .vmem, ⟨15, _⟩ => ⟨S256x3072, .f32⟩
  | .local _ .vmem, ⟨16, _⟩ => ⟨S256x768, .f32⟩
  | .local _ .vmem, ⟨17, _⟩ => ⟨S256x768, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  shapeCasts_S3072_S1x3072 : S3072.ShapeCasts S1x3072
  shapeCasts_S768_S1x768 : S768.ShapeCasts S1x768
  inb_S256x768_S256x768_0_0 : ∀ a, (![0, 0] : Fin 2 → Nat) a + S256x768.size a ≤ S256x768.size a
  h_S256x768 : 0 < S256x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  broadcasts_S256x1_S256x256 : S256x1.Broadcasts S256x256
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  reduces_S256x768_S256 : S256x768.Reduces [1] S256
  broadcasts_S256x1_S256x768 : S256x1.Broadcasts S256x768
  inb_S256x3072_S256x768_0_0 : ∀ a, (![0, 0] : Fin 2 → Nat) a + S256x768.size a ≤ S256x3072.size a
  inb_S1x3072_S1x768_0_0 : ∀ a, (![0, 0] : Fin 2 → Nat) a + S1x768.size a ≤ S1x3072.size a
  inb_S256x3072_S256x768_0_768 : ∀ a, (![0, 768] : Fin 2 → Nat) a + S256x768.size a ≤ S256x3072.size a
  inb_S1x3072_S1x768_0_768 : ∀ a, (![0, 768] : Fin 2 → Nat) a + S1x768.size a ≤ S1x3072.size a
  inb_S256x3072_S256x768_0_1536 : ∀ a, (![0, 1536] : Fin 2 → Nat) a + S256x768.size a ≤ S256x3072.size a
  inb_S1x3072_S1x768_0_1536 : ∀ a, (![0, 1536] : Fin 2 → Nat) a + S1x768.size a ≤ S1x3072.size a
  inb_S256x3072_S256x768_0_2304 : ∀ a, (![0, 2304] : Fin 2 → Nat) a + S256x768.size a ≤ S256x3072.size a
  inb_S1x3072_S1x768_0_2304 : ∀ a, (![0, 2304] : Fin 2 → Nat) a + S1x768.size a ≤ S1x3072.size a
  shapeCasts_S16384x3072_S16384x4x768 : S16384x3072.ShapeCasts S16384x4x768
  dot_S256x768_S768x512_S256x512_1_0_0_1_n_n_wf : DotDims.WF S256x768 S768x512 S256x512 [1] [0] [0] [1] [] []
  dot_S256x512_S512x256_S256x256_1_0_0_1_n_n_wf : DotDims.WF S256x512 S512x256 S256x256 [1] [0] [0] [1] [] []
  dot_S256x256_S256x768_S256x768_1_0_0_1_n_n_wf : DotDims.WF S256x256 S256x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S16384x768.size a
  hwx0_0 : ∀ i : grid0.Coords, EltTy.bits .f32 = 32 ∨ (Rect.block (s := S16384x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x512.size a
  hwx0_1 : ∀ i : grid0.Coords, EltTy.bits .bf16 = 32 ∨ (Rect.block (s := S768x512) S768x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x3072.size a ≤ S256x3072.size a
  hwx0_9 : ∀ i : grid0.Coords, EltTy.bits .bf16 = 32 ∨ (Rect.block (s := S256x3072) S256x3072.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S256x768.size a
  hwx0_11 : ∀ i : grid0.Coords, EltTy.bits .bf16 = 32 ∨ (Rect.block (s := S256x768) S256x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x768.size a ≤ S1x768.size a
  hwx0_12 : ∀ i : grid0.Coords, EltTy.bits .f32 = 32 ∨ (Rect.block (s := S1x768) S1x768.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x3072.size a ≤ S16384x3072.size a
  hwx0_13 : ∀ i : grid0.Coords, EltTy.bits .f32 = 32 ∨ (Rect.block (s := S16384x3072) S256x3072.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x768.size a ≤ S16384x768.size a
  hwx0_14 : ∀ i : grid0.Coords, EltTy.bits .f32 = 32 ∨ (Rect.block (s := S16384x768) S256x768.size (cc0_transform_14 i) (hinb0_14 i)).WholeWords (EltTy.packing .f32)

variable [Facts₀]

def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf

abbrev win0_0 : Pipeline.Window sig grid0 :=
  Pipeline.Window.ofSpec (Memref.whole main_arg0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S256x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S256x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S256x3072.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S256x768.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x3072 : Shape := ⟨2, ![256, 3072]⟩
abbrev S3072 : Shape := ⟨1, ![3072]⟩
abbrev S256x768 : Shape := ⟨2, ![256, 768]⟩
abbrev S768 : Shape := ⟨1, ![768]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S16384x256 : Shape := ⟨2, ![16384, 256]⟩
abbrev S1x256 : Shape := ⟨2, ![1, 256]⟩
abbrev S16384x3072 : Shape := ⟨2, ![16384, 3072]⟩
abbrev S1x3072 : Shape := ⟨2, ![1, 3072]⟩
abbrev S16384x4x768 : Shape := ⟨3, ![16384, 4, 768]⟩
abbrev S1x768 : Shape := ⟨2, ![1, 768]⟩
abbrev S16384x1x768 : Shape := ⟨3, ![16384, 1, 768]⟩

abbrev nBuf : Space → Nat
  | .hbm => 202
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512, .f32⟩
  | 4 => ⟨S512, .f32⟩
  | 5 => ⟨S512x256, .f32⟩
  | 6 => ⟨S256, .f32⟩
  | 7 => ⟨S256, .f32⟩
  | 8 => ⟨S256, .f32⟩
  | 9 => ⟨S256x3072, .f32⟩
  | 10 => ⟨S3072, .f32⟩
  | 11 => ⟨S256x768, .f32⟩
  | 12 => ⟨S768, .f32⟩
  | 13 => ⟨S16384x512, .f32⟩
  | 14 => ⟨S1x512, .f32⟩
  | 15 => ⟨S16384x512, .f32⟩
  | 16 => ⟨S16384x512, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x512, .f32⟩
  | 24 => ⟨S16384x512, .f32⟩
  | 25 => ⟨S16384x512, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384x512, .f32⟩
  | 37 => ⟨S16384x512, .f32⟩
  | 38 => ⟨S1x512, .f32⟩
  | 39 => ⟨S16384x512, .f32⟩
  | 40 => ⟨S16384x512, .f32⟩
  | 41 => ⟨S1x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x256, .f32⟩
  | 48 => ⟨S1x256, .f32⟩
  | 49 => ⟨S16384x256, .f32⟩
  | 50 => ⟨S16384x256, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S16384x256, .f32⟩
  | 58 => ⟨S16384x256, .f32⟩
  | 59 => ⟨S16384x256, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x256, .f32⟩
  | 71 => ⟨S16384x256, .f32⟩
  | 72 => ⟨S1x256, .f32⟩
  | 73 => ⟨S16384x256, .f32⟩
  | 74 => ⟨S16384x256, .f32⟩
  | 75 => ⟨S1x256, .f32⟩
  | 76 => ⟨S16384x256, .f32⟩
  | 77 => ⟨S16384x256, .f32⟩
  | 78 => ⟨S_, .f32⟩
  | 79 => ⟨S16384x256, .f32⟩
  | 80 => ⟨S16384x256, .f32⟩
  | 81 => ⟨S16384x3072, .f32⟩
  | 82 => ⟨S1x3072, .f32⟩
  | 83 => ⟨S16384x3072, .f32⟩
  | 84 => ⟨S16384x3072, .f32⟩
  | 85 => ⟨S16384x4x768, .f32⟩
  | 86 => ⟨S16384x768, .f32⟩
  | 87 => ⟨S1x768, .f32⟩
  | 88 => ⟨S16384x768, .f32⟩
  | 89 => ⟨S16384x768, .f32⟩
  | 90 => ⟨S_, .f32⟩
  | 91 => ⟨S16384, .f32⟩
  | 92 => ⟨S_, .f32⟩
  | 93 => ⟨S16384, .f32⟩
  | 94 => ⟨S16384, .f32⟩
  | 95 => ⟨S16384x1, .f32⟩
  | 96 => ⟨S16384x768, .f32⟩
  | 97 => ⟨S16384x768, .f32⟩
  | 98 => ⟨S16384x768, .f32⟩
  | 99 => ⟨S_, .f32⟩
  | 100 => ⟨S16384, .f32⟩
  | 101 => ⟨S16384x1, .f32⟩
  | 102 => ⟨S16384x768, .f32⟩
  | 103 => ⟨S16384x768, .f32⟩
  | 104 => ⟨S16384x1x768, .f32⟩
  | 105 => ⟨S16384x4x768, .f32⟩
  | 106 => ⟨S16384x4x768, .f32⟩
  | 107 => ⟨S16384x1x768, .f32⟩
  | 108 => ⟨S16384x768, .f32⟩
  | 109 => ⟨S16384x768, .f32⟩
  | 110 => ⟨S_, .f32⟩
  | 111 => ⟨S16384, .f32⟩
  | 112 => ⟨S16384x1, .f32⟩
  | 113 => ⟨S16384x1, .f32⟩
  | 114 => ⟨S_, .f32⟩
  | 115 => ⟨S16384x1, .f32⟩
  | 116 => ⟨S16384x1, .f32⟩
  | 117 => ⟨S16384x768, .f32⟩
  | 118 => ⟨S16384x768, .f32⟩
  | 119 => ⟨S16384x1x768, .f32⟩
  | 120 => ⟨S16384x768, .f32⟩
  | 121 => ⟨S16384x768, .f32⟩
  | 122 => ⟨S_, .f32⟩
  | 123 => ⟨S16384, .f32⟩
  | 124 => ⟨S16384x1, .f32⟩
  | 125 => ⟨S16384x768, .f32⟩
  | 126 => ⟨S16384x768, .f32⟩
  | 127 => ⟨S16384x768, .f32⟩
  | _ => ⟨S16384x768, .f32⟩

abbrev hbmTy0_1 (i : Nat) : BufTy := match i % 128 with
  | 0 => ⟨S16384x768, .f32⟩
  | 1 => ⟨S_, .f32⟩
  | 2 => ⟨S16384, .f32⟩
  | 3 => ⟨S16384x1, .f32⟩
  | 4 => ⟨S16384x1, .f32⟩
  | 5 => ⟨S_, .f32⟩
  | 6 => ⟨S16384x1, .f32⟩
  | 7 => ⟨S16384x1, .f32⟩
  | 8 => ⟨S16384x768, .f32⟩
  | 9 => ⟨S16384x768, .f32⟩
  | 10 => ⟨S16384x1x768, .f32⟩
  | 11 => ⟨S16384x768, .f32⟩
  | 12 => ⟨S16384x768, .f32⟩
  | 13 => ⟨S_, .f32⟩
  | 14 => ⟨S16384, .f32⟩
  | 15 => ⟨S16384x1, .f32⟩
  | 16 => ⟨S16384x768, .f32⟩
  | 17 => ⟨S16384x768, .f32⟩
  | 18 => ⟨S16384x768, .f32⟩
  | 19 => ⟨S16384x768, .f32⟩
  | 20 => ⟨S_, .f32⟩
  | 21 => ⟨S16384, .f32⟩
  | 22 => ⟨S16384x1, .f32⟩
  | 23 => ⟨S16384x768, .f32⟩
  | 24 => ⟨S16384x768, .f32⟩
  | 25 => ⟨S16384x768, .f32⟩
  | 26 => ⟨S16384x768, .f32⟩
  | 27 => ⟨S_, .f32⟩
  | 28 => ⟨S16384, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x768, .f32⟩
  | 35 => ⟨S16384x768, .f32⟩
  | 36 => ⟨S16384x1x768, .f32⟩
  | 37 => ⟨S16384x768, .f32⟩
  | 38 => ⟨S16384x768, .f32⟩
  | 39 => ⟨S_, .f32⟩
  | 40 => ⟨S16384, .f32⟩
  | 41 => ⟨S16384x1, .f32⟩
  | 42 => ⟨S16384x768, .f32⟩
  | 43 => ⟨S16384x768, .f32⟩
  | 44 => ⟨S16384x768, .f32⟩
  | 45 => ⟨S16384x768, .f32⟩
  | 46 => ⟨S_, .f32⟩
  | 47 => ⟨S16384, .f32⟩
  | 48 => ⟨S16384x1, .f32⟩
  | 49 => ⟨S16384x768, .f32⟩
  | 50 => ⟨S16384x768, .f32⟩
  | 51 => ⟨S16384x768, .f32⟩
  | 52 => ⟨S16384x768, .f32⟩
  | 53 => ⟨S_, .f32⟩
  | 54 => ⟨S16384, .f32⟩
  | 55 => ⟨S16384x1, .f32⟩
  | 56 => ⟨S16384x768, .f32⟩
  | 57 => ⟨S16384x768, .f32⟩
  | 58 => ⟨S16384x768, .f32⟩
  | 59 => ⟨S16384x768, .f32⟩
  | 60 => ⟨S_, .f32⟩
  | 61 => ⟨S16384, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x768, .f32⟩
  | 68 => ⟨S16384x768, .f32⟩
  | 69 => ⟨S16384x1x768, .f32⟩
  | 70 => ⟨S16384x1x768, .f32⟩
  | 71 => ⟨S16384x1x768, .f32⟩
  | 72 => ⟨S16384x1x768, .f32⟩
  | 73 => ⟨S16384x4x768, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call2_v0 : Ref sig .tc := ⟨.hbm, 109, rfl⟩
abbrev main_call2_cst : Ref sig .tc := ⟨.hbm, 110, rfl⟩
abbrev main_call2_v1 : Ref sig .tc := ⟨.hbm, 111, rfl⟩
abbrev main_call2_v2 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_13 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_v0 : Ref sig .tc := ⟨.hbm, 128, rfl⟩
abbrev main_call3_cst : Ref sig .tc := ⟨.hbm, 129, rfl⟩
abbrev main_call3_v1 : Ref sig .tc := ⟨.hbm, 130, rfl⟩
abbrev main_call3_v2 : Ref sig .tc := ⟨.hbm, 131, rfl⟩
abbrev main_v92 : Ref sig .tc := ⟨.hbm, 132, rfl⟩
abbrev main_cst_14 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_15 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_16 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call4_v0 : Ref sig .tc := ⟨.hbm, 154, rfl⟩
abbrev main_call4_cst : Ref sig .tc := ⟨.hbm, 155, rfl⟩
abbrev main_call4_v1 : Ref sig .tc := ⟨.hbm, 156, rfl⟩
abbrev main_call4_v2 : Ref sig .tc := ⟨.hbm, 157, rfl⟩
abbrev main_v111 : Ref sig .tc := ⟨.hbm, 158, rfl⟩
abbrev main_cst_17 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_18 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_19 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_20 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_call5_v0 : Ref sig .tc := ⟨.hbm, 187, rfl⟩
abbrev main_call5_cst : Ref sig .tc := ⟨.hbm, 188, rfl⟩
abbrev main_call5_v1 : Ref sig .tc := ⟨.hbm, 189, rfl⟩
abbrev main_call5_v2 : Ref sig .tc := ⟨.hbm, 190, rfl⟩
abbrev main_v136 : Ref sig .tc := ⟨.hbm, 191, rfl⟩
abbrev main_cst_21 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  shapeCasts_S16384x3072_S16384x4x768 : S16384x3072.ShapeCasts S16384x4x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  reducesTo_S16384x768_S16384_d1 : S16384x768.ReducesTo [1] S16384
  bcast_S_S16384 : S_.BroadcastsInDim S16384 (![] : Fin 0 → Fin S16384.rank)
  bcast_S16384x1_S16384x768_0_1 : S16384x1.BroadcastsInDim S16384x768 (![0, 1] : Fin 2 → Fin S16384x768.rank)
  bcast_S16384x768_S16384x1x768_0_2 : S16384x768.BroadcastsInDim S16384x1x768 (![0, 2] : Fin 2 → Fin S16384x1x768.rank)
  bcast_S16384x1x768_S16384x4x768_0_1_2 : S16384x1x768.BroadcastsInDim S16384x4x768 (![0, 1, 2] : Fin 3 → Fin S16384x4x768.rank)
  slices_S16384x4x768_S16384x1x768_0_0_0 : S16384x4x768.Slices ![0, 0, 0] S16384x1x768
  shapeCasts_S16384x1x768_S16384x768 : S16384x1x768.ShapeCasts S16384x768
  slices_S16384x4x768_S16384x1x768_0_1_0 : S16384x4x768.Slices ![0, 1, 0] S16384x1x768
  slices_S16384x4x768_S16384x1x768_0_2_0 : S16384x4x768.Slices ![0, 2, 0] S16384x1x768
  slices_S16384x4x768_S16384x1x768_0_3_0 : S16384x4x768.Slices ![0, 3, 0] S16384x1x768
  concatenates_S16384x1x768_S16384x1x768_S16384x1x768_S16384x1x768_S16384x4x768_d1 : Shape.Concatenates [S16384x1x768, S16384x1x768, S16384x1x768, S16384x1x768] S16384x4x768 1
  dot_S16384x768_S768x512_S16384x512_1_0_0_1_n_n_wf : DotDims.WF S16384x768 S768x512 S16384x512 [1] [0] [0] [1] [] []
  dot_S16384x512_S512x256_S16384x256_1_0_0_1_n_n_wf : DotDims.WF S16384x512 S512x256 S16384x256 [1] [0] [0] [1] [] []
  dot_S16384x256_S256x3072_S16384x3072_1_0_0_1_n_n_wf : DotDims.WF S16384x256 S256x3072 S16384x3072 [1] [0] [0] [1] [] []
  dot_S16384x256_S256x768_S16384x768_1_0_0_1_n_n_wf : DotDims.WF S16384x256 S256x768 S16384x768 [1] [0] [0] [1] [] []

variable [Facts₀]

def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x3072_S16384x3072_1_0_0_1_n_n : DotDims S16384x256 S256x3072 S16384x3072 where
  lhsContracting := [1]
  rhsContracting := [0]
  lhsNonContracting := [0]
  rhsNonContracting := [1]
  lhsBatch := []
  rhsBatch := []
  wf := dot_S16384x256_S256x3072_S16384x3072_1_0_0_1_n_n_wf
def dot_S16384x256_S256x768_S16384x768_1_0_0_1_n_n : DotDims S16384x256 S256x768 S16384x768 where
  lhsContracting := [1]
  rhsContracting := [0]
  lhsNonContracting := [0]
  rhsNonContracting := [1]
  lhsBatch := []
  rhsBatch := []
  wf := dot_S16384x256_S256x768_S16384x768_1_0_0_1_n_n_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«127205_j48309792146077_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibTileSoftmax.lean ====
/-
  Row tiles through a row-wise softmax, and the host's spelling of the same columns.

  With `IsTile r0 hr x X` (the T × C array x is rows [r0, r0 + T) of the M × C array X):
  * the maximum along each row of a tile from a starting value, kept as a T × 1 column, is the tile of the whole
    array's column of row maxima (`rowMax`, the fold of `max` over the row from that value) — the companion of the
    row sums kept as a column;
  * a difference and an exponential, entry by entry, keep tiles.
  On the whole array's side the host writes a column of row sums (or maxima) as a reduce over the second axis followed
  by a broadcast of the length-M vector along axis 0 into M × 1: that IS the column `rowSum` (or `rowMax`), whatever the
  initial value's rank-0 spelling, and a maximum taken once more with the starting value changes nothing.
-/
import proofs.«127205_j48309792146077_2_alg».proof.Proof.LibTileMore
import proofs.«127205_j48309792146077_2_alg».proof.Proof.LibRowOps

noncomputable section

namespace Cert.Tile

open Idealize.ShloMosaic Idealize.ShloMosaic.ValueIdx

/-- The maxima along the rows of an M × C array, each the fold of `max` over the row from `b`, kept as an M × 1 column. -/
def rowMax {M C : Nat} (b : EReal) (X : (⟨2, ![M, C]⟩ : Shape).Idx → EReal) : (⟨2, ![M, 1]⟩ : Shape).Idx → EReal :=
  fun i => (Finset.univ : Finset (Fin C)).fold max b (fun l => X (ix2 (n0 := M) (n1 := C) (i 0) l))

/-- Row a of the column of row maxima is the fold of `max` over row a. -/
theorem rowMax_apply {M C : Nat} (b : EReal) (X : (⟨2, ![M, C]⟩ : Shape).Idx → EReal) (a : Fin M) (q : Fin 1) :
    rowMax b X (ix2 a q) = (Finset.univ : Finset (Fin C)).fold max b (fun l => X (ix2 a l)) := rfl

variable {T M : Nat} {r0 : Nat} {hr : r0 + T ≤ M}

/-- The maximum along each row of a tile, kept as a T × 1 column, is the tile of the whole array's row maxima kept as
    an M × 1 column: row r0 + p of X is row p of x, entry by entry, and both folds start from the accumulator's value. -/
theorem laneMax {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.maximumf.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .maximumf [1] ⟨1, ![T]⟩ x acc h hφ hacc) hc)
      (rowMax (Ideal.ofBits .f32 acc) X) := by
  intro p q
  rw [RowOps.shapeCast_a_a1_apply _ hc p q, RowOps.rowMax_apply x acc h hφ hacc p, rowMax_apply]
  exact congrArg (fun f => Finset.fold max (Ideal.ofBits .f32 acc) f (Finset.univ : Finset (Fin C))) (funext fun k => hx p k)

section Pointwise
variable {C : Nat} {φ : FTy} {x y : (⟨2, ![T, C]⟩ : Shape).Idx → EReal} {X Y : (⟨2, ![M, C]⟩ : Shape).Idx → EReal}

/-- A kernel's vector difference, at the ideal values, subtracts entry by entry. -/
theorem vSub (hx : IsTile r0 hr x X) (hy : IsTile r0 hr y Y) :
    IsTile r0 hr (subf (F := Ideal) (φ := φ) x y) (fun i => X i - Y i) :=
  map₂ (fun a b => a - b) hx hy

/-- A kernel's vector exponential, at the ideal values, is the exponential entry by entry. -/
theorem vExp (hx : IsTile r0 hr x X) :
    IsTile r0 hr (exp (F := Ideal) (φ := φ) x) (fun i => Ideal.exp (X i)) :=
  map Ideal.exp hx

/-- A kernel's product with a splat of one value multiplies every entry by it. -/
theorem vScale (v : EReal) (hx : IsTile r0 hr x X) :
    IsTile r0 hr (mulf (F := Ideal) (φ := φ) x (broadcast ⟨2, ![T, C]⟩ v)) (fun i => X i * v) :=
  map (fun a => a * v) hx

end Pointwise

/-- A tile is a tile of anything the whole array equals. -/
theorem IsTile.congr {C : Nat} {x : (⟨2, ![T, C]⟩ : Shape).Idx → EReal} {X X' : (⟨2, ![M, C]⟩ : Shape).Idx → EReal}
    (hx : IsTile r0 hr x X) (e : X = X') : IsTile r0 hr x X' := e ▸ hx

/-! ## The host's spelling of the two columns -/

/-- A length-M vector broadcast along axis 0 into an M × 1 column reads, at (a, q), the vector at a. -/
theorem colOfVec_apply {M : Nat} (v : (⟨1, ![M]⟩ : Shape).Idx → EReal)
    (g : (⟨1, ![M]⟩ : Shape).BroadcastsInDim ⟨2, ![M, 1]⟩ ![0]) (a : Fin M) (q : Fin 1) :
    broadcastInDim ⟨2, ![M, 1]⟩ ![0] g v (ix2 a q) = v (ix1 a) := by
  refine broadcastInDim_apply _ g v (ix2 a q) (ix1 a) fun ax => ?_
  match ax with
  | ⟨0, _⟩ =>
    show a.val = if M = 1 then 0 else a.val
    split
    · have := a.isLt; omega
    · rfl

/-- The reduced index `a` of an M × C array with the coordinate `k` of the second axis put back is (a, k). -/
theorem lift_row2 {M C : Nat} (h : (⟨2, ![M, C]⟩ : Shape).Reduces [1] (⟨1, ![M]⟩ : Shape)) (a : Fin M)
    (k : Fin ((⟨2, ![M, C]⟩ : Shape).size 1)) : h.lift (ix1 a) k = ix2 a (⟨k.val, k.isLt⟩ : Fin C) := by
  funext c; apply Fin.ext
  fin_cases c <;> rfl

/-- The host's sum over the second axis from the initial value 0, kept as a column, is the column of row sums. -/
theorem hostRowSumCol {M C : Nat} {u : Shape} (X : FVec Ideal ⟨2, ![M, C]⟩ .f32) (init : u.Idx → Ideal .f32)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = 0)
    (g : (⟨1, ![M]⟩ : Shape).BroadcastsInDim ⟨2, ![M, 1]⟩ ![0]) :
    broadcastInDim ⟨2, ![M, 1]⟩ ![0] g (Host.reduceAdd X init h' hu) = rowSum X := by
  funext i
  obtain ⟨a, q, rfl⟩ : ∃ (a : Fin M) (q : Fin 1), i = ix2 a q := ⟨i 0, i 1, eq_ix2 i⟩
  rw [colOfVec_apply, rowSum_apply]
  show Ideal.hostReduceAdd h' X (init (Shape.Idx.first hu)) (ix1 a) = _
  rw [Ideal.hostReduceAdd_single h' h, hinit, zero_add]
  exact Finset.sum_congr rfl fun k _ => congrArg X (lift_row2 h a k)

/-- The host's maximum over the second axis from the initial value b, taken once more with b and kept as a column, is
    the column of row maxima from b. -/
theorem hostRowMaxCol {M C : Nat} {u : Shape} (X : FVec Ideal ⟨2, ![M, C]⟩ .f32) (init : u.Idx → Ideal .f32) (b : EReal)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = b) (w : FVec Ideal ⟨1, ![M]⟩ .f32) (hw : ∀ a, w a = b)
    (g : (⟨1, ![M]⟩ : Shape).BroadcastsInDim ⟨2, ![M, 1]⟩ ![0]) :
    broadcastInDim ⟨2, ![M, 1]⟩ ![0] g (maximumf (F := Ideal) w (Host.reduce FloatOps.maximumf X init h' hu)) = rowMax b X := by
  funext i
  obtain ⟨a, q, rfl⟩ : ∃ (a : Fin M) (q : Fin 1), i = ix2 a q := ⟨i 0, i 1, eq_ix2 i⟩
  rw [colOfVec_apply, rowMax_apply]
  show max (w (ix1 a)) (Host.reduce FloatOps.maximumf X init h' hu (ix1 a)) = _
  rw [hw, Host.reduce_eq_fold_single FloatOps.maximumf X init h' h hu (ix1 a), hinit]
  have e : (X ∘ h.lift (ix1 a)) = fun k => X (ix2 a (⟨k.val, k.isLt⟩ : Fin C)) := funext fun k => congrArg X (lift_row2 h a k)
  rw [e]
  exact RowOps.max_fold_max _ b _

end Cert.Tile

end
-- ==== Proof.LibHostLayers.lean ====
/-
  Row-wise layers of a dense network on whole M-row arrays of extended reals, written with the host's operations: a
  bias or scale vector repeated down the rows, a column repeated across the columns, the sum and the maximum of each
  row kept as a column (a reduce over the second axis followed by a broadcast into a column), a dense layer X · W + b,
  the mean over a row's features, a layer normalisation, a maximum with zero, the row-wise softmax, a row's Euclidean
  norm, a row divided by the larger of its norm and a tiny constant, and a row with its component along another row
  removed (one Gram–Schmidt step). Constants are broadcasts of rank-0 constants given by their f32 patterns. The side
  conditions of all these operations hold at every extent and are proved here once, so the definitions serve any
  batch size and feature count; a straight line of host operations computing the same values does so in the same words.
-/
import proofs.«127205_j48309792146077_2_alg».proof.Proof.LibTileMore

noncomputable section

namespace Cert.Spec

open Idealize.ShloMosaic Idealize.ShloMosaic.ValueIdx Cert.Tile

/-- An M × C array of extended reals (the ideal reading of an f32 array). -/
abbrev Mat (M C : Nat) : Type := FVec Ideal ⟨2, ![M, C]⟩ .f32
/-- A length-C vector of extended reals. -/
abbrev Vec1 (C : Nat) : Type := FVec Ideal ⟨1, ![C]⟩ .f32
/-- An M × K × C array of extended reals. -/
abbrev Cube (M K C : Nat) : Type := FVec Ideal ⟨3, ![M, K, C]⟩ .f32

/-! ## Side conditions, at every extent -/

theorem redTo (M C : Nat) : (⟨2, ![M, C]⟩ : Shape).ReducesTo [1] ⟨1, ![M]⟩ :=
  ⟨rfl, fun b => by match b with | ⟨0, _⟩ => rfl⟩

theorem red (M C : Nat) : (⟨2, ![M, C]⟩ : Shape).Reduces [1] ⟨1, ![M]⟩ :=
  ⟨rfl, Nat.one_pos, fun b => by match b with | ⟨0, _⟩ => rfl⟩

theorem numel0 : 0 < (⟨0, ![]⟩ : Shape).numel := by decide

/-- A length-C vector broadcasts along axis 1 into a 1 × C row. -/
theorem bidVecRow (C : Nat) : (⟨1, ![C]⟩ : Shape).BroadcastsInDim ⟨2, ![1, C]⟩ ![1] :=
  ⟨fun a b _ => Subsingleton.elim a b, fun a => by match a with | ⟨0, _⟩ => exact Or.inr rfl⟩

/-- A length-M vector broadcasts along axis 0 into an M × 1 column. -/
theorem bidVecCol (M : Nat) : (⟨1, ![M]⟩ : Shape).BroadcastsInDim ⟨2, ![M, 1]⟩ ![0] :=
  ⟨fun a b _ => Subsingleton.elim a b, fun a => by match a with | ⟨0, _⟩ => exact Or.inr rfl⟩

/-- A scalar broadcasts to a length-M vector. -/
theorem bidScalarVec (M : Nat) : (⟨0, ![]⟩ : Shape).BroadcastsInDim ⟨1, ![M]⟩ ![] :=
  ⟨fun a => a.elim0, fun a => a.elim0⟩

theorem inj02 : Function.Injective (![0, 2] : Fin 2 → Fin 3) := by decide
theorem inj012 : Function.Injective (![0, 1, 2] : Fin 3 → Fin 3) := by decide

/-- An M × C array broadcasts along axes (0, 2) into M × 1 × C. -/
theorem bidMid (M C : Nat) : (⟨2, ![M, C]⟩ : Shape).BroadcastsInDim ⟨3, ![M, 1, C]⟩ ![0, 2] :=
  ⟨inj02, fun a => by match a with | ⟨0, _⟩ => exact Or.inr rfl | ⟨1, _⟩ => exact Or.inr rfl⟩

/-- An M × 1 × C array broadcasts along (0, 1, 2) into M × K × C. -/
theorem bidMidRep (M K C : Nat) : (⟨3, ![M, 1, C]⟩ : Shape).BroadcastsInDim ⟨3, ![M, K, C]⟩ ![0, 1, 2] :=
  ⟨inj012, fun a => by match a with | ⟨0, _⟩ => exact Or.inr rfl | ⟨1, _⟩ => exact Or.inl rfl | ⟨2, _⟩ => exact Or.inr rfl⟩

variable {M : Nat}

/-! ## The building blocks, in the host's words -/

/-- The rank-0 constant of a 32-bit pattern. -/
def lit (b : BitVec 32) : FVec Ideal ⟨0, ![]⟩ .f32 := constant (F := Ideal) ⟨0, ![]⟩ .f32 b

/-- One value over an M × C array. -/
def splat (M C : Nat) (b : BitVec 32) : Mat M C := broadcastInDim ⟨2, ![M, C]⟩ ![] (bidScalar M C) (lit b)

/-- A length-C vector as a row, repeated down M rows. -/
def rows (M : Nat) {C : Nat} (b : Vec1 C) : Mat M C :=
  broadcastInDim ⟨2, ![M, C]⟩ ![0, 1] (bidRow M C) (broadcastInDim ⟨2, ![1, C]⟩ ![1] (bidVecRow C) b)

/-- An M × 1 column repeated across C columns. -/
def across {M : Nat} (C : Nat) (v : Mat M 1) : Mat M C := broadcastInDim ⟨2, ![M, C]⟩ ![0, 1] (bidCol M C) v

/-- The sum of each row, kept as an M × 1 column. -/
def sumCol {C : Nat} (X : Mat M C) : Mat M 1 :=
  broadcastInDim ⟨2, ![M, 1]⟩ ![0] (bidVecCol M)
    (Host.reduceAdd (F := Ideal) (axes := [1]) X (lit 0x00000000#32) (redTo M C) numel0)

/-- The maximum of each row from −∞, kept as an M × 1 column. -/
def maxCol {C : Nat} (X : Mat M C) : Mat M 1 :=
  broadcastInDim ⟨2, ![M, 1]⟩ ![0] (bidVecCol M)
    (maximumf (F := Ideal) (broadcastInDim ⟨1, ![M]⟩ ![] (bidScalarVec M) (lit 0xFF800000#32))
      (Host.reduce (axes := [1]) FloatOps.maximumf X (lit 0xFF800000#32) (redTo M C) numel0))

/-- X · W + b, the bias repeated down the rows. -/
def dense {K N : Nat} (X : Mat M K) (W : Mat K N) (b : Vec1 N) : Mat M N :=
  addf (Host.dotGeneral (F := Ideal) (DotDims.plain M K N) none X W) (rows M b)

/-- The mean of each row (the row sum divided by the count n, given as its f32 pattern), as a column. -/
def meanCol {C : Nat} (n : BitVec 32) (X : Mat M C) : Mat M 1 := Host.divf (sumCol X) (splat M 1 n)

/-- Each row with its mean removed. -/
def center {C : Nat} (n : BitVec 32) (X : Mat M C) : Mat M C := subf X (across C (meanCol n X))

/-- Layer normalisation over the features: (x − mean) · rsqrt(var + ε) · g + b, ε the f32 nearest 10⁻⁵. -/
def lnorm {C : Nat} (n : BitVec 32) (X : Mat M C) (g be : Vec1 C) : Mat M C :=
  addf (mulf (mulf (center n X)
      (across C (Host.rsqrt (addf (meanCol n (mulf (center n X) (center n X))) (splat M 1 0x3727C5AC#32)))))
    (rows M g)) (rows M be)

/-- The maximum with zero, entry by entry. -/
def relu {C : Nat} (X : Mat M C) : Mat M C := maximumf X (splat M C 0x00000000#32)

/-- exp (x − row maximum). -/
def expShift {C : Nat} (X : Mat M C) : Mat M C := Host.exp (subf X (across C (maxCol X)))

/-- The row-wise softmax. -/
def softmax {C : Nat} (X : Mat M C) : Mat M C := Host.divf (expShift X) (across C (sumCol (expShift X)))

/-- The Euclidean norm of each row, as a column. -/
def normCol {C : Nat} (v : Mat M C) : Mat M 1 := Host.sqrt (sumCol (mulf v v))

/-- Each row divided by the larger of its norm and the f32 nearest 10⁻¹². -/
def unit {C : Nat} (v : Mat M C) : Mat M C :=
  Host.divf v (across C (maximumf (normCol v) (splat M 1 0x2B8CBCCC#32)))

/-- v with its component along u removed, row by row: v − ⟨v, u⟩ u. -/
def strip {C : Nat} (v u : Mat M C) : Mat M C := subf v (mulf (across C (sumCol (mulf v u))) u)

/-- An M × C array as M × 1 × C. -/
def mid {C : Nat} (u : Mat M C) : Cube M 1 C := broadcastInDim ⟨3, ![M, 1, C]⟩ ![0, 2] (bidMid M C) u

end Cert.Spec

end
-- ==== Proof.LibTileLayers.lean ====
/-
  The network's layers on a tile of T rows, in a kernel's vector operations, against the same layers on the whole
  M-row arrays in the host's operations (LibHostLayers.lean). A tile x of an array X (rows [r0, r0 + T) of X) stays a tile
  through every layer, because every operation of such a network works row by row: a product with a weight matrix, a
  bias added to every row, the mean and the variance over a row's features, the row maximum and the row sum of the
  softmax, the inner product of two rows and a row's norm in the orthogonalisation. Each statement below says: if the
  operands are tiles of whole arrays, the kernel's expression on the tiles is the tile of the host's expression on the
  whole arrays.
-/
import proofs.«127205_j48309792146077_2_alg».proof.Proof.LibTileSoftmax
import proofs.«127205_j48309792146077_2_alg».proof.Proof.LibHostLayers

noncomputable section

namespace Cert.KSpec

open Idealize.ShloMosaic Idealize.ShloMosaic.ValueIdx Cert.Tile Cert.Spec

/-! ## Side conditions of the kernel's layout operations, at every extent -/

theorem scCol (T : Nat) : (⟨1, ![T]⟩ : Shape).ShapeCasts ⟨2, ![T, 1]⟩ := by
  show Shape.numel _ = Shape.numel _
  simp [Shape.numel, Fin.prod_univ_succ]

theorem scSelf (s : Shape) : s.ShapeCasts s := rfl

theorem bcCol (T C : Nat) : (⟨2, ![T, 1]⟩ : Shape).Broadcasts ⟨2, ![T, C]⟩ :=
  ⟨le_refl _, fun a => by
    match a with
    | ⟨0, _⟩ => exact Or.inr fun _ => rfl
    | ⟨1, _⟩ => exact Or.inl rfl⟩

theorem bcRow (T C : Nat) : (⟨2, ![1, C]⟩ : Shape).Broadcasts ⟨2, ![T, C]⟩ :=
  ⟨le_refl _, fun a => by
    match a with
    | ⟨0, _⟩ => exact Or.inl rfl
    | ⟨1, _⟩ => exact Or.inr fun _ => rfl⟩

/-- A tile of T rows and C columns. -/
abbrev Tl (T C : Nat) : Type := FVec Ideal ⟨2, ![T, C]⟩ .f32

variable {T : Nat}

/-! ## The layers on a tile, in the kernel's words -/

/-- The sum of each row of the tile, kept as a column. -/
def kSumCol {C : Nat} (x : Tl T C) : Tl T 1 :=
  shapeCast ⟨2, ![T, 1]⟩ (multiReduction (F := Ideal) .add [1] ⟨1, ![T]⟩ x 0x00000000#32 (red T C) (.inl rfl) rfl) (scCol T)

/-- The maximum of each row of the tile from −∞, kept as a column. -/
def kMaxCol {C : Nat} (x : Tl T C) : Tl T 1 :=
  shapeCast ⟨2, ![T, 1]⟩ (multiReduction (F := Ideal) .maximumf [1] ⟨1, ![T]⟩ x 0xFF800000#32 (red T C) (.inl rfl) rfl) (scCol T)

/-- One f32 value over the tile. -/
def kSplat (T C : Nat) (b : BitVec 32) : Tl T C := broadcast ⟨2, ![T, C]⟩ (Scalar.ofBits (F := Ideal) .f32 b)

/-- A column repeated across C columns. -/
def kAcross (C : Nat) (v : Tl T 1) : Tl T C := broadcastTo ⟨2, ![T, C]⟩ v (bcCol T C)

/-- A 1 × C row (passed through a cast to its own shape) repeated down the tile's rows. -/
def kRows (T : Nat) {C : Nat} (r : Tl 1 C) : Tl T C :=
  broadcastTo ⟨2, ![T, C]⟩ (shapeCast ⟨2, ![1, C]⟩ r (scSelf _)) (bcRow T C)

def kMeanCol {C : Nat} (n : BitVec 32) (x : Tl T C) : Tl T 1 := divf (kSumCol x) (kSplat T 1 n)

def kCenter {C : Nat} (n : BitVec 32) (x : Tl T C) : Tl T C := subf x (kAcross C (kMeanCol n x))

def kLnorm {C : Nat} (n : BitVec 32) (x : Tl T C) (g be : Tl 1 C) : Tl T C :=
  addf (mulf (mulf (kCenter n x)
      (kAcross C (rsqrt (addf (kMeanCol n (mulf (kCenter n x) (kCenter n x))) (kSplat T 1 0x3727C5AC#32)))))
    (kRows T g)) (kRows T be)

def kRelu {C : Nat} (x : Tl T C) : Tl T C := maximumf x (kSplat T C 0x00000000#32)

/-- x − its row maximum. -/
def kShift {C : Nat} (x : Tl T C) : Tl T C := subf x (kAcross C (kMaxCol x))

/-- exp s divided by its row sum. -/
def kNormExp {C : Nat} (s : Tl T C) : Tl T C := divf (exp s) (kAcross C (kSumCol (exp s)))

/-- A row sum of squares, as a column, to a unit vector: v / max (sqrt ss) tiny. -/
def kUnitOf {C : Nat} (v : Tl T C) (ss : Tl T 1) : Tl T C :=
  divf v (kAcross C (maximumf (sqrt ss) (kSplat T 1 0x2B8CBCCC#32)))

def kUnit {C : Nat} (v : Tl T C) : Tl T C := kUnitOf v (kSumCol (mulf v v))

def kStrip {C : Nat} (v u : Tl T C) : Tl T C := subf v (mulf (kAcross C (kSumCol (mulf v u))) u)

/-! ## Each layer keeps tiles -/

variable {M : Nat} {r0 : Nat} {hr : r0 + T ≤ M}

theorem lit_zero : lit 0x00000000#32 (Shape.Idx.first numel0) = 0 := Ideal.ofBits_zero_f32

theorem sumCol_eq {C : Nat} (X : Mat M C) : sumCol X = rowSum X :=
  hostRowSumCol X (lit 0x00000000#32) (redTo M C) (red M C) numel0 lit_zero (bidVecCol M)

theorem maxCol_eq {C : Nat} (X : Mat M C) : maxCol X = rowMax (Ideal.ofBits .f32 0xFF800000#32) X :=
  hostRowMaxCol X (lit 0xFF800000#32) (Ideal.ofBits .f32 0xFF800000#32) (redTo M C) (red M C) numel0 rfl _
    (fun a => broadcastInDim_apply _ (bidScalarVec M) (lit 0xFF800000#32) a ix0 fun ax => ax.elim0) (bidVecCol M)

theorem tSumCol {C : Nat} {x : Tl T C} {X : Mat M C} (hx : IsTile r0 hr x X) : IsTile r0 hr (kSumCol x) (sumCol X) :=
  (laneSum 0x00000000#32 (red T C) (.inl rfl) rfl (scCol T) hx).congr (sumCol_eq X).symm

theorem tMaxCol {C : Nat} {x : Tl T C} {X : Mat M C} (hx : IsTile r0 hr x X) : IsTile r0 hr (kMaxCol x) (maxCol X) :=
  (laneMax 0xFF800000#32 (red T C) (.inl rfl) rfl (scCol T) hx).congr (maxCol_eq X).symm

theorem tSplat (C : Nat) (b : BitVec 32) : IsTile r0 hr (kSplat T C b) (splat M C b) := vSplat b (bidScalar M C)

theorem tAcross (C : Nat) {v : Tl T 1} {V : Mat M 1} (hv : IsTile r0 hr v V) : IsTile r0 hr (kAcross C v) (across C V) :=
  colRep (bcCol T C) (bidCol M C) hv

/-- A length-C vector b, as the kernel finds it (cast to a 1 × C row), repeated down the tile's rows, is the tile of b
    repeated down the whole array's rows. -/
theorem tRows {C : Nat} (b : Vec1 C) (h1 : (⟨1, ![C]⟩ : Shape).ShapeCasts ⟨2, ![1, C]⟩) :
    IsTile r0 hr (kRows T (shapeCast ⟨2, ![1, C]⟩ b h1)) (rows M b) := by
  unfold kRows
  rw [shapeCast_self]
  exact bias b h1 (bcRow T C) (bidVecRow C) (bidRow M C)

theorem tMeanCol {C : Nat} (n : BitVec 32) {x : Tl T C} {X : Mat M C} (hx : IsTile r0 hr x X) :
    IsTile r0 hr (kMeanCol n x) (meanCol n X) := vDiv (tSumCol hx) (tSplat 1 n)

theorem tCenter {C : Nat} (n : BitVec 32) {x : Tl T C} {X : Mat M C} (hx : IsTile r0 hr x X) :
    IsTile r0 hr (kCenter n x) (center n X) := vSub hx (tAcross C (tMeanCol n hx))

theorem tRsqrt {C : Nat} {x : Tl T C} {X : Mat M C} (hx : IsTile r0 hr x X) : IsTile r0 hr (rsqrt x) (Host.rsqrt X) :=
  map Ideal.rsqrt hx

theorem tSqrt {C : Nat} {x : Tl T C} {X : Mat M C} (hx : IsTile r0 hr x X) : IsTile r0 hr (sqrt x) (Host.sqrt X) :=
  map Ideal.sqrt hx

theorem tExp {C : Nat} {x : Tl T C} {X : Mat M C} (hx : IsTile r0 hr x X) : IsTile r0 hr (exp x) (Host.exp X) :=
  map Ideal.exp hx

theorem tLnorm {C : Nat} (n : BitVec 32) {x : Tl T C} {X : Mat M C} (hx : IsTile r0 hr x X) (g be : Vec1 C)
    (h1 : (⟨1, ![C]⟩ : Shape).ShapeCasts ⟨2, ![1, C]⟩) :
    IsTile r0 hr (kLnorm n x (shapeCast ⟨2, ![1, C]⟩ g h1) (shapeCast ⟨2, ![1, C]⟩ be h1)) (lnorm n X g be) :=
  vAdd (vMul (vMul (tCenter n hx)
      (tAcross C (tRsqrt (vAdd (tMeanCol n (vMul (tCenter n hx) (tCenter n hx))) (tSplat 1 0x3727C5AC#32)))))
    (tRows g h1)) (tRows be h1)

theorem tRelu {C : Nat} {x : Tl T C} {X : Mat M C} (hx : IsTile r0 hr x X) : IsTile r0 hr (kRelu x) (relu X) :=
  vMax hx (tSplat C 0x00000000#32)

theorem tShift {C : Nat} {x : Tl T C} {X : Mat M C} (hx : IsTile r0 hr x X) :
    IsTile r0 hr (kShift x) (subf X (across C (maxCol X))) := vSub hx (tAcross C (tMaxCol hx))

theorem tNormExp {C : Nat} {s : Tl T C} {S : Mat M C} (hs : IsTile r0 hr s S) :
    IsTile r0 hr (kNormExp s) (Host.divf (Host.exp S) (across C (sumCol (Host.exp S)))) :=
  vDiv (tExp hs) (tAcross C (tSumCol (tExp hs)))

/-- The softmax of the whole array is exp of the shifted array divided by its row sums. -/
theorem tSoftmax {C : Nat} {x : Tl T C} {X : Mat M C} (hx : IsTile r0 hr x X) :
    IsTile r0 hr (kNormExp (kShift x)) (softmax X) := tNormExp (tShift hx)

theorem tUnitOf {C : Nat} {v : Tl T C} {V : Mat M C} {ss : Tl T 1} (hv : IsTile r0 hr v V)
    (hss : IsTile r0 hr ss (sumCol (mulf V V))) : IsTile r0 hr (kUnitOf v ss) (unit V) :=
  vDiv hv (tAcross C (vMax (tSqrt hss) (tSplat 1 0x2B8CBCCC#32)))

theorem tUnit {C : Nat} {v : Tl T C} {V : Mat M C} (hv : IsTile r0 hr v V) : IsTile r0 hr (kUnit v) (unit V) :=
  tUnitOf hv (tSumCol (vMul hv hv))

theorem tStrip {C : Nat} {v u : Tl T C} {V U : Mat M C} (hv : IsTile r0 hr v V) (hu : IsTile r0 hr u U) :
    IsTile r0 hr (kStrip v u) (strip V U) := vSub hv (vMul (tAcross C (tSumCol (vMul hv hu))) hu)

/-- The product of a tile with a weight matrix (as the kernel finds it, cast to its own shape) plus a bias row is the
    tile of the whole array's dense layer. -/
theorem tDense {K N : Nat} {φ₁ φ₂ : FTy} {x : (⟨2, ![T, K]⟩ : Shape).Idx → EReal} {X : Mat M K}
    (d : DotDims ⟨2, ![T, K]⟩ ⟨2, ![K, N]⟩ ⟨2, ![T, N]⟩) (hd : d = DotDims.plain T K N) (W : Mat K N) (b : Vec1 N)
    (h1 : (⟨1, ![N]⟩ : Shape).ShapeCasts ⟨2, ![1, N]⟩) (hx : IsTile r0 hr x X) :
    IsTile r0 hr
      (addf (F := Ideal) (Idealize.ShloMosaic.matmul (F := Ideal) (φ₁ := φ₁) (φ₂ := φ₂) d none x
          (shapeCast ⟨2, ![K, N]⟩ W (scSelf _)) (constant ⟨2, ![T, N]⟩ .f32 0x00000000#32))
        (kRows T (shapeCast ⟨2, ![1, N]⟩ b h1)))
      (dense X W b) := by
  rw [shapeCast_self]
  exact vAdd (vMatmul d hd none W hx) (tRows b h1)

end Cert.KSpec

end
-- ==== Proof.Spec.lean ====
/-
  The network as functions of whole arrays, on the extended reals.

  A batch of 16384 rows goes through two dense layers, each followed by a layer normalisation over the features and a
  maximum with zero; from the second layer's output h one linear head gives 16384 × 768 logits, whose row-wise softmax
  is the attention a; a second head gives 16384 × 3072 values, read as four 16384 × 768 slices v₀ … v₃, each multiplied
  entry by entry with a; and the four slices are made orthonormal row by row, in order: from vₖ the components along
  the earlier directions are removed one after the other (v ← v − ⟨v, u⟩ u), and what is left is divided by the larger
  of its Euclidean norm and a tiny constant. The results are the four directions side by side along a middle axis, and a.
  The layers themselves are those of LibHostLayers.lean, in the host's words.
-/
import proofs.«127205_j48309792146077_2_alg».proof.Proof.LibHostLayers

noncomputable section

namespace Cert.Spec

open Idealize.ShloMosaic Idealize.ShloMosaic.ValueIdx Cert.Tile

/-! ## The network -/

/-- The thirteen argument arrays. -/
structure Args where
  x : Mat 16384 768
  w1 : Mat 768 512
  b1 : Vec1 512
  g1 : Vec1 512
  be1 : Vec1 512
  w2 : Mat 512 256
  b2 : Vec1 256
  g2 : Vec1 256
  be2 : Vec1 256
  wd : Mat 256 3072
  bd : Vec1 3072
  wa : Mat 256 768
  ba : Vec1 768

/-- The first layer's output. -/
def h1 (a : Args) : Mat 16384 512 := relu (lnorm 0x44000000#32 (dense a.x a.w1 a.b1) a.g1 a.be1)
/-- The second layer's output. -/
def h2 (a : Args) : Mat 16384 256 := relu (lnorm 0x43800000#32 (dense (h1 a) a.w2 a.b2) a.g2 a.be2)
/-- The attention. -/
def attn (a : Args) : Mat 16384 768 := softmax (dense (h2 a) a.wa a.ba)
/-- The four value slices, each multiplied by the attention, as one 16384 × 4 × 768 array. -/
def vals (a : Args) : Cube 16384 4 768 :=
  mulf (shapeCast ⟨3, ![16384, 4, 768]⟩ (dense (h2 a) a.wd a.bd) (by decide))
    (broadcastInDim ⟨3, ![16384, 4, 768]⟩ ![0, 1, 2] (bidMidRep 16384 4 768) (mid (attn a)))
/-- Slice k of the values, as a 16384 × 768 array. -/
def val (a : Args) (k : Nat) (hk : (⟨3, ![16384, 4, 768]⟩ : Shape).Slices ![0, k, 0] ⟨3, ![16384, 1, 768]⟩) : Mat 16384 768 :=
  shapeCast ⟨2, ![16384, 768]⟩ (extractStridedSlice ⟨3, ![16384, 1, 768]⟩ ![0, k, 0] (vals a) hk) (by decide)

/-- The four orthonormal directions. -/
def u0 (a : Args) : Mat 16384 768 := unit (val a 0 (by decide))
def r1 (a : Args) : Mat 16384 768 := strip (val a 1 (by decide)) (u0 a)
def u1 (a : Args) : Mat 16384 768 := unit (r1 a)
def r2a (a : Args) : Mat 16384 768 := strip (val a 2 (by decide)) (u0 a)
def r2 (a : Args) : Mat 16384 768 := strip (r2a a) (u1 a)
def u2 (a : Args) : Mat 16384 768 := unit (r2 a)
def r3a (a : Args) : Mat 16384 768 := strip (val a 3 (by decide)) (u0 a)
def r3b (a : Args) : Mat 16384 768 := strip (r3a a) (u1 a)
def r3 (a : Args) : Mat 16384 768 := strip (r3b a) (u2 a)
def u3 (a : Args) : Mat 16384 768 := unit (r3 a)

theorem catOk : Shape.Concatenates [⟨3, ![16384, 1, 768]⟩, ⟨3, ![16384, 1, 768]⟩, ⟨3, ![16384, 1, 768]⟩, ⟨3, ![16384, 1, 768]⟩]
    ⟨3, ![16384, 4, 768]⟩ 1 := by decide

/-- The first result: the four directions along the middle axis. -/
def dirs (a : Args) : Cube 16384 4 768 :=
  concatenate ⟨3, ![16384, 4, 768]⟩ 1
    [⟨⟨3, ![16384, 1, 768]⟩, mid (u0 a)⟩, ⟨⟨3, ![16384, 1, 768]⟩, mid (u1 a)⟩, ⟨⟨3, ![16384, 1, 768]⟩, mid (u2 a)⟩,
      ⟨⟨3, ![16384, 1, 768]⟩, mid (u3 a)⟩] catOk

end Cert.Spec

end
-- ==== Proof.KPay.lean ====
/-
  The kernel body's values on one tile of 256 rows are the tiles of the network's values on the whole batch.

  The body's arithmetic is a chain of named values (the skeleton's payloads): the second layer's product, the second
  layer's output h, the shifted logits, the attention, and the four directions, each a function of the tile of the
  embeddings and of the whole weight arrays. Reading each payload as the layers of LibTileLayers.lean applied in order, a
  tile of the embeddings gives, value by value, the tile of the corresponding whole-batch value of Spec.lean. The value
  slice k of the second head is taken here with its own 256 × 768 weight block and 768-entry bias segment; that this is
  slice k of the whole 3072-column head is shown with the whole arrays (ValSlices.lean).
-/
import proofs.«127205_j48309792146077_2_alg».proof.Proof.Gen.KernelIdeal.Skeleton
import proofs.«127205_j48309792146077_2_alg».proof.Proof.LibTileLayers
import proofs.«127205_j48309792146077_2_alg».proof.Proof.Spec

noncomputable section

namespace Cert.KPay

open Idealize.ShloMosaic Idealize.ShloMosaic.ValueIdx Cert.Tile Cert.Spec Cert.KSpec
open Cert.KernelIdeal Cert.KernelIdeal.Gen

variable [Cert.KernelIdeal.Facts]

/-- A length-C vector casts to a 1 × C row. -/
theorem scRow (C : Nat) : (⟨1, ![C]⟩ : Shape).ShapeCasts ⟨2, ![1, C]⟩ := by
  show Shape.numel _ = Shape.numel _
  simp [Shape.numel, Fin.prod_univ_succ]

/-- A length-C vector as the 1 × C row the kernel is handed. -/
def row {C : Nat} (b : Vec1 C) : Tl 1 C := shapeCast ⟨2, ![1, C]⟩ b (scRow C)

/-- The product of a tile with a weight matrix (cast to its own shape), no bias. -/
theorem tMatmul {T M K N r0 : Nat} {hr : r0 + T ≤ M} {φ₁ φ₂ : FTy} {x : (⟨2, ![T, K]⟩ : Shape).Idx → EReal} {X : Mat M K}
    (d : DotDims ⟨2, ![T, K]⟩ ⟨2, ![K, N]⟩ ⟨2, ![T, N]⟩) (hd : d = DotDims.plain T K N) (W : Mat K N)
    (hx : IsTile r0 hr x X) :
    IsTile r0 hr
      (Idealize.ShloMosaic.matmul (F := Ideal) (φ₁ := φ₁) (φ₂ := φ₂) d none x
          (shapeCast ⟨2, ![K, N]⟩ W (scSelf _)) (constant ⟨2, ![T, N]⟩ .f32 0x00000000#32))
      (Host.dotGeneral (F := Ideal) (DotDims.plain M K N) none X W) := by
  rw [shapeCast_self]
  exact vMatmul d hd none W hx

/-- The attention-weighted value slice of the whole batch for a 256 × 768 weight block and its bias segment. -/
def weighted (a : Args) (W : Mat 256 768) (b : Vec1 768) : Mat 16384 768 := mulf (dense (h2 a) W b) (attn a)

/-- The second layer's product, before its bias. -/
def pre2 (a : Args) : Mat 16384 256 := Host.dotGeneral (F := Ideal) (DotDims.plain 16384 512 256) none (h1 a) a.w2

/-- The logits with each row's maximum removed. -/
def shifted (a : Args) : Mat 16384 768 :=
  subf (dense (h2 a) a.wa a.ba) (across 768 (maxCol (dense (h2 a) a.wa a.ba)))

variable {r0 : Nat} {hr : r0 + 256 ≤ 16384}

theorem pay2 (a : Args) (x0 : Tl 256 768) (hx : IsTile r0 hr x0 a.x) :
    IsTile r0 hr (k0_pay2 (F := Ideal) x0 a.w1 (row a.b1) (row a.g1) (row a.be1) a.w2) (pre2 a) := by
  have t1 := tDense (φ₁ := .bf16) (φ₂ := .bf16) dot_S256x768_S768x512_S256x512_1_0_0_1_n_n rfl a.w1 a.b1 (scRow 512)
    (vTrunc (φ := .f32) .bf16 bitsLt_bf16_f32 hx)
  have t2 := tRelu (tLnorm 0x44000000#32 t1 a.g1 a.be1 (scRow 512))
  exact tMatmul (φ₁ := .bf16) (φ₂ := .bf16) dot_S256x512_S512x256_S256x256_1_0_0_1_n_n rfl a.w2
    (vTrunc (φ := .f32) .bf16 bitsLt_bf16_f32 t2)

theorem pay3 (a : Args) (v38 : Tl 256 256) (h38 : IsTile r0 hr v38 (pre2 a)) :
    IsTile r0 hr (k0_pay3 (F := Ideal) v38 (row a.b2) (row a.g2) (row a.be2)) (h2 a) :=
  vTrunc (φ := .f32) .bf16 bitsLt_bf16_f32
    (tRelu (tLnorm 0x43800000#32 (vAdd h38 (tRows a.b2 (scRow 256))) a.g2 a.be2 (scRow 256)))

theorem pay4 (a : Args) (v38 : Tl 256 256) (h38 : IsTile r0 hr v38 (pre2 a)) :
    IsTile r0 hr (k0_pay4 (F := Ideal) v38 (row a.b2) (row a.g2) (row a.be2) a.wa (row a.ba)) (shifted a) :=
  tShift (tDense (φ₁ := .bf16) (φ₂ := .bf16) dot_S256x256_S256x768_S256x768_1_0_0_1_n_n rfl a.wa a.ba (scRow 768) (pay3 a v38 h38))

theorem pay5 (a : Args) (v80 : Tl 256 768) (h80 : IsTile r0 hr v80 (shifted a)) :
    IsTile r0 hr (k0_pay5 (F := Ideal) v80) (attn a) := tNormExp h80

theorem pay6 (a : Args) (v69 : Tl 256 256) (v80 : Tl 256 768) (W : Mat 256 768) (b : Vec1 768)
    (h69 : IsTile r0 hr v69 (h2 a)) (h80 : IsTile r0 hr v80 (shifted a)) :
    IsTile r0 hr (k0_pay6 (F := Ideal) v69 v80 W (row b)) (unit (weighted a W b)) :=
  tUnit (vMul (tDense (φ₁ := .bf16) (φ₂ := .bf16) dot_S256x256_S256x768_S256x768_1_0_0_1_n_n rfl W b (scRow 768) h69) (pay5 a v80 h80))

theorem pay7 (a : Args) (v69 : Tl 256 256) (v80 : Tl 256 768) (W0 W1 : Mat 256 768) (b0 b1 : Vec1 768)
    (h69 : IsTile r0 hr v69 (h2 a)) (h80 : IsTile r0 hr v80 (shifted a)) :
    IsTile r0 hr (k0_pay7 (F := Ideal) v69 v80 W0 (row b0) W1 (row b1)) (strip (weighted a W1 b1) (unit (weighted a W0 b0))) :=
  tStrip (vMul (tDense (φ₁ := .bf16) (φ₂ := .bf16) dot_S256x256_S256x768_S256x768_1_0_0_1_n_n rfl W1 b1 (scRow 768) h69) (pay5 a v80 h80))
    (pay6 a v69 v80 W0 b0 h69 h80)

theorem pay9 (v117 : Tl 256 768) (R : Mat 16384 768) (h : IsTile r0 hr v117 R) :
    IsTile r0 hr (k0_pay9 (F := Ideal) v117
      (multiReduction (F := Ideal) .add [1] S256 (mulf v117 v117) 0x00000000#32 reduces_S256x768_S256 (.inl rfl) rfl)) (unit R) :=
  tUnit h

theorem pay10 (a : Args) (v69 : Tl 256 256) (v85 v102 v117 : Tl 256 768) (v119 : FVec Ideal S256 .f32) (W : Mat 256 768) (b : Vec1 768)
    (A U0 U1 : Mat 16384 768) (h69 : IsTile r0 hr v69 (h2 a)) (h85 : IsTile r0 hr v85 A) (h102 : IsTile r0 hr v102 U0)
    (h125 : IsTile r0 hr (k0_pay9 (F := Ideal) v117 v119) U1) :
    IsTile r0 hr (k0_pay10 (F := Ideal) v69 v85 v102 v117 v119 W (row b))
      (unit (strip (strip (mulf (dense (h2 a) W b) A) U0) U1)) :=
  tUnit (tStrip (tStrip (vMul (tDense (φ₁ := .bf16) (φ₂ := .bf16) dot_S256x256_S256x768_S256x768_1_0_0_1_n_n rfl W b (scRow 768) h69) h85) h102) h125)

theorem pay1 (a : Args) (v69 : Tl 256 256) (v85 v102 v125 v154 : Tl 256 768) (W : Mat 256 768) (b : Vec1 768)
    (A U0 U1 U2 : Mat 16384 768) (h69 : IsTile r0 hr v69 (h2 a)) (h85 : IsTile r0 hr v85 A) (h102 : IsTile r0 hr v102 U0)
    (h125 : IsTile r0 hr v125 U1) (h154 : IsTile r0 hr v154 U2) :
    IsTile r0 hr (k0_pay1 (F := Ideal) v69 v85 v102 v125 v154 (k0_pay11 (F := Ideal) W) (k0_pay12 (F := Ideal) (row b)))
      (unit (strip (strip (strip (mulf (dense (h2 a) W b) A) U0) U1) U2)) :=
  tUnit (tStrip (tStrip (tStrip (vMul (tDense (φ₁ := .bf16) (φ₂ := .bf16) dot_S256x256_S256x768_S256x768_1_0_0_1_n_n rfl W b (scRow 768) h69) h85) h102) h125) h154)

/-! ## The body's five stored values, from the tile of the embeddings and the whole weights -/

section Chain
variable (a : Args) (x0 : Tl 256 768) (W0 W1 W2 W3 : Mat 256 768) (b0 b1 b2 b3 : Vec1 768)

def q2 : Tl 256 256 := k0_pay2 (F := Ideal) x0 a.w1 (row a.b1) (row a.g1) (row a.be1) a.w2
def q3 : Tl 256 256 := k0_pay3 (F := Ideal) (q2 a x0) (row a.b2) (row a.g2) (row a.be2)
def q4 : Tl 256 768 := k0_pay4 (F := Ideal) (q2 a x0) (row a.b2) (row a.g2) (row a.be2) a.wa (row a.ba)
/-- The attention's tile. -/
def q5 : Tl 256 768 := k0_pay5 (F := Ideal) (q4 a x0)
/-- The first direction's tile. -/
def q6 : Tl 256 768 := k0_pay6 (F := Ideal) (q3 a x0) (q4 a x0) W0 (row b0)
def q7 : Tl 256 768 := k0_pay7 (F := Ideal) (q3 a x0) (q4 a x0) W0 (row b0) W1 (row b1)
def q8 : FVec Ideal S256 .f32 := k0_pay8 (F := Ideal) (q3 a x0) (q4 a x0) W0 (row b0) W1 (row b1)
/-- The second direction's tile. -/
def q9 : Tl 256 768 := k0_pay9 (F := Ideal) (q7 a x0 W0 W1 b0 b1) (q8 a x0 W0 W1 b0 b1)
/-- The third direction's tile. -/
def q10 : Tl 256 768 :=
  k0_pay10 (F := Ideal) (q3 a x0) (q5 a x0) (q6 a x0 W0 b0) (q7 a x0 W0 W1 b0 b1) (q8 a x0 W0 W1 b0 b1) W2 (row b2)
/-- The fourth direction's tile. -/
def q1 : Tl 256 768 :=
  k0_pay1 (F := Ideal) (q3 a x0) (q5 a x0) (q6 a x0 W0 b0) (q9 a x0 W0 W1 b0 b1) (q10 a x0 W0 W1 W2 b0 b1 b2)
    (k0_pay11 (F := Ideal) W3) (k0_pay12 (F := Ideal) (row b3))

/-- The four directions of the whole batch, the value slices taken with the given weight blocks and bias segments. -/
def d0 : Mat 16384 768 := unit (weighted a W0 b0)
def d1 : Mat 16384 768 := unit (strip (weighted a W1 b1) (d0 a W0 b0))
def d2 : Mat 16384 768 := unit (strip (strip (weighted a W2 b2) (d0 a W0 b0)) (d1 a W0 W1 b0 b1))
def d3 : Mat 16384 768 :=
  unit (strip (strip (strip (weighted a W3 b3) (d0 a W0 b0)) (d1 a W0 W1 b0 b1)) (d2 a W0 W1 W2 b0 b1 b2))

variable (hx : IsTile r0 hr x0 a.x)
include hx

theorem t3 : IsTile r0 hr (q3 a x0) (h2 a) := pay3 a _ (pay2 a x0 hx)
theorem t4 : IsTile r0 hr (q4 a x0) (shifted a) := pay4 a _ (pay2 a x0 hx)
theorem t5 : IsTile r0 hr (q5 a x0) (attn a) := pay5 a _ (t4 a x0 hx)
theorem t6 : IsTile r0 hr (q6 a x0 W0 b0) (d0 a W0 b0) := pay6 a _ _ W0 b0 (t3 a x0 hx) (t4 a x0 hx)
theorem t9 : IsTile r0 hr (q9 a x0 W0 W1 b0 b1) (d1 a W0 W1 b0 b1) :=
  pay9 _ _ (pay7 a _ _ W0 W1 b0 b1 (t3 a x0 hx) (t4 a x0 hx))
theorem t10 : IsTile r0 hr (q10 a x0 W0 W1 W2 b0 b1 b2) (d2 a W0 W1 W2 b0 b1 b2) :=
  pay10 a _ _ _ _ _ W2 b2 _ _ _ (t3 a x0 hx) (t5 a x0 hx) (t6 a x0 W0 b0 hx) (t9 a x0 W0 W1 b0 b1 hx)
theorem t1 : IsTile r0 hr (q1 a x0 W0 W1 W2 W3 b0 b1 b2 b3) (d3 a W0 W1 W2 W3 b0 b1 b2 b3) :=
  pay1 a _ _ _ _ _ W3 b3 _ _ _ _ (t3 a x0 hx) (t5 a x0 hx) (t6 a x0 W0 b0 hx) (t9 a x0 W0 W1 b0 b1 hx)
    (t10 a x0 W0 W1 W2 b0 b1 b2 hx)

end Chain

end Cert.KPay

end
-- ==== Proof.KBlocks.lean ====
/-
  What the kernel's windows hold at a grid point. Window 0 stages rows [256 t, 256 t + 256) of the embeddings: a tile.
  Every other input window stages its whole array at every point, and those arrays are the weight matrices (their
  narrowing to a shorter float format is the identity on the extended reals) and the bias and scale vectors, each as
  a 1 × C row.
-/
import proofs.«127205_j48309792146077_2_alg».proof.Proof.Gen.KernelIdeal.Frame
import proofs.«127205_j48309792146077_2_alg».proof.Proof.KPay
import Idealize.ShloMosaic.Lib.Pipeline.Value
import Idealize.ShloMosaic.Lib.StableHlo.Run
import Idealize.ShloMosaic.Lib.Tactic

noncomputable section

namespace Cert.KBlocks

open Cert.KernelIdeal Cert.KernelIdeal.Gen Idealize.ShloMosaic Idealize.ShloMosaic.TcCoe Idealize.SL.Sem
open Idealize.ShloMosaic.ValueIdx Idealize.ShloMosaic.StableHlo
open Cert.Spec Cert.Tile Cert.KSpec Cert.KPay

variable (m : (ℓ : Loc nD τ sig) → Buf (Elt Ideal) ℓ)

/-- The thirteen argument arrays as the program is launched on core c. -/
def argsOf (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12)⟩

/-! ## The arrays the host lines before the call write -/

theorem V_main_v0 (c : Dev nD) : (V m c main_v0 : S768x512.Idx → EReal) = (argsOf m c).w1 := by
  show StableHlo.after hostOps0 (fun b => m (c, b)) (Proc.devRef .tc main_v0) = _
  after_results
  rfl

theorem V_main_v4 (c : Dev nD) : (V m c main_v4 : S1x512.Idx → EReal) = row (argsOf m c).b1 := by
  show StableHlo.after hostOps0 (fun b => m (c, b)) (Proc.devRef .tc main_v4) = _
  after_results
  rfl

theorem V_main_v5 (c : Dev nD) : (V m c main_v5 : S1x512.Idx → EReal) = row (argsOf m c).g1 := by
  show StableHlo.after hostOps0 (fun b => m (c, b)) (Proc.devRef .tc main_v5) = _
  after_results
  rfl

theorem V_main_v6 (c : Dev nD) : (V m c main_v6 : S1x512.Idx → EReal) = row (argsOf m c).be1 := by
  show StableHlo.after hostOps0 (fun b => m (c, b)) (Proc.devRef .tc main_v6) = _
  after_results
  rfl

theorem V_main_v1 (c : Dev nD) : (V m c main_v1 : S512x256.Idx → EReal) = (argsOf m c).w2 := by
  show StableHlo.after hostOps0 (fun b => m (c, b)) (Proc.devRef .tc main_v1) = _
  after_results
  rfl

theorem V_main_v7 (c : Dev nD) : (V m c main_v7 : S1x256.Idx → EReal) = row (argsOf m c).b2 := by
  show StableHlo.after hostOps0 (fun b => m (c, b)) (Proc.devRef .tc main_v7) = _
  after_results
  rfl

theorem V_main_v8 (c : Dev nD) : (V m c main_v8 : S1x256.Idx → EReal) = row (argsOf m c).g2 := by
  show StableHlo.after hostOps0 (fun b => m (c, b)) (Proc.devRef .tc main_v8) = _
  after_results
  rfl

theorem V_main_v9 (c : Dev nD) : (V m c main_v9 : S1x256.Idx → EReal) = row (argsOf m c).be2 := by
  show StableHlo.after hostOps0 (fun b => m (c, b)) (Proc.devRef .tc main_v9) = _
  after_results
  rfl

theorem V_main_v2 (c : Dev nD) : (V m c main_v2 : S256x3072.Idx → EReal) = (argsOf m c).wd := by
  show StableHlo.after hostOps0 (fun b => m (c, b)) (Proc.devRef .tc main_v2) = _
  after_results
  rfl

theorem V_main_v10 (c : Dev nD) : (V m c main_v10 : S1x3072.Idx → EReal) = row (argsOf m c).bd := by
  show StableHlo.after hostOps0 (fun b => m (c, b)) (Proc.devRef .tc main_v10) = _
  after_results
  rfl

theorem V_main_v3 (c : Dev nD) : (V m c main_v3 : S256x768.Idx → EReal) = (argsOf m c).wa := by
  show StableHlo.after hostOps0 (fun b => m (c, b)) (Proc.devRef .tc main_v3) = _
  after_results
  rfl

theorem V_main_v11 (c : Dev nD) : (V m c main_v11 : S1x768.Idx → EReal) = row (argsOf m c).ba := by
  show StableHlo.after hostOps0 (fun b => m (c, b)) (Proc.devRef .tc main_v11) = _
  after_results
  rfl

/-! ## The windows' blocks -/

/-- Window 1 stages its whole array at every point. -/
theorem iblk_1 (c : Dev nD) (t : Fin cfg0.N) : (iblk m c 1 t : S768x512.Idx → EReal) = V m c main_v0 := by
  funext x
  unfold iblk
  rw [View.read_apply]
  show V m c main_v0 _ = V m c main_v0 x
  refine congrArg _ (funext fun a => Fin.ext ?_)
  match a with
  | ⟨0, _⟩ => show 0 * 768 + 1 * (x 0).val = (x 0).val; omega
  | ⟨1, _⟩ => show 0 * 512 + 1 * (x 1).val = (x 1).val; omega

/-- Window 2 stages its whole array at every point. -/
theorem iblk_2 (c : Dev nD) (t : Fin cfg0.N) : (iblk m c 2 t : S1x512.Idx → EReal) = V m c main_v4 := by
  funext x
  unfold iblk
  rw [View.read_apply]
  show V m c main_v4 _ = V m c main_v4 x
  refine congrArg _ (funext fun a => Fin.ext ?_)
  match a with
  | ⟨0, _⟩ => show 0 * 1 + 1 * (x 0).val = (x 0).val; omega
  | ⟨1, _⟩ => show 0 * 512 + 1 * (x 1).val = (x 1).val; omega

/-- Window 3 stages its whole array at every point. -/
theorem iblk_3 (c : Dev nD) (t : Fin cfg0.N) : (iblk m c 3 t : S1x512.Idx → EReal) = V m c main_v5 := by
  funext x
  unfold iblk
  rw [View.read_apply]
  show V m c main_v5 _ = V m c main_v5 x
  refine congrArg _ (funext fun a => Fin.ext ?_)
  match a with
  | ⟨0, _⟩ => show 0 * 1 + 1 * (x 0).val = (x 0).val; omega
  | ⟨1, _⟩ => show 0 * 512 + 1 * (x 1).val = (x 1).val; omega

/-- Window 4 stages its whole array at every point. -/
theorem iblk_4 (c : Dev nD) (t : Fin cfg0.N) : (iblk m c 4 t : S1x512.Idx → EReal) = V m c main_v6 := by
  funext x
  unfold iblk
  rw [View.read_apply]
  show V m c main_v6 _ = V m c main_v6 x
  refine congrArg _ (funext fun a => Fin.ext ?_)
  match a with
  | ⟨0, _⟩ => show 0 * 1 + 1 * (x 0).val = (x 0).val; omega
  | ⟨1, _⟩ => show 0 * 512 + 1 * (x 1).val = (x 1).val; omega

/-- Window 5 stages its whole array at every point. -/
theorem iblk_5 (c : Dev nD) (t : Fin cfg0.N) : (iblk m c 5 t : S512x256.Idx → EReal) = V m c main_v1 := by
  funext x
  unfold iblk
  rw [View.read_apply]
  show V m c main_v1 _ = V m c main_v1 x
  refine congrArg _ (funext fun a => Fin.ext ?_)
  match a with
  | ⟨0, _⟩ => show 0 * 512 + 1 * (x 0).val = (x 0).val; omega
  | ⟨1, _⟩ => show 0 * 256 + 1 * (x 1).val = (x 1).val; omega

/-- Window 6 stages its whole array at every point. -/
theorem iblk_6 (c : Dev nD) (t : Fin cfg0.N) : (iblk m c 6 t : S1x256.Idx → EReal) = V m c main_v7 := by
  funext x
  unfold iblk
  rw [View.read_apply]
  show V m c main_v7 _ = V m c main_v7 x
  refine congrArg _ (funext fun a => Fin.ext ?_)
  match a with
  | ⟨0, _⟩ => show 0 * 1 + 1 * (x 0).val = (x 0).val; omega
  | ⟨1, _⟩ => show 0 * 256 + 1 * (x 1).val = (x 1).val; omega

/-- Window 7 stages its whole array at every point. -/
theorem iblk_7 (c : Dev nD) (t : Fin cfg0.N) : (iblk m c 7 t : S1x256.Idx → EReal) = V m c main_v8 := by
  funext x
  unfold iblk
  rw [View.read_apply]
  show V m c main_v8 _ = V m c main_v8 x
  refine congrArg _ (funext fun a => Fin.ext ?_)
  match a with
  | ⟨0, _⟩ => show 0 * 1 + 1 * (x 0).val = (x 0).val; omega
  | ⟨1, _⟩ => show 0 * 256 + 1 * (x 1).val = (x 1).val; omega

/-- Window 8 stages its whole array at every point. -/
theorem iblk_8 (c : Dev nD) (t : Fin cfg0.N) : (iblk m c 8 t : S1x256.Idx → EReal) = V m c main_v9 := by
  funext x
  unfold iblk
  rw [View.read_apply]
  show V m c main_v9 _ = V m c main_v9 x
  refine congrArg _ (funext fun a => Fin.ext ?_)
  match a with
  | ⟨0, _⟩ => show 0 * 1 + 1 * (x 0).val = (x 0).val; omega
  | ⟨1, _⟩ => show 0 * 256 + 1 * (x 1).val = (x 1).val; omega

/-- Window 9 stages its whole array at every point. -/
theorem iblk_9 (c : Dev nD) (t : Fin cfg0.N) : (iblk m c 9 t : S256x3072.Idx → EReal) = V m c main_v2 := by
  funext x
  unfold iblk
  rw [View.read_apply]
  show V m c main_v2 _ = V m c main_v2 x
  refine congrArg _ (funext fun a => Fin.ext ?_)
  match a with
  | ⟨0, _⟩ => show 0 * 256 + 1 * (x 0).val = (x 0).val; omega
  | ⟨1, _⟩ => show 0 * 3072 + 1 * (x 1).val = (x 1).val; omega

/-- Window 10 stages its whole array at every point. -/
theorem iblk_10 (c : Dev nD) (t : Fin cfg0.N) : (iblk m c 10 t : S1x3072.Idx → EReal) = V m c main_v10 := by
  funext x
  unfold iblk
  rw [View.read_apply]
  show V m c main_v10 _ = V m c main_v10 x
  refine congrArg _ (funext fun a => Fin.ext ?_)
  match a with
  | ⟨0, _⟩ => show 0 * 1 + 1 * (x 0).val = (x 0).val; omega
  | ⟨1, _⟩ => show 0 * 3072 + 1 * (x 1).val = (x 1).val; omega

/-- Window 11 stages its whole array at every point. -/
theorem iblk_11 (c : Dev nD) (t : Fin cfg0.N) : (iblk m c 11 t : S256x768.Idx → EReal) = V m c main_v3 := by
  funext x
  unfold iblk
  rw [View.read_apply]
  show V m c main_v3 _ = V m c main_v3 x
  refine congrArg _ (funext fun a => Fin.ext ?_)
  match a with
  | ⟨0, _⟩ => show 0 * 256 + 1 * (x 0).val = (x 0).val; omega
  | ⟨1, _⟩ => show 0 * 768 + 1 * (x 1).val = (x 1).val; omega

/-- Window 12 stages its whole array at every point. -/
theorem iblk_12 (c : Dev nD) (t : Fin cfg0.N) : (iblk m c 12 t : S1x768.Idx → EReal) = V m c main_v11 := by
  funext x
  unfold iblk
  rw [View.read_apply]
  show V m c main_v11 _ = V m c main_v11 x
  refine congrArg _ (funext fun a => Fin.ext ?_)
  match a with
  | ⟨0, _⟩ => show 0 * 1 + 1 * (x 0).val = (x 0).val; omega
  | ⟨1, _⟩ => show 0 * 768 + 1 * (x 1).val = (x 1).val; omega

/-- The block index of window 0 (and of the two output windows) at point t is (t, 0). -/
theorem idx_rows : ∀ t : Fin cfg0.N, win0_0.index t (0 : Fin 2) = t.val ∧ win0_0.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem lt64 (t : Fin cfg0.N) : t.val < 64 := by
  have h : t.val < cfg0.N := t.isLt
  have e : cfg0.N = 64 := N_0
  omega

theorem rows_le (t : Fin cfg0.N) : 256 * t.val + 256 ≤ 16384 := by
  have := lt64 t
  omega

/-- Window 0's block at point t is rows [256 t, 256 t + 256) of the embeddings. -/
theorem iblk_0 (c : Dev nD) (t : Fin cfg0.N) :
    IsTile (256 * t.val) (rows_le t) (iblk m c 0 t : S256x768.Idx → EReal) (argsOf m c).x := by
  intro p l
  have hp := p.isLt
  obtain ⟨e0, e1, -⟩ := idx_rows t
  unfold iblk
  rw [View.read_apply]
  show V m c main_arg0 _ = m ((c.tc : Thread nD τ).loc main_arg0) _
  rw [V_main_arg0]
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 768 + 1 * l.val = l.val; rw [e1]; omega

end Cert.KBlocks

end
-- ==== Proof.ValSlices.lean ====
/-
  The second head's four value slices, and the four directions laid side by side.

  The second head gives one 16384 × 3072 array h·Wd + bd, read as 16384 × 4 × 768 and multiplied by the attention along
  the middle axis; slice k of it is an array of 16384 × 768. Entry (p, l) of slice k is entry (p, 768 k + l) of the
  head times a (p, l), and entry (p, 768 k + l) of h·Wd + bd only involves column 768 k + l of Wd and entry 768 k + l of
  bd: so slice k is the dense layer with columns [768 k, 768 k + 768) of Wd and the matching segment of bd, times a.
  In the other direction, a 16384 × 3072 array whose column block k is the direction uₖ, read as 16384 × 4 × 768, is
  the four directions joined along the middle axis.
-/
import proofs.«127205_j48309792146077_2_alg».proof.Proof.Spec

noncomputable section

namespace Cert.Slices

open Idealize.ShloMosaic Idealize.ShloMosaic.ValueIdx Cert.Tile Cert.Spec

/-! ## Reading the layout operations at an index -/

theorem rows_apply {M C : Nat} (b : Vec1 C) (p : Fin M) (l : Fin C) : rows M b (ix2 p l) = b (ix1 l) := by
  have hl := l.isLt
  unfold rows
  refine (broadcastInDim_apply _ (bidRow M C) _ (ix2 p l) (ix2 ⟨0, Nat.one_pos⟩ l) fun a => ?_).trans ?_
  · match a with
    | ⟨0, _⟩ => rfl
    | ⟨1, _⟩ =>
      show l.val = if C = 1 then 0 else l.val
      split <;> omega
  · refine (broadcastInDim_apply _ (bidVecRow C) b (ix2 ⟨0, Nat.one_pos⟩ l) (ix1 l) fun a => ?_)
    match a with
    | ⟨0, _⟩ =>
      show l.val = if C = 1 then 0 else l.val
      split <;> omega

theorem mid_apply {M C : Nat} (u : Mat M C) (p : Fin M) (q : Fin 1) (l : Fin C) : mid u (ix3 p q l) = u (ix2 p l) := by
  have hp := p.isLt
  have hl := l.isLt
  unfold mid
  refine broadcastInDim_apply _ (bidMid M C) u (ix3 p q l) (ix2 p l) fun a => ?_
  match a with
  | ⟨0, _⟩ =>
    show p.val = if M = 1 then 0 else p.val
    split <;> omega
  | ⟨1, _⟩ =>
    show l.val = if C = 1 then 0 else l.val
    split <;> omega

theorem midRep_apply {M K C : Nat} (w : Cube M 1 C) (p : Fin M) (k : Fin K) (l : Fin C) :
    broadcastInDim ⟨3, ![M, K, C]⟩ ![0, 1, 2] (bidMidRep M K C) w (ix3 p k l) = w (ix3 p (0 : Fin 1) l) := by
  have hp := p.isLt
  have hl := l.isLt
  refine broadcastInDim_apply _ (bidMidRep M K C) w (ix3 p k l) (ix3 p (0 : Fin 1) l) fun a => ?_
  match a with
  | ⟨0, _⟩ =>
    show p.val = if M = 1 then 0 else p.val
    split <;> omega
  | ⟨1, _⟩ => rfl
  | ⟨2, _⟩ =>
    show l.val = if C = 1 then 0 else l.val
    split <;> omega

/-- A plain product at (p, q) is the sum over k of left (p, k) · right (k, q). -/
theorem dot_apply {M K N : Nat} (X : Mat M K) (W : Mat K N) (p : Fin M) (q : Fin N) :
    Host.dotGeneral (F := Ideal) (DotDims.plain M K N) none X W (ix2 p q)
      = ∑ k : (DotDims.plain M K N).contr.Idx, X (ix2 p (k ⟨0, Nat.one_pos⟩)) * W (ix2 (k ⟨0, Nat.one_pos⟩) q) := by
  refine (Ideal.dotGeneral_apply (DotDims.plain M K N) none HostSchedule.single X W (ix2 p q)).trans ?_
  refine Finset.sum_congr rfl fun k _ => ?_
  rw [plain_lhs (K := K) (ix2 p q) k, plain_rhs (K := K) (ix2 p q) k]
  rfl

/-! ## The weight block and the bias segment of slice k -/

/-- Columns [768 k, 768 k + 768) of the second head's weights. -/
def colBlock (k : Fin 4) (W : Mat 256 3072) : Mat 256 768 := fun j =>
  W (ix2 (n0 := 256) (n1 := 3072) (j 0) ⟨768 * k.val + (j 1).val, by
    have h1 : (j 1).val < 768 := (j 1).isLt
    have h2 := k.isLt
    omega⟩)

/-- Entries [768 k, 768 k + 768) of the second head's bias. -/
def seg (k : Fin 4) (b : Vec1 3072) : Vec1 768 := fun j =>
  b (ix1 (n := 3072) ⟨768 * k.val + (j 0).val, by
    have h1 : (j 0).val < 768 := (j 0).isLt
    have h2 := k.isLt
    omega⟩)

theorem colBlock_apply (k : Fin 4) (W : Mat 256 3072) (r : Fin 256) (l : Fin 768) (h : 768 * k.val + l.val < 3072) :
    colBlock k W (ix2 r l) = W (ix2 r ⟨768 * k.val + l.val, h⟩) := rfl

theorem seg_apply (k : Fin 4) (b : Vec1 3072) (l : Fin 768) (h : 768 * k.val + l.val < 3072) :
    seg k b (ix1 l) = b (ix1 ⟨768 * k.val + l.val, h⟩) := rfl

/-- Slice k of the attention-weighted values is the dense layer of its own weight block and bias segment, times the
    attention. -/
theorem val_eq (a : Args) (k : Fin 4)
    (hs : (⟨3, ![16384, 4, 768]⟩ : Shape).Slices ![0, k.val, 0] ⟨3, ![16384, 1, 768]⟩) :
    val a k.val hs = mulf (dense (h2 a) (colBlock k a.wd) (seg k a.bd)) (attn a) := by
  funext i
  obtain ⟨p, l, rfl⟩ : ∃ (p : Fin 16384) (l : Fin 768), i = ix2 p l := ⟨i 0, i 1, eq_ix2 i⟩
  have hl := l.isLt
  have hk := k.isLt
  have hp := p.isLt
  have hq : 768 * k.val + l.val < 3072 := by omega
  unfold val
  rw [shapeCast_apply _ _ (ix2 p l) (ix3 p (0 : Fin 1) l) (by
    rw [Shape.rowMajor_val_three, Shape.rowMajor_val_two]
    show (p.val * 1 + 0) * 768 + l.val = p.val * 768 + l.val
    omega)]
  rw [extractStridedSlice_apply _ _ hs (ix3 p (0 : Fin 1) l) (ix3 p k l) (fun ax => by
    match ax with
    | ⟨0, _⟩ => show p.val = 0 + p.val; omega
    | ⟨1, _⟩ => show k.val = k.val + 0; omega
    | ⟨2, _⟩ => show l.val = 0 + l.val; omega)]
  unfold vals
  show shapeCast ⟨3, ![16384, 4, 768]⟩ (dense (h2 a) a.wd a.bd) _ (ix3 p k l)
      * broadcastInDim ⟨3, ![16384, 4, 768]⟩ ![0, 1, 2] (bidMidRep 16384 4 768) (mid (attn a)) (ix3 p k l)
    = dense (h2 a) (colBlock k a.wd) (seg k a.bd) (ix2 p l) * attn a (ix2 p l)
  rw [midRep_apply, mid_apply]
  rw [shapeCast_apply _ _ (ix3 p k l) (ix2 p (⟨768 * k.val + l.val, hq⟩ : Fin 3072)) (by
    rw [Shape.rowMajor_val_three, Shape.rowMajor_val_two]
    show p.val * 3072 + (768 * k.val + l.val) = (p.val * 4 + k.val) * 768 + l.val
    omega)]
  refine congrArg (· * attn a (ix2 p l)) ?_
  unfold dense
  show Host.dotGeneral (F := Ideal) (DotDims.plain 16384 256 3072) none (h2 a) a.wd (ix2 p ⟨768 * k.val + l.val, hq⟩)
      + rows 16384 a.bd (ix2 p ⟨768 * k.val + l.val, hq⟩)
    = Host.dotGeneral (F := Ideal) (DotDims.plain 16384 256 768) none (h2 a) (colBlock k a.wd) (ix2 p l)
      + rows 16384 (seg k a.bd) (ix2 p l)
  rw [rows_apply, rows_apply, dot_apply, dot_apply]
  rfl

/-! ## The four directions side by side -/

/-- Four 16384 × 768 arrays as the four column blocks of one 16384 × 3072 array. -/
def flat (U0 U1 U2 U3 : Mat 16384 768) : Mat 16384 3072 := fun j =>
  if h0 : (j 1).val < 768 then U0 (ix2 (n0 := 16384) (n1 := 768) (j 0) ⟨(j 1).val, h0⟩)
  else if h1 : (j 1).val < 1536 then U1 (ix2 (n0 := 16384) (n1 := 768) (j 0) ⟨(j 1).val - 768, by omega⟩)
  else if h2 : (j 1).val < 2304 then U2 (ix2 (n0 := 16384) (n1 := 768) (j 0) ⟨(j 1).val - 1536, by omega⟩)
  else U3 (ix2 (n0 := 16384) (n1 := 768) (j 0) ⟨(j 1).val - 2304, by
    have h3 : (j 1).val < 3072 := (j 1).isLt
    omega⟩)

variable (U0 U1 U2 U3 : Mat 16384 768)

theorem flat_0 (p : Fin 16384) (l : Fin 768) (h : 0 + l.val < 3072) : flat U0 U1 U2 U3 (ix2 p ⟨0 + l.val, h⟩) = U0 (ix2 p l) := by
  have hl := l.isLt
  unfold flat
  rw [dif_pos (show ((ix2 p (⟨0 + l.val, h⟩ : Fin 3072) : (⟨2, ![16384, 3072]⟩ : Shape).Idx) 1).val < 768 from by show 0 + l.val < 768; omega)]
  exact congrArg U0 (congrArg (ix2 p) (Fin.ext (by show 0 + l.val = l.val; omega)))

theorem flat_1 (p : Fin 16384) (l : Fin 768) (h : 768 + l.val < 3072) : flat U0 U1 U2 U3 (ix2 p ⟨768 + l.val, h⟩) = U1 (ix2 p l) := by
  have hl := l.isLt
  unfold flat
  rw [dif_neg (show ¬ ((ix2 p (⟨768 + l.val, h⟩ : Fin 3072) : (⟨2, ![16384, 3072]⟩ : Shape).Idx) 1).val < 768 from by show ¬ 768 + l.val < 768; omega),
    dif_pos (show ((ix2 p (⟨768 + l.val, h⟩ : Fin 3072) : (⟨2, ![16384, 3072]⟩ : Shape).Idx) 1).val < 1536 from by show 768 + l.val < 1536; omega)]
  exact congrArg U1 (congrArg (ix2 p) (Fin.ext (by show 768 + l.val - 768 = l.val; omega)))

theorem flat_2 (p : Fin 16384) (l : Fin 768) (h : 1536 + l.val < 3072) : flat U0 U1 U2 U3 (ix2 p ⟨1536 + l.val, h⟩) = U2 (ix2 p l) := by
  have hl := l.isLt
  unfold flat
  rw [dif_neg (show ¬ ((ix2 p (⟨1536 + l.val, h⟩ : Fin 3072) : (⟨2, ![16384, 3072]⟩ : Shape).Idx) 1).val < 768 from by show ¬ 1536 + l.val < 768; omega),
    dif_neg (show ¬ ((ix2 p (⟨1536 + l.val, h⟩ : Fin 3072) : (⟨2, ![16384, 3072]⟩ : Shape).Idx) 1).val < 1536 from by show ¬ 1536 + l.val < 1536; omega),
    dif_pos (show ((ix2 p (⟨1536 + l.val, h⟩ : Fin 3072) : (⟨2, ![16384, 3072]⟩ : Shape).Idx) 1).val < 2304 from by show 1536 + l.val < 2304; omega)]
  exact congrArg U2 (congrArg (ix2 p) (Fin.ext (by show 1536 + l.val - 1536 = l.val; omega)))

theorem flat_3 (p : Fin 16384) (l : Fin 768) (h : 2304 + l.val < 3072) : flat U0 U1 U2 U3 (ix2 p ⟨2304 + l.val, h⟩) = U3 (ix2 p l) := by
  have hl := l.isLt
  unfold flat
  rw [dif_neg (show ¬ ((ix2 p (⟨2304 + l.val, h⟩ : Fin 3072) : (⟨2, ![16384, 3072]⟩ : Shape).Idx) 1).val < 768 from by show ¬ 2304 + l.val < 768; omega),
    dif_neg (show ¬ ((ix2 p (⟨2304 + l.val, h⟩ : Fin 3072) : (⟨2, ![16384, 3072]⟩ : Shape).Idx) 1).val < 1536 from by show ¬ 2304 + l.val < 1536; omega),
    dif_neg (show ¬ ((ix2 p (⟨2304 + l.val, h⟩ : Fin 3072) : (⟨2, ![16384, 3072]⟩ : Shape).Idx) 1).val < 2304 from by show ¬ 2304 + l.val < 2304; omega)]
  exact congrArg U3 (congrArg (ix2 p) (Fin.ext (by show 2304 + l.val - 2304 = l.val; omega)))

/-- The 16384 × 3072 array whose column blocks are four arrays, read as 16384 × 4 × 768, is the four arrays (each as
    16384 × 1 × 768) joined along the middle axis. -/
theorem cast_flat (h : (⟨2, ![16384, 3072]⟩ : Shape).ShapeCasts ⟨3, ![16384, 4, 768]⟩) :
    shapeCast ⟨3, ![16384, 4, 768]⟩ (flat U0 U1 U2 U3) h
      = concatenate ⟨3, ![16384, 4, 768]⟩ 1
          [⟨⟨3, ![16384, 1, 768]⟩, mid U0⟩, ⟨⟨3, ![16384, 1, 768]⟩, mid U1⟩, ⟨⟨3, ![16384, 1, 768]⟩, mid U2⟩,
            ⟨⟨3, ![16384, 1, 768]⟩, mid U3⟩] catOk := by
  funext i
  obtain ⟨p, k, l, rfl⟩ : ∃ (p : Fin 16384) (k : Fin 4) (l : Fin 768), i = ix3 p k l := ⟨i 0, i 1, i 2, eq_ix3 i⟩
  have hl := l.isLt
  have hp := p.isLt
  have hcat : ∀ (n : Nat) (hn : n < 4) (U : Mat 16384 768)
      (hx : [(⟨⟨3, ![16384, 1, 768]⟩, mid U0⟩ : (s : Shape) × (s.Idx → EReal)), ⟨⟨3, ![16384, 1, 768]⟩, mid U1⟩,
          ⟨⟨3, ![16384, 1, 768]⟩, mid U2⟩, ⟨⟨3, ![16384, 1, 768]⟩, mid U3⟩][n]'(by simpa using hn) = ⟨⟨3, ![16384, 1, 768]⟩, mid U⟩),
      concatenate ⟨3, ![16384, 4, 768]⟩ 1
          [⟨⟨3, ![16384, 1, 768]⟩, mid U0⟩, ⟨⟨3, ![16384, 1, 768]⟩, mid U1⟩, ⟨⟨3, ![16384, 1, 768]⟩, mid U2⟩,
            ⟨⟨3, ![16384, 1, 768]⟩, mid U3⟩] catOk (ix3 p (⟨n, hn⟩ : Fin 4) l) = U (ix2 p l) := by
    intro n hn U hx
    refine (concatenate_apply_piece (t := ⟨3, ![16384, 4, 768]⟩) (1 : Fin 3)
      [⟨⟨3, ![16384, 1, 768]⟩, mid U0⟩, ⟨⟨3, ![16384, 1, 768]⟩, mid U1⟩, ⟨⟨3, ![16384, 1, 768]⟩, mid U2⟩,
        ⟨⟨3, ![16384, 1, 768]⟩, mid U3⟩] catOk (ix3 p (⟨n, hn⟩ : Fin 4) l) n (by simpa using hn) ⟨3, ![16384, 1, 768]⟩ (mid U) hx rfl n
      ?_ (ix3 p (0 : Fin 1) l) (fun b hb => ?_) ?_).trans (mid_apply U p 0 l)
    · match n, hn with
      | 0, _ => rfl
      | 1, _ => rfl
      | 2, _ => rfl
      | 3, _ => rfl
    · match b with
      | ⟨0, _⟩ => rfl
      | ⟨1, _⟩ => exact absurd rfl hb
      | ⟨2, _⟩ => rfl
    · show n + 0 = n
      omega
  match k with
  | ⟨0, hk⟩ =>
    rw [hcat 0 hk U0 rfl]
    rw [shapeCast_apply _ h (ix3 p (⟨0, hk⟩ : Fin 4) l) (ix2 p (⟨0 + l.val, by omega⟩ : Fin 3072)) (by
      rw [Shape.rowMajor_val_three, Shape.rowMajor_val_two]
      show p.val * 3072 + (0 + l.val) = (p.val * 4 + 0) * 768 + l.val
      omega)]
    exact flat_0 U0 U1 U2 U3 p l _
  | ⟨1, hk⟩ =>
    rw [hcat 1 hk U1 rfl]
    rw [shapeCast_apply _ h (ix3 p (⟨1, hk⟩ : Fin 4) l) (ix2 p (⟨768 + l.val, by omega⟩ : Fin 3072)) (by
      rw [Shape.rowMajor_val_three, Shape.rowMajor_val_two]
      show p.val * 3072 + (768 + l.val) = (p.val * 4 + 1) * 768 + l.val
      omega)]
    exact flat_1 U0 U1 U2 U3 p l _
  | ⟨2, hk⟩ =>
    rw [hcat 2 hk U2 rfl]
    rw [shapeCast_apply _ h (ix3 p (⟨2, hk⟩ : Fin 4) l) (ix2 p (⟨1536 + l.val, by omega⟩ : Fin 3072)) (by
      rw [Shape.rowMajor_val_three, Shape.rowMajor_val_two]
      show p.val * 3072 + (1536 + l.val) = (p.val * 4 + 2) * 768 + l.val
      omega)]
    exact flat_2 U0 U1 U2 U3 p l _
  | ⟨3, hk⟩ =>
    rw [hcat 3 hk U3 rfl]
    rw [shapeCast_apply _ h (ix3 p (⟨3, hk⟩ : Fin 4) l) (ix2 p (⟨2304 + l.val, by omega⟩ : Fin 3072)) (by
      rw [Shape.rowMajor_val_three, Shape.rowMajor_val_two]
      show p.val * 3072 + (2304 + l.val) = (p.val * 4 + 3) * 768 + l.val
      omega)]
    exact flat_3 U0 U1 U2 U3 p l _

end Cert.Slices

end
-- ==== Proof.KValue.lean ====
/-
  The kernel's two result arrays after the run, as functions of the arguments.

  At grid point t the body stores five values: the attention tile into the second output's block, and the four
  direction tiles into the four column blocks [0, 768), [768, 1536), [1536, 2304), [2304, 3072) of the first output's
  block. So the second output's block is rows [256 t, 256 t + 256) of the attention of the whole batch, and the first
  output's block the same rows of the 16384 × 3072 array whose column block k is direction k. The 64 points' blocks
  tile each array, so after the run the arrays hold those functions; the host line after the call reads the first one
  as 16384 × 4 × 768, which is the four directions along the middle axis.
-/
import proofs.«127205_j48309792146077_2_alg».proof.Proof.KBlocks
import proofs.«127205_j48309792146077_2_alg».proof.Proof.ValSlices

set_option maxRecDepth 16384

noncomputable section

namespace Cert.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec Cert.Tile Cert.KSpec Cert.KPay Cert.KBlocks Cert.Slices

theorem hz : (![0, 0] : Fin 2 → Nat) = fun _ => 0 := funext fun a => by fin_cases a <;> rfl

/-! ## The body's loads of a column block of the second head's weights and bias -/

theorem ld_wd_0 (W : Mat 256 3072) : View.ld (Val := Elt Ideal) (e' := .bf16) (W : S256x3072.Idx → EReal) r0_6 = colBlock ⟨0, by omega⟩ W := by
  funext x
  show W _ = W _
  refine congrArg W (funext fun ax => Fin.ext ?_)
  match ax with
  | ⟨0, _⟩ => show 0 + 1 * (x 0).val = (x 0).val; omega
  | ⟨1, _⟩ => show 0 + 1 * (x 1).val = 768 * 0 + (x 1).val; omega

theorem ld_bd_0 (b : Vec1 3072) : View.ld (Val := Elt Ideal) (e' := .f32) (row b : S1x3072.Idx → EReal) r0_7 = row (seg ⟨0, by omega⟩ b) := by
  funext x
  have h0 : (x 0).val < 1 := (x 0).isLt
  have h1 : (x 1).val < 768 := (x 1).isLt
  unfold row
  refine (shapeCast_apply b _ _ (ix1 (⟨0 + (x 1).val, by omega⟩ : Fin 3072)) ?_).trans
    (Eq.symm ((shapeCast_apply (seg ⟨0, by omega⟩ b) _ x (ix1 (⟨(x 1).val, h1⟩ : Fin 768)) ?_).trans ?_))
  · rw [Shape.rowMajor_val_one, Shape.rowMajor_val_two]
    show 0 + (x 1).val = (0 + 1 * (x 0).val) * 3072 + (0 + 1 * (x 1).val)
    omega
  · rw [Shape.rowMajor_val_one, Shape.rowMajor_val_two]
    show (x 1).val = (x 0).val * 768 + (x 1).val
    omega
  · exact congrArg b (congrArg ix1 (Fin.ext (by show 768 * 0 + (x 1).val = 0 + (x 1).val; omega)))

theorem ld_wd_1 (W : Mat 256 3072) : View.ld (Val := Elt Ideal) (e' := .bf16) (W : S256x3072.Idx → EReal) r0_8 = colBlock ⟨1, by omega⟩ W := by
  funext x
  show W _ = W _
  refine congrArg W (funext fun ax => Fin.ext ?_)
  match ax with
  | ⟨0, _⟩ => show 0 + 1 * (x 0).val = (x 0).val; omega
  | ⟨1, _⟩ => show 768 + 1 * (x 1).val = 768 * 1 + (x 1).val; omega

theorem ld_bd_1 (b : Vec1 3072) : View.ld (Val := Elt Ideal) (e' := .f32) (row b : S1x3072.Idx → EReal) r0_9 = row (seg ⟨1, by omega⟩ b) := by
  funext x
  have h0 : (x 0).val < 1 := (x 0).isLt
  have h1 : (x 1).val < 768 := (x 1).isLt
  unfold row
  refine (shapeCast_apply b _ _ (ix1 (⟨768 + (x 1).val, by omega⟩ : Fin 3072)) ?_).trans
    (Eq.symm ((shapeCast_apply (seg ⟨1, by omega⟩ b) _ x (ix1 (⟨(x 1).val, h1⟩ : Fin 768)) ?_).trans ?_))
  · rw [Shape.rowMajor_val_one, Shape.rowMajor_val_two]
    show 768 + (x 1).val = (0 + 1 * (x 0).val) * 3072 + (768 + 1 * (x 1).val)
    omega
  · rw [Shape.rowMajor_val_one, Shape.rowMajor_val_two]
    show (x 1).val = (x 0).val * 768 + (x 1).val
    omega
  · exact congrArg b (congrArg ix1 (Fin.ext (by show 768 * 1 + (x 1).val = 768 + (x 1).val; omega)))

theorem ld_wd_2 (W : Mat 256 3072) : View.ld (Val := Elt Ideal) (e' := .bf16) (W : S256x3072.Idx → EReal) r0_10 = colBlock ⟨2, by omega⟩ W := by
  funext x
  show W _ = W _
  refine congrArg W (funext fun ax => Fin.ext ?_)
  match ax with
  | ⟨0, _⟩ => show 0 + 1 * (x 0).val = (x 0).val; omega
  | ⟨1, _⟩ => show 1536 + 1 * (x 1).val = 768 * 2 + (x 1).val; omega

theorem ld_bd_2 (b : Vec1 3072) : View.ld (Val := Elt Ideal) (e' := .f32) (row b : S1x3072.Idx → EReal) r0_11 = row (seg ⟨2, by omega⟩ b) := by
  funext x
  have h0 : (x 0).val < 1 := (x 0).isLt
  have h1 : (x 1).val < 768 := (x 1).isLt
  unfold row
  refine (shapeCast_apply b _ _ (ix1 (⟨1536 + (x 1).val, by omega⟩ : Fin 3072)) ?_).trans
    (Eq.symm ((shapeCast_apply (seg ⟨2, by omega⟩ b) _ x (ix1 (⟨(x 1).val, h1⟩ : Fin 768)) ?_).trans ?_))
  · rw [Shape.rowMajor_val_one, Shape.rowMajor_val_two]
    show 1536 + (x 1).val = (0 + 1 * (x 0).val) * 3072 + (1536 + 1 * (x 1).val)
    omega
  · rw [Shape.rowMajor_val_one, Shape.rowMajor_val_two]
    show (x 1).val = (x 0).val * 768 + (x 1).val
    omega
  · exact congrArg b (congrArg ix1 (Fin.ext (by show 768 * 2 + (x 1).val = 1536 + (x 1).val; omega)))

theorem ld_wd_3 (W : Mat 256 3072) : View.ld (Val := Elt Ideal) (e' := .bf16) (W : S256x3072.Idx → EReal) r0_12 = colBlock ⟨3, by omega⟩ W := by
  funext x
  show W _ = W _
  refine congrArg W (funext fun ax => Fin.ext ?_)
  match ax with
  | ⟨0, _⟩ => show 0 + 1 * (x 0).val = (x 0).val; omega
  | ⟨1, _⟩ => show 2304 + 1 * (x 1).val = 768 * 3 + (x 1).val; omega

theorem ld_bd_3 (b : Vec1 3072) : View.ld (Val := Elt Ideal) (e' := .f32) (row b : S1x3072.Idx → EReal) r0_13 = row (seg ⟨3, by omega⟩ b) := by
  funext x
  have h0 : (x 0).val < 1 := (x 0).isLt
  have h1 : (x 1).val < 768 := (x 1).isLt
  unfold row
  refine (shapeCast_apply b _ _ (ix1 (⟨2304 + (x 1).val, by omega⟩ : Fin 3072)) ?_).trans
    (Eq.symm ((shapeCast_apply (seg ⟨3, by omega⟩ b) _ x (ix1 (⟨(x 1).val, h1⟩ : Fin 768)) ?_).trans ?_))
  · rw [Shape.rowMajor_val_one, Shape.rowMajor_val_two]
    show 2304 + (x 1).val = (0 + 1 * (x 0).val) * 3072 + (2304 + 1 * (x 1).val)
    omega
  · rw [Shape.rowMajor_val_one, Shape.rowMajor_val_two]
    show (x 1).val = (x 0).val * 768 + (x 1).val
    omega
  · exact congrArg b (congrArg ix1 (Fin.ext (by show 768 * 3 + (x 1).val = 2304 + (x 1).val; omega)))

/-! ## The directions with each slice's own weight block are the directions of the whole batch -/

section Dirs
variable (a : Args)

theorem d0_eq : d0 a (colBlock ⟨0, by omega⟩ a.wd) (seg ⟨0, by omega⟩ a.bd) = u0 a := by
  unfold d0 weighted u0
  rw [val_eq a ⟨0, by omega⟩]

theorem d1_eq : d1 a (colBlock ⟨0, by omega⟩ a.wd) (colBlock ⟨1, by omega⟩ a.wd) (seg ⟨0, by omega⟩ a.bd) (seg ⟨1, by omega⟩ a.bd) = u1 a := by
  unfold d1 weighted u1 r1
  rw [d0_eq, val_eq a ⟨1, by omega⟩]

theorem d2_eq : d2 a (colBlock ⟨0, by omega⟩ a.wd) (colBlock ⟨1, by omega⟩ a.wd) (colBlock ⟨2, by omega⟩ a.wd)
    (seg ⟨0, by omega⟩ a.bd) (seg ⟨1, by omega⟩ a.bd) (seg ⟨2, by omega⟩ a.bd) = u2 a := by
  unfold d2 weighted u2 r2 r2a
  rw [d1_eq, d0_eq, val_eq a ⟨2, by omega⟩]

theorem d3_eq : d3 a (colBlock ⟨0, by omega⟩ a.wd) (colBlock ⟨1, by omega⟩ a.wd) (colBlock ⟨2, by omega⟩ a.wd) (colBlock ⟨3, by omega⟩ a.wd) (seg ⟨0, by omega⟩ a.bd) (seg ⟨1, by omega⟩ a.bd) (seg ⟨2, by omega⟩ a.bd) (seg ⟨3, by omega⟩ a.bd) = u3 a := by
  unfold d3 weighted u3 r3 r3b r3a
  rw [d2_eq, d1_eq, d0_eq, val_eq a ⟨3, by omega⟩]

end Dirs

/-! ## The stored values, as functions of the block's index -/

section Core
variable (a : Args) (x0 : Tl 256 768) {r0 : Nat} {hr : r0 + 256 ≤ 16384} (hx : IsTile r0 hr x0 a.x)
include hx

/-- The second output's block: the attention's rows. -/
theorem out14_at (j : S256x768.Idx) :
    out0_14 (F := Ideal) x0 a.w1 (row a.b1) (row a.g1) (row a.be1) a.w2 (row a.b2) (row a.g2) (row a.be2) a.wd (row a.bd) a.wa (row a.ba) j
      = attn a (ix2 (⟨r0 + (j 0).val, by have h : (j 0).val < 256 := (j 0).isLt; omega⟩ : Fin 16384) (j 1)) := by
  unfold out0_14
  rw [View.canon_unit_zero hz]
  simp only [View.ld_unit_zero (S := S256x768) hz, View.ld_unit_zero (S := S768x512) hz, View.ld_unit_zero (S := S1x512) hz,
    View.ld_unit_zero (S := S512x256) hz, View.ld_unit_zero (S := S1x256) hz, View.ld_unit_zero (S := S1x768) hz]
  exact (congrArg _ (eq_ix2 j)).trans (t5 a x0 hx (j 0) (j 1))

/-- The first output's block: column block k holds direction k's rows. -/
theorem out13_at (y : S256x3072.Idx) :
    out0_13 (F := Ideal) x0 a.w1 (row a.b1) (row a.g1) (row a.be1) a.w2 (row a.b2) (row a.g2) (row a.be2) a.wd (row a.bd) a.wa (row a.ba) y
      = flat (u0 a) (u1 a) (u2 a) (u3 a)
          (ix2 (⟨r0 + (y 0).val, by have h : (y 0).val < 256 := (y 0).isLt; omega⟩ : Fin 16384) (y 1)) := by
  unfold out0_13
  simp only [View.ld_unit_zero (S := S256x768) hz, View.ld_unit_zero (S := S768x512) hz, View.ld_unit_zero (S := S1x512) hz,
    View.ld_unit_zero (S := S512x256) hz, View.ld_unit_zero (S := S1x256) hz, View.ld_unit_zero (S := S1x768) hz,
    ld_wd_0, ld_wd_1, ld_wd_2, ld_wd_3, ld_bd_0, ld_bd_1, ld_bd_2, ld_bd_3]
  refine View.canon_apply_of_pieces (Val := Elt Ideal) (S := S256x3072) (e := .f32)
    (fun y : S256x3072.Idx => flat (u0 a) (u1 a) (u2 a) (u3 a)
      (ix2 (⟨r0 + (y 0).val, by have h : (y 0).val < 256 := (y 0).isLt; omega⟩ : Fin 16384) (y 1))) _ ?_ y (cover0_13 _ _ _ _ y)
  intro pc hpc
  simp only [List.mem_cons, List.not_mem_nil, or_false] at hpc
  rcases hpc with rfl | rfl | rfl | rfl
  · -- the store into columns [2304, 3072): direction 3
    intro x
    have hx0 : (x 0).val < 256 := (x 0).isLt
    have hx1 : (x 1).val < 768 := (x 1).isLt
    have e : (q1 a x0 (colBlock ⟨0, by omega⟩ a.wd) (colBlock ⟨1, by omega⟩ a.wd) (colBlock ⟨2, by omega⟩ a.wd) (colBlock ⟨3, by omega⟩ a.wd) (seg ⟨0, by omega⟩ a.bd) (seg ⟨1, by omega⟩ a.bd) (seg ⟨2, by omega⟩ a.bd) (seg ⟨3, by omega⟩ a.bd)) x = u3 a (ix2 ⟨r0 + (x 0).val, by omega⟩ (⟨(x 1).val, hx1⟩ : Fin 768)) := by
      have h := t1 a x0 (colBlock ⟨0, by omega⟩ a.wd) (colBlock ⟨1, by omega⟩ a.wd) (colBlock ⟨2, by omega⟩ a.wd) (colBlock ⟨3, by omega⟩ a.wd) (seg ⟨0, by omega⟩ a.bd) (seg ⟨1, by omega⟩ a.bd) (seg ⟨2, by omega⟩ a.bd) (seg ⟨3, by omega⟩ a.bd) hx (⟨(x 0).val, hx0⟩ : Fin 256) (⟨(x 1).val, hx1⟩ : Fin 768)
      rw [d3_eq] at h
      exact (congrArg _ (eq_ix2 x)).trans h
    refine e.trans ?_
    refine Eq.symm ((congrArg (flat (u0 a) (u1 a) (u2 a) (u3 a)) (?_ : _ = ix2 (⟨r0 + (x 0).val, by omega⟩ : Fin 16384) (⟨2304 + (⟨(x 1).val, hx1⟩ : Fin 768).val, by show 2304 + (x 1).val < 3072; omega⟩ : Fin 3072))).trans
      (flat_3 (u0 a) (u1 a) (u2 a) (u3 a) _ _ _))
    funext ax
    apply Fin.ext
    match ax with
    | ⟨0, _⟩ => show r0 + (0 + 1 * (x 0).val) = r0 + (x 0).val; omega
    | ⟨1, _⟩ => show 2304 + 1 * (x 1).val = 2304 + (x 1).val; omega
  · -- the store into columns [1536, 2304): direction 2
    intro x
    have hx0 : (x 0).val < 256 := (x 0).isLt
    have hx1 : (x 1).val < 768 := (x 1).isLt
    have e : (q10 a x0 (colBlock ⟨0, by omega⟩ a.wd) (colBlock ⟨1, by omega⟩ a.wd) (colBlock ⟨2, by omega⟩ a.wd) (seg ⟨0, by omega⟩ a.bd) (seg ⟨1, by omega⟩ a.bd) (seg ⟨2, by omega⟩ a.bd)) x = u2 a (ix2 ⟨r0 + (x 0).val, by omega⟩ (⟨(x 1).val, hx1⟩ : Fin 768)) := by
      have h := t10 a x0 (colBlock ⟨0, by omega⟩ a.wd) (colBlock ⟨1, by omega⟩ a.wd) (colBlock ⟨2, by omega⟩ a.wd) (seg ⟨0, by omega⟩ a.bd) (seg ⟨1, by omega⟩ a.bd) (seg ⟨2, by omega⟩ a.bd) hx (⟨(x 0).val, hx0⟩ : Fin 256) (⟨(x 1).val, hx1⟩ : Fin 768)
      rw [d2_eq] at h
      exact (congrArg _ (eq_ix2 x)).trans h
    refine e.trans ?_
    refine Eq.symm ((congrArg (flat (u0 a) (u1 a) (u2 a) (u3 a)) (?_ : _ = ix2 (⟨r0 + (x 0).val, by omega⟩ : Fin 16384) (⟨1536 + (⟨(x 1).val, hx1⟩ : Fin 768).val, by show 1536 + (x 1).val < 3072; omega⟩ : Fin 3072))).trans
      (flat_2 (u0 a) (u1 a) (u2 a) (u3 a) _ _ _))
    funext ax
    apply Fin.ext
    match ax with
    | ⟨0, _⟩ => show r0 + (0 + 1 * (x 0).val) = r0 + (x 0).val; omega
    | ⟨1, _⟩ => show 1536 + 1 * (x 1).val = 1536 + (x 1).val; omega
  · -- the store into columns [768, 1536): direction 1
    intro x
    have hx0 : (x 0).val < 256 := (x 0).isLt
    have hx1 : (x 1).val < 768 := (x 1).isLt
    have e : (q9 a x0 (colBlock ⟨0, by omega⟩ a.wd) (colBlock ⟨1, by omega⟩ a.wd) (seg ⟨0, by omega⟩ a.bd) (seg ⟨1, by omega⟩ a.bd)) x = u1 a (ix2 ⟨r0 + (x 0).val, by omega⟩ (⟨(x 1).val, hx1⟩ : Fin 768)) := by
      have h := t9 a x0 (colBlock ⟨0, by omega⟩ a.wd) (colBlock ⟨1, by omega⟩ a.wd) (seg ⟨0, by omega⟩ a.bd) (seg ⟨1, by omega⟩ a.bd) hx (⟨(x 0).val, hx0⟩ : Fin 256) (⟨(x 1).val, hx1⟩ : Fin 768)
      rw [d1_eq] at h
      exact (congrArg _ (eq_ix2 x)).trans h
    refine e.trans ?_
    refine Eq.symm ((congrArg (flat (u0 a) (u1 a) (u2 a) (u3 a)) (?_ : _ = ix2 (⟨r0 + (x 0).val, by omega⟩ : Fin 16384) (⟨768 + (⟨(x 1).val, hx1⟩ : Fin 768).val, by show 768 + (x 1).val < 3072; omega⟩ : Fin 3072))).trans
      (flat_1 (u0 a) (u1 a) (u2 a) (u3 a) _ _ _))
    funext ax
    apply Fin.ext
    match ax with
    | ⟨0, _⟩ => show r0 + (0 + 1 * (x 0).val) = r0 + (x 0).val; omega
    | ⟨1, _⟩ => show 768 + 1 * (x 1).val = 768 + (x 1).val; omega
  · -- the store into columns [0, 768): direction 0
    intro x
    have hx0 : (x 0).val < 256 := (x 0).isLt
    have hx1 : (x 1).val < 768 := (x 1).isLt
    have e : (q6 a x0 (colBlock ⟨0, by omega⟩ a.wd) (seg ⟨0, by omega⟩ a.bd)) x = u0 a (ix2 ⟨r0 + (x 0).val, by omega⟩ (⟨(x 1).val, hx1⟩ : Fin 768)) := by
      have h := t6 a x0 (colBlock ⟨0, by omega⟩ a.wd) (seg ⟨0, by omega⟩ a.bd) hx (⟨(x 0).val, hx0⟩ : Fin 256) (⟨(x 1).val, hx1⟩ : Fin 768)
      rw [d0_eq] at h
      exact (congrArg _ (eq_ix2 x)).trans h
    refine e.trans ?_
    refine Eq.symm ((congrArg (flat (u0 a) (u1 a) (u2 a) (u3 a)) (?_ : _ = ix2 (⟨r0 + (x 0).val, by omega⟩ : Fin 16384) (⟨0 + (⟨(x 1).val, hx1⟩ : Fin 768).val, by show 0 + (x 1).val < 3072; omega⟩ : Fin 3072))).trans
      (flat_0 (u0 a) (u1 a) (u2 a) (u3 a) _ _ _))
    funext ax
    apply Fin.ext
    match ax with
    | ⟨0, _⟩ => show r0 + (0 + 1 * (x 0).val) = r0 + (x 0).val; omega
    | ⟨1, _⟩ => show 0 + 1 * (x 1).val = 0 + (x 1).val; omega

end Core

/-! ## What each point writes back, and the arrays after the run -/

variable (m : (ℓ : Loc nD τ sig) → Buf (Elt Ideal) ℓ) (ρ : Dev nD → PrngReg)

/-- The first result array after the run, before the host's reshape: direction k in column block k. -/
def flatDirs (c : Dev nD) : Mat 16384 3072 :=
  flat (u0 (argsOf m c)) (u1 (argsOf m c)) (u2 (argsOf m c)) (u3 (argsOf m c))

theorem blk_emb14 (t : Fin cfg0.N) (j : S256x768.Idx) :
    ((cfg0.win 14).blk t).view.emb j
      = ix2 (⟨256 * t.val + (j 0).val, by have h : (j 0).val < 256 := (j 0).isLt; have := lt64 t; omega⟩ : Fin 16384) (j 1) := by
  obtain ⟨-, -, -, -, e4, e5⟩ := idx_rows t
  funext ax
  apply Fin.ext
  match ax with
  | ⟨0, _⟩ => show win0_14.index t (0 : Fin 2) * 256 + 1 * (j 0).val = 256 * t.val + (j 0).val; rw [e4]; omega
  | ⟨1, _⟩ => show win0_14.index t (1 : Fin 2) * 768 + 1 * (j 1).val = (j 1).val; rw [e5]; omega

theorem blk_emb13 (t : Fin cfg0.N) (j : S256x3072.Idx) :
    ((cfg0.win 13).blk t).view.emb j
      = ix2 (⟨256 * t.val + (j 0).val, by have h : (j 0).val < 256 := (j 0).isLt; have := lt64 t; omega⟩ : Fin 16384) (j 1) := by
  obtain ⟨-, -, e2, e3, -, -⟩ := idx_rows t
  funext ax
  apply Fin.ext
  match ax with
  | ⟨0, _⟩ => show win0_13.index t (0 : Fin 2) * 256 + 1 * (j 0).val = 256 * t.val + (j 0).val; rw [e2]; omega
  | ⟨1, _⟩ => show win0_13.index t (1 : Fin 2) * 3072 + 1 * (j 1).val = (j 1).val; rw [e3]; omega

theorem flushed14 (c : Dev nD) (t : Fin cfg0.N) :
    (dats m 0 c).flushed 14 t = ((cfg0.win 14).blk t).view.read (Elt Ideal) (attn (argsOf m c)) := by
  show (cfg0.win 14).cut (grid0.coords t) ((dats m 0 c).after 14 t) = _
  rw [after0_14, iblk_1, iblk_2, iblk_3, iblk_4, iblk_5, iblk_6, iblk_7, iblk_8, iblk_9, iblk_10, iblk_11, iblk_12,
    V_main_v0, V_main_v4, V_main_v5, V_main_v6, V_main_v1, V_main_v7, V_main_v8, V_main_v9, V_main_v2, V_main_v10, V_main_v3, V_main_v11]
  funext j
  show out0_14 (F := Ideal) (iblk m c 0 t) _ _ _ _ _ _ _ _ _ _ _ _ j = attn (argsOf m c) (((cfg0.win 14).blk t).view.emb j)
  rw [blk_emb14]
  exact out14_at (argsOf m c) (iblk m c 0 t) (iblk_0 m c t) j

theorem flushed13 (c : Dev nD) (t : Fin cfg0.N) :
    (dats m 0 c).flushed 13 t = ((cfg0.win 13).blk t).view.read (Elt Ideal) (flatDirs m c) := by
  show (cfg0.win 13).cut (grid0.coords t) ((dats m 0 c).after 13 t) = _
  rw [after0_13, iblk_1, iblk_2, iblk_3, iblk_4, iblk_5, iblk_6, iblk_7, iblk_8, iblk_9, iblk_10, iblk_11, iblk_12,
    V_main_v0, V_main_v4, V_main_v5, V_main_v6, V_main_v1, V_main_v7, V_main_v8, V_main_v9, V_main_v2, V_main_v10, V_main_v3, V_main_v11]
  funext j
  show out0_13 (F := Ideal) (iblk m c 0 t) _ _ _ _ _ _ _ _ _ _ _ _ j = flatDirs m c (((cfg0.win 13).blk t).view.emb j)
  rw [blk_emb13]
  exact out13_at (argsOf m c) (iblk m c 0 t) (iblk_0 m c t) j

/-- An index of the second output is in point t's block iff each coordinate is in the block's range. -/
theorem mem_blk14 (t : Fin cfg0.N) (i : S16384x768.Idx) :
    i ∈ ((cfg0.win 14).blk t).view.set ↔ ∀ ax : Fin 2, win0_14.index t ax * S256x768.size ax ≤ (i ax).val ∧ (i ax).val < win0_14.index t ax * S256x768.size ax + S256x768.size ax := by
  show i ∈ ((View.whole main_v12_1).slice (win0_14.rect t)).set ↔ _
  rw [View.set_slice_whole, Rect.mem_set_unit]
  exact Iff.rfl

theorem mem_blk13 (t : Fin cfg0.N) (i : S16384x3072.Idx) :
    i ∈ ((cfg0.win 13).blk t).view.set ↔ ∀ ax : Fin 2, win0_13.index t ax * S256x3072.size ax ≤ (i ax).val ∧ (i ax).val < win0_13.index t ax * S256x3072.size ax + S256x3072.size ax := by
  show i ∈ ((View.whole main_v12_0).slice (win0_13.rect t)).set ↔ _
  rw [View.set_slice_whole, Rect.mem_set_unit]
  exact Iff.rfl

/-- Row i is in the block of point i / 256. -/
theorem cover14 (i : S16384x768.Idx) : ∃ t : Fin cfg0.N, (cfg0.win 14).flush t = true ∧ i ∈ ((cfg0.win 14).blk t).view.set := by
  have hi0 : (i 0).val < 16384 := (i 0).isLt
  have hi1 : (i 1).val < 768 := (i 1).isLt
  have hN : cfg0.N = 64 := N_0
  refine ⟨⟨(i 0).val / 256, by omega⟩, flush0_14 _, ?_⟩
  obtain ⟨-, -, -, -, e4, e5⟩ := idx_rows ⟨(i 0).val / 256, by omega⟩
  rw [mem_blk14]
  intro ax
  match ax with
  | ⟨0, _⟩ =>
    show win0_14.index _ (0 : Fin 2) * 256 ≤ (i 0).val ∧ (i 0).val < win0_14.index _ (0 : Fin 2) * 256 + 256
    rw [e4]
    show (i 0).val / 256 * 256 ≤ (i 0).val ∧ (i 0).val < (i 0).val / 256 * 256 + 256
    omega
  | ⟨1, _⟩ =>
    show win0_14.index _ (1 : Fin 2) * 768 ≤ (i 1).val ∧ (i 1).val < win0_14.index _ (1 : Fin 2) * 768 + 768
    rw [e5]
    omega

theorem cover13 (i : S16384x3072.Idx) : ∃ t : Fin cfg0.N, (cfg0.win 13).flush t = true ∧ i ∈ ((cfg0.win 13).blk t).view.set := by
  have hi0 : (i 0).val < 16384 := (i 0).isLt
  have hi1 : (i 1).val < 3072 := (i 1).isLt
  have hN : cfg0.N = 64 := N_0
  refine ⟨⟨(i 0).val / 256, by omega⟩, flush0_13 _, ?_⟩
  obtain ⟨-, -, e2, e3, -, -⟩ := idx_rows ⟨(i 0).val / 256, by omega⟩
  rw [mem_blk13]
  intro ax
  match ax with
  | ⟨0, _⟩ =>
    show win0_13.index _ (0 : Fin 2) * 256 ≤ (i 0).val ∧ (i 0).val < win0_13.index _ (0 : Fin 2) * 256 + 256
    rw [e2]
    show (i 0).val / 256 * 256 ≤ (i 0).val ∧ (i 0).val < (i 0).val / 256 * 256 + 256
    omega
  | ⟨1, _⟩ =>
    show win0_13.index _ (1 : Fin 2) * 3072 ≤ (i 1).val ∧ (i 1).val < win0_13.index _ (1 : Fin 2) * 3072 + 3072
    rw [e3]
    omega

/-- The second output array ends holding the attention. -/
theorem final14 (c : Dev nD) : (dats m 0 c).arrAt 14 cfg0.N = attn (argsOf m c) :=
  (dats m 0 c).arrAt_eq_of_cover 14 (attn (argsOf m c)) (fun t _ => flushed14 m c t) cover14

/-- The first output array ends holding direction k in column block k. -/
theorem final13 (c : Dev nD) : (dats m 0 c).arrAt 13 cfg0.N = flatDirs m c :=
  (dats m 0 c).arrAt_eq_of_cover 13 (flatDirs m c) (fun t _ => flushed13 m c t) cover13

/-- The host line after the call: the first output read as 16384 × 4 × 768 is the four directions along the middle axis. -/
theorem tail13 (c : Dev nD) :
    Pipeline.afterTail₀ cfgs (dats m) 0 (V0 m) [hostOps1] c main_v13 = dirs (argsOf m c) := by
  unfold Pipeline.afterTail₀
  show StableHlo.after hostOps1 _ (Proc.devRef .tc main_v13) = _
  after_results
  rw [(Pipeline.withArrays_arr spec0 launch0.win.arr_inj c _ _ 13).trans (final13 m c)]
  exact cast_flat _ _ _ _ _

/-- The run, read: the two results at the network's functions of the arguments, the arguments unchanged. -/
theorem run : θ_run defs (onTc (τ := τ) (main (F := Ideal))) ⟨m, fun _ => 0, ρ⟩ fun r => ∀ c : Dev nD,
      r.2.mem ((c.tc : Thread nD τ).loc main_v13) = dirs (argsOf m c)
      ∧ r.2.mem ((c.tc : Thread nD τ).loc main_v12_1) = attn (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v13 (Pipeline.mem_restRefs_of main_v13 (by decide) (by decide))).trans (tail13 m c),
      ((h c).1 14).trans (final14 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KValue

end
-- ==== Proof.Assemble.lean ====
/-
  The two programs compute one function. The kernel's run ends with its two results at the network's functions
  (Spec.lean) of the argument arrays it was launched with; a run of the reference that ends with its two results at the
  same functions of its own arguments, from memories that agree on the arguments, therefore ends with equal results.
  The reference's run is taken here as a hypothesis of that shape, so that this step does not depend on how the run is
  walked.
-/
import proofs.«127205_j48309792146077_2_alg».proof.Defs
import proofs.«127205_j48309792146077_2_alg».proof.Proof.KValue

noncomputable section

namespace Cert.Assemble

open Idealize.ShloMosaic Idealize.SL.Sem Cert.Spec

/-- The reference's thirteen argument arrays as launched on core c. -/
def refArgs (m' : (ℓ : Loc Cert.ReferenceIdeal.nD Cert.ReferenceIdeal.τ Cert.ReferenceIdeal.sig) → Buf (Elt Ideal) ℓ)
    (c : Dev Cert.ReferenceIdeal.nD) : Args :=
  ⟨m' ((c.tc : Thread Cert.ReferenceIdeal.nD Cert.ReferenceIdeal.τ).loc Cert.ReferenceIdeal.main_arg0),
    m' ((c.tc : Thread Cert.ReferenceIdeal.nD Cert.ReferenceIdeal.τ).loc Cert.ReferenceIdeal.main_arg1),
    m' ((c.tc : Thread Cert.ReferenceIdeal.nD Cert.ReferenceIdeal.τ).loc Cert.ReferenceIdeal.main_arg2),
    m' ((c.tc : Thread Cert.ReferenceIdeal.nD Cert.ReferenceIdeal.τ).loc Cert.ReferenceIdeal.main_arg3),
    m' ((c.tc : Thread Cert.ReferenceIdeal.nD Cert.ReferenceIdeal.τ).loc Cert.ReferenceIdeal.main_arg4),
    m' ((c.tc : Thread Cert.ReferenceIdeal.nD Cert.ReferenceIdeal.τ).loc Cert.ReferenceIdeal.main_arg5),
    m' ((c.tc : Thread Cert.ReferenceIdeal.nD Cert.ReferenceIdeal.τ).loc Cert.ReferenceIdeal.main_arg6),
    m' ((c.tc : Thread Cert.ReferenceIdeal.nD Cert.ReferenceIdeal.τ).loc Cert.ReferenceIdeal.main_arg7),
    m' ((c.tc : Thread Cert.ReferenceIdeal.nD Cert.ReferenceIdeal.τ).loc Cert.ReferenceIdeal.main_arg8),
    m' ((c.tc : Thread Cert.ReferenceIdeal.nD Cert.ReferenceIdeal.τ).loc Cert.ReferenceIdeal.main_arg9),
    m' ((c.tc : Thread Cert.ReferenceIdeal.nD Cert.ReferenceIdeal.τ).loc Cert.ReferenceIdeal.main_arg10),
    m' ((c.tc : Thread Cert.ReferenceIdeal.nD Cert.ReferenceIdeal.τ).loc Cert.ReferenceIdeal.main_arg11),
    m' ((c.tc : Thread Cert.ReferenceIdeal.nD Cert.ReferenceIdeal.τ).loc Cert.ReferenceIdeal.main_arg12)⟩

/-- What a run of the reference has to end with: its results at the network's functions of its arguments, the arguments
    unchanged. -/
def RefRuns [Cert.ReferenceIdeal.Facts] : Prop :=
  ∀ (m' : (ℓ : Loc Cert.ReferenceIdeal.nD Cert.ReferenceIdeal.τ Cert.ReferenceIdeal.sig) → Buf (Elt Ideal) ℓ)
    (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v145) = dirs (refArgs m' c)
        ∧ r.2.mem ((c.tc : Thread Cert.ReferenceIdeal.nD Cert.ReferenceIdeal.τ).loc Cert.ReferenceIdeal.main_v73) = attn (refArgs m' c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

variable [hKernelIdeal : Cert.KernelIdeal.Facts] [hReferenceIdeal : Cert.ReferenceIdeal.Facts]
  [hPre_finite_inputs : Cert.Pre_finite_inputs.Facts]

theorem frame_ref (hrun : RefRuns) : Cert.frame_ReferenceIdeal := fun m' ρ' _ =>
  (θ_run Cert.ReferenceIdeal.defs _ _).mono (fun _ h c => (h c).2.2) (hrun m' ρ')

theorem algebraic (hrun : RefRuns) : Cert.algebraic_KernelIdeal_ReferenceIdeal := by
  intro m ρ m' ρ' _ hagree
  refine ⟨fun c => dirs (Cert.KBlocks.argsOf m c), fun c => attn (Cert.KBlocks.argsOf m c), Cert.KValue.run m ρ, ?_⟩
  refine (θ_run Cert.ReferenceIdeal.defs _ _).mono (fun _ h c => ?_) (hrun m' ρ')
  have e : refArgs m' c = Cert.KBlocks.argsOf m c := by
    obtain ⟨h0, h1, h2, h3, h4, h5, h6, h7, h8, h9, h10, h11, h12⟩ := hagree c
    unfold refArgs Cert.KBlocks.argsOf
    rw [h0, h1, h2, h3, h4, h5, h6, h7, h8, h9, h10, h11, h12]
  exact ⟨(h c).1.trans (congrArg dirs e), (h c).2.1.trans (congrArg attn e), (h c).2.2⟩

end Cert.Assemble

end
-- ==== Proof.LibHloEnv.lean ====
/-
  Running a straight line of host operations with every intermediate value kept once. The library's fold
  `StableHlo.after ops V` gives what each buffer holds after the operations; reading it at the last result by
  rewriting re-derives every shared intermediate value at each of its uses. Here the fold is walked once, front to
  back, carrying an environment: a list of (buffer, value) pairs the current contents agree with, and the list of the
  buffers named so far. An operation whose operands are in the environment and whose result buffer is new (the
  program is in single-assignment form) extends the environment by its result; nothing else changes. At the end the
  environment holds the result buffers' values as terms of the launch contents, and the argument buffers unchanged.
  The walk is in continuation form, so that a proof is one `refine` per operation.
-/
import Idealize.ShloMosaic.Lib.StableHlo.Run

noncomputable section

namespace HloEnv

open Idealize.ShloMosaic Idealize.ShloMosaic.StableHlo Idealize.ShloMosaic.TcCoe

variable {τ : Topo} {sig : RefSig} {Val : EltTy → Type}

/-- A buffer with a value of its type. -/
abbrev Entry (sig : RefSig) (Val : EltTy → Type) : Type := (r : Ref sig .tc) × r.ty.Contents Val

/-- The contents `W` hold, at every buffer of the environment, the value listed for it; `keys` are the environment's
    buffers in order (kept apart so that "this buffer is new" is a closed, decidable fact about references). -/
structure Inv (W : Valuation τ sig Val) (keys : List (Ref sig .tc)) (env : List (Entry sig Val)) : Prop where
  agrees : ∀ p ∈ env, W (Proc.devRef .tc p.1) = p.2
  keys_eq : env.map Sigma.fst = keys

theorem Inv.fresh {W : Valuation τ sig Val} {keys : List (Ref sig .tc)} {env : List (Entry sig Val)} (h : Inv W keys env)
    {y : Ref sig .tc} (hy : y ∉ keys) : ∀ p ∈ env, p.1 ≠ y := fun p hp e =>
  hy (h.keys_eq ▸ e ▸ List.mem_map_of_mem (f := Sigma.fst) hp)

/-- The start: the launch contents agree with themselves at the listed buffers. -/
theorem Inv.start (V : Valuation τ sig Val) (rs : List (Ref sig .tc)) :
    Inv V rs (rs.map fun r => ⟨r, V (Proc.devRef .tc r)⟩) where
  agrees p hp := by
    obtain ⟨r, -, rfl⟩ := List.mem_map.mp hp
    rfl
  keys_eq := by
    rw [List.map_map]
    exact List.map_id' _ |>.symm ▸ rfl

/-- The start, for two argument buffers. -/
theorem Inv.start2 (V : Valuation τ sig Val) (a b : Ref sig .tc) :
    Inv V [a, b] [⟨a, V (Proc.devRef .tc a)⟩, ⟨b, V (Proc.devRef .tc b)⟩] where
  agrees p hp := by
    rcases List.mem_cons.mp hp with rfl | hp
    · rfl
    · rcases List.mem_cons.mp hp with rfl | hp
      · rfl
      · exact absurd hp (List.not_mem_nil)
  keys_eq := rfl

variable {W : Valuation τ sig Val} {keys : List (Ref sig .tc)} {env : List (Entry sig Val)}
  {Q : Valuation τ sig Val → Prop} {rest : List (HloOp τ sig Val)}

/-- The environment after an operation that wrote only the new buffer `y`, with value `v` there. -/
theorem Inv.extend (h : Inv W keys env) (op : HloOp τ sig Val) (y : Ref sig .tc) (v : y.ty.Contents Val)
    (hy : y ∉ keys) (hres : op.result W (Proc.devRef .tc y) = v)
    (hne : ∀ r : Ref sig .tc, r ≠ y → op.result W (Proc.devRef .tc r) = W (Proc.devRef .tc r)) :
    Inv (op.result W) (y :: keys) (⟨y, v⟩ :: env) where
  agrees p hp := by
    rcases List.mem_cons.mp hp with rfl | hp
    · exact hres
    · rw [hne p.1 (h.fresh hy p hp)]; exact h.agrees p hp
  keys_eq := by rw [List.map_cons, h.keys_eq]

theorem step_nullary (y : Ref sig .tc) (v : y.ty.Contents Val) (hy') (hy : y ∉ keys)
    (k : ∀ W', Inv W' (y :: keys) (⟨y, v⟩ :: env) → Q (after rest W')) :
    Inv W keys env → Q (after (nullary (τ := τ) y v hy' :: rest) W) := fun h =>
  k _ (h.extend _ y v hy (nullary_result y v hy' W) fun _ hr => nullary_result_ne y v hy' W hr)

theorem step_unary (x y : Ref sig .tc) (f : x.ty.Contents Val → y.ty.Contents Val) (hx' hy')
    (vx : x.ty.Contents Val) (hmx : (⟨x, vx⟩ : Entry sig Val) ∈ env) (hy : y ∉ keys)
    (k : ∀ W', Inv W' (y :: keys) (⟨y, f vx⟩ :: env) → Q (after rest W')) :
    Inv W keys env → Q (after (unary (τ := τ) x y f hx' hy' :: rest) W) := fun h =>
  k _ (h.extend _ y (f vx) hy ((unary_result x y f hx' hy' W).trans (congrArg f (h.agrees _ hmx)))
    fun _ hr => unary_result_ne x y f hx' hy' W hr)

theorem step_binary (a b y : Ref sig .tc) (f : a.ty.Contents Val → b.ty.Contents Val → y.ty.Contents Val) (ha' hb' hy')
    (va : a.ty.Contents Val) (vb : b.ty.Contents Val) (hma : (⟨a, va⟩ : Entry sig Val) ∈ env)
    (hmb : (⟨b, vb⟩ : Entry sig Val) ∈ env) (hy : y ∉ keys)
    (k : ∀ W', Inv W' (y :: keys) (⟨y, f va vb⟩ :: env) → Q (after rest W')) :
    Inv W keys env → Q (after (binary (τ := τ) a b y f ha' hb' hy' :: rest) W) := fun h =>
  k _ (h.extend _ y (f va vb) hy
    ((binary_result a b y f ha' hb' hy' W).trans (congrArg₂ f (h.agrees _ hma) (h.agrees _ hmb)))
    fun _ hr => binary_result_ne a b y f ha' hb' hy' W hr)

theorem step_ternary (c a b y : Ref sig .tc)
    (f : c.ty.Contents Val → a.ty.Contents Val → b.ty.Contents Val → y.ty.Contents Val) (hc' ha' hb' hy')
    (vc : c.ty.Contents Val) (va : a.ty.Contents Val) (vb : b.ty.Contents Val) (hmc : (⟨c, vc⟩ : Entry sig Val) ∈ env)
    (hma : (⟨a, va⟩ : Entry sig Val) ∈ env) (hmb : (⟨b, vb⟩ : Entry sig Val) ∈ env) (hy : y ∉ keys)
    (k : ∀ W', Inv W' (y :: keys) (⟨y, f vc va vb⟩ :: env) → Q (after rest W')) :
    Inv W keys env → Q (after (ternary (τ := τ) c a b y f hc' ha' hb' hy' :: rest) W) := fun h =>
  k _ (h.extend _ y (f vc va vb) hy
    ((ternary_result c a b y f hc' ha' hb' hy' W).trans (by rw [h.agrees _ hmc, h.agrees _ hma, h.agrees _ hmb]))
    fun _ hr => ternary_result_ne a b c y f hc' ha' hb' hy' W hr)

theorem step_reshape (x y : Ref sig .tc) (he : x.ty.elt = y.ty.elt) (hn : x.ty.shape.ShapeCasts y.ty.shape) (hx' hy')
    (vx : x.ty.Contents Val) (hmx : (⟨x, vx⟩ : Entry sig Val) ∈ env) (hy : y ∉ keys)
    (k : ∀ W', Inv W' (y :: keys) (⟨y, fun i => he ▸ shapeCast y.ty.shape vx hn i⟩ :: env) → Q (after rest W')) :
    Inv W keys env → Q (after (reshape (τ := τ) (Val := Val) x y he hn hx' hy' :: rest) W) := fun h =>
  k _ (h.extend _ y _ hy ((reshape_result x y he hn hx' hy' W).trans (by rw [h.agrees _ hmx]))
    fun _ hr => reshape_result_ne x y he hn hx' hy' W hr)

/-- The fold over a concatenation is the fold over the second list from the fold over the first. -/
theorem after_append : ∀ (l₁ l₂ : List (HloOp τ sig Val)) (V : Valuation τ sig Val), after (l₁ ++ l₂) V = after l₂ (after l₁ V)
  | [], _, _ => rfl
  | op :: l₁, l₂, V => after_append l₁ l₂ (op.result V)

/-- "After the operations `l` more, `Q`": what is still owed when a line is walked one stretch at a time. -/
def Then (l : List (HloOp τ sig Val)) (Q : Valuation τ sig Val → Prop) (W : Valuation τ sig Val) : Prop := Q (after l W)

/-- A line that is two stretches: walk the first, owing the second. -/
theorem step_append (l₁ l₂ : List (HloOp τ sig Val)) (k : Inv W keys env → Then l₂ Q (after l₁ W)) :
    Inv W keys env → Q (after (l₁ ++ l₂) W) := fun h => by
  rw [after_append]; exact k h

/-- The end of a stretch: go on with what is owed. -/
theorem step_then (l₂ : List (HloOp τ sig Val)) (k : Inv W keys env → Q (after l₂ W)) :
    Inv W keys env → Then l₂ Q (after ([] : List (HloOp τ sig Val)) W) := k

/-- The end of the line. -/
theorem step_nil (k : Inv W keys env → Q W) : Inv W keys env → Q (after ([] : List (HloOp τ sig Val)) W) := k

/-- Finds a buffer's entry in the environment, newest first. -/
macro "env_mem" : tactic => `(tactic| repeat (first | exact List.Mem.head _ | apply List.Mem.tail))

open Lean Elab Tactic Meta in
/-- One operation of the line: the goal is `Inv W keys env → Q (after (op :: rest) W)`; the builder that `op` is
    decides which step applies. -/
elab "hlo_step" : tactic => withMainContext do
  let g ← getMainGoal
  let t ← instantiateMVars (← g.getType)
  let some (_, body) := t.arrow? | throwError "hlo_step: the goal is not an implication"
  let aft := body.appArg!
  unless aft.isAppOf ``Idealize.ShloMosaic.StableHlo.after do throwError "hlo_step: no fold in the goal"
  let L ← whnf aft.appFn!.appArg!
  unless L.isAppOfArity ``List.cons 3 do throwError "hlo_step: the line has ended"
  let op ← whnfR (L.getArg! 1)
  match op.getAppFn.constName? with
  | some n =>
    if n == ``Idealize.ShloMosaic.StableHlo.binary then
      evalTactic (← `(tactic| (refine step_binary _ _ _ _ _ _ _ ?va ?vb ?hma ?hmb (by decide +kernel) (fun W' => ?k)
                               case hma => env_mem
                               case hmb => env_mem)))
    else if n == ``Idealize.ShloMosaic.StableHlo.unary then
      evalTactic (← `(tactic| (refine step_unary _ _ _ _ _ ?vx ?hmx (by decide +kernel) (fun W' => ?k)
                               case hmx => env_mem)))
    else if n == ``Idealize.ShloMosaic.StableHlo.nullary then
      evalTactic (← `(tactic| refine step_nullary _ _ _ (by decide +kernel) (fun W' => ?k)))
    else if n == ``Idealize.ShloMosaic.StableHlo.reshape then
      evalTactic (← `(tactic| (refine step_reshape _ _ _ _ _ _ ?vx ?hmx (by decide +kernel) (fun W' => ?k)
                               case hmx => env_mem)))
    else if n == ``Idealize.ShloMosaic.StableHlo.ternary then
      evalTactic (← `(tactic| (refine step_ternary _ _ _ _ _ _ _ _ _ ?vc ?va ?vb ?hmc ?hma ?hmb (by decide +kernel) (fun W' => ?k)
                               case hmc => env_mem
                               case hma => env_mem
                               case hmb => env_mem)))
    else throwError "hlo_step: no step for the builder {n}"
  | none => throwError "hlo_step: the operation is no builder's: {op}"

end HloEnv

end
-- ==== Proof.RefRun.lean ====
/-
  The run of the reference program, read back as the network of Spec.

  The program is a straight line of 189 host operations. Its fold over the launch contents is walked once, front to
  back, with an environment of (buffer, value) pairs. Each time an operation completes one of the network's named
  values (a dense layer, a centred array, a layer's output, the attention, a value slice, a residual, a direction),
  the new entry is restated under that name, so that a value shared by many later operations is carried as one short
  term and never written out again. The line is cut into eight stretches, one per stage of the network; between two
  stretches only the arguments and the stage results still to be read are kept.
-/
import proofs.«127205_j48309792146077_2_alg».proof.Proof.RefOps
import proofs.«127205_j48309792146077_2_alg».proof.Proof.Spec
import proofs.«127205_j48309792146077_2_alg».proof.Proof.LibHloEnv

noncomputable section

namespace Cert.RefRun

open Cert.ReferenceIdeal Cert.ReferenceIdeal.Gen Cert.ReferenceIdeal.Ops Idealize.ShloMosaic Idealize.ShloMosaic.TcCoe Idealize.SL.Sem
  Idealize.ShloMosaic.StableHlo HloEnv

/-! ## Two more steps of the walk -/

section Steps

variable {tp : Topo} {sg : RefSig} {Val : EltTy → Type}
  {W : Valuation tp sg Val} {keys : List (Ref sg .tc)} {env : List (Entry sg Val)}
  {Q : Valuation tp sg Val → Prop} {rest : List (HloOp tp sg Val)}

/-- The newest entry's value may be restated as any term equal to it. -/
theorem refold {P : Prop} (y : Ref sg .tc) (v₀ v : y.ty.Contents Val) (hv : v₀ = v)
    (k : Inv W (y :: keys) (⟨y, v⟩ :: env) → P) : Inv W (y :: keys) (⟨y, v₀⟩ :: env) → P := by
  subst hv; exact k

/-- An operation of any number of operands, each found in the environment, writing the new buffer `y`. -/
theorem step_nary {n : Nat} (xs : Fin n → Ref sg .tc) (y : Ref sg .tc)
    (f : ((k : Fin n) → (xs k).ty.Contents Val) → y.ty.Contents Val) (hxs' hy')
    (vs : (k : Fin n) → (xs k).ty.Contents Val) (hm : ∀ k, (⟨xs k, vs k⟩ : Entry sg Val) ∈ env) (hy : y ∉ keys)
    (k : ∀ W', Inv W' (y :: keys) (⟨y, f vs⟩ :: env) → Q (after rest W')) :
    Inv W keys env → Q (after (nary (τ := tp) xs y f hxs' hy' :: rest) W) := fun h =>
  k _ (h.extend _ y (f vs) hy
    ((nary_result xs y f hxs' hy' W).trans (congrArg f (funext fun j => h.agrees _ (hm j))))
    fun _ hr => nary_result_ne y xs f hxs' hy' W hr)

/-- Fewer entries: the contents agree with any part of the environment. -/
theorem _root_.HloEnv.Inv.shrink (h : Inv W keys env) (env' : List (Entry sg Val)) (hsub : ∀ p ∈ env', p ∈ env) :
    Inv W (env'.map Sigma.fst) env' :=
  ⟨fun p hp => h.agrees p (hsub p hp), rfl⟩

theorem sub_cons {p₀ : Entry sg Val} {env' : List (Entry sg Val)} (h₀ : p₀ ∈ env) (h : ∀ p ∈ env', p ∈ env) :
    ∀ p ∈ p₀ :: env', p ∈ env := List.forall_mem_cons.mpr ⟨h₀, h⟩

theorem sub_nil : ∀ p ∈ ([] : List (Entry sg Val)), p ∈ env := fun _ h => absurd h List.not_mem_nil

end Steps

/-- Every entry of a listed part is in the environment. -/
macro "env_sub" : tactic => `(tactic| repeat (first | exact sub_nil | (refine sub_cons ?_ ?_; · env_mem)))

/-- One operation, its result restated as `v`. -/
macro "hlo_as " v:term : tactic => `(tactic| (hlo_step; refine refold _ _ $v rfl ?_))
/-! ## The stretches -/

abbrev K0 : List (Ref sig .tc) := [main_arg0, main_arg1, main_arg2, main_arg3, main_arg4, main_arg5, main_arg6, main_arg7, main_arg8, main_arg9, main_arg10, main_arg11, main_arg12]
abbrev E0 (a : Spec.Args) : List (Entry sig (Elt Ideal)) := [⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

/-- Stretch 1 of the line. -/
abbrev l1 {F : FTy → Type} [FloatOps F] : List (HloOp τ sig (Elt F)) :=
  [ binary main_arg0 main_arg1 main_v0 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v3 main_cst main_v4 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44000000#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (Host.divf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_v3 main_v8 main_v9 (subf : (⟨S16384x512, .f32⟩ : BufTy).Contents (Elt F) → (⟨S16384x512, .f32⟩ : BufTy).Contents (Elt F) → (⟨S16384x512, .f32⟩ : BufTy).Contents (Elt F)),
    binary main_v9 main_v9 main_v10 (mulf : (⟨S16384x512, .f32⟩ : BufTy).Contents (Elt F) → (⟨S16384x512, .f32⟩ : BufTy).Contents (Elt F) → (⟨S16384x512, .f32⟩ : BufTy).Contents (Elt F)),
    nullary main_cst_1 (constant S_ .f32 0x00000000#32),
    binary main_v10 main_cst_1 main_v11 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v11 main_v12 (broadcastInDim S16384x1 ![0] bcast_S16384_S16384x1_0 : (⟨S16384, .f32⟩ : BufTy).Contents (Elt F) → (⟨S16384x1, .f32⟩ : BufTy).Contents (Elt F)),
    nullary main_cst_2 (constant S_ .f32 0x44000000#32),
    unary main_cst_2 main_v13 (broadcastInDim S16384x1 ![] bcast_S_S16384x1 : (⟨S_, .f32⟩ : BufTy).Contents (Elt F) → (⟨S16384x1, .f32⟩ : BufTy).Contents (Elt F)),
    binary main_v12 main_v13 main_v14 (Host.divf : (⟨S16384x1, .f32⟩ : BufTy).Contents (Elt F) → (⟨S16384x1, .f32⟩ : BufTy).Contents (Elt F) → (⟨S16384x1, .f32⟩ : BufTy).Contents (Elt F)),
    nullary main_cst_3 (constant S_ .f32 0x3727C5AC#32),
    unary main_cst_3 main_v15 (broadcastInDim S16384x1 ![] bcast_S_S16384x1 : (⟨S_, .f32⟩ : BufTy).Contents (Elt F) → (⟨S16384x1, .f32⟩ : BufTy).Contents (Elt F)),
    binary main_v14 main_v15 main_v16 (addf : (⟨S16384x1, .f32⟩ : BufTy).Contents (Elt F) → (⟨S16384x1, .f32⟩ : BufTy).Contents (Elt F) → (⟨S16384x1, .f32⟩ : BufTy).Contents (Elt F)),
    unary main_v16 main_v17 (Host.rsqrt : (⟨S16384x1, .f32⟩ : BufTy).Contents (Elt F) → (⟨S16384x1, .f32⟩ : BufTy).Contents (Elt F)),
    unary main_v17 main_v18 (broadcastInDim S16384x512 ![0, 1] bcast_S16384x1_S16384x512_0_1 : (⟨S16384x1, .f32⟩ : BufTy).Contents (Elt F) → (⟨S16384x512, .f32⟩ : BufTy).Contents (Elt F)),
    binary main_v9 main_v18 main_v19 (mulf : (⟨S16384x512, .f32⟩ : BufTy).Contents (Elt F) → (⟨S16384x512, .f32⟩ : BufTy).Contents (Elt F) → (⟨S16384x512, .f32⟩ : BufTy).Contents (Elt F)),
    unary main_arg3 main_v20 (broadcastInDim S1x512 ![1] bcast_S512_S1x512_1 : (⟨S512, .f32⟩ : BufTy).Contents (Elt F) → (⟨S1x512, .f32⟩ : BufTy).Contents (Elt F)),
    unary main_v20 main_v21 (broadcastInDim S16384x512 ![0, 1] bcast_S1x512_S16384x512_0_1 : (⟨S1x512, .f32⟩ : BufTy).Contents (Elt F) → (⟨S16384x512, .f32⟩ : BufTy).Contents (Elt F)),
    binary main_v19 main_v21 main_v22 (mulf : (⟨S16384x512, .f32⟩ : BufTy).Contents (Elt F) → (⟨S16384x512, .f32⟩ : BufTy).Contents (Elt F) → (⟨S16384x512, .f32⟩ : BufTy).Contents (Elt F)),
    unary main_arg4 main_v23 (broadcastInDim S1x512 ![1] bcast_S512_S1x512_1 : (⟨S512, .f32⟩ : BufTy).Contents (Elt F) → (⟨S1x512, .f32⟩ : BufTy).Contents (Elt F)),
    unary main_v23 main_v24 (broadcastInDim S16384x512 ![0, 1] bcast_S1x512_S16384x512_0_1 : (⟨S1x512, .f32⟩ : BufTy).Contents (Elt F) → (⟨S16384x512, .f32⟩ : BufTy).Contents (Elt F)),
    binary main_v22 main_v24 main_v25 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v25) (TRef.of (T := ⟨S16384x512, .f32⟩) main_call0_v0) (TRef.of (T := ⟨S16384x512, .f32⟩) main_v26) maximumf ]

abbrev K1 : List (Ref sig .tc) := [main_v26, main_arg0, main_arg1, main_arg2, main_arg3, main_arg4, main_arg5, main_arg6, main_arg7, main_arg8, main_arg9, main_arg10, main_arg11, main_arg12]
abbrev E1 (a : Spec.Args) : List (Entry sig (Elt Ideal)) := [⟨main_v26, Spec.h1 a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch1 (a : Spec.Args) {Q : Valuation τ sig (Elt Ideal) → Prop} {W : Valuation τ sig (Elt Ideal)}
    (k : ∀ W', Inv W' K1 (E1 a) → Q W') : Inv W K0 (E0 a) → Q (after (l1 (F := Ideal)) W) := by
  hlo_step   -- main_v0
  hlo_step   -- main_v1
  hlo_step   -- main_v2
  hlo_as (Spec.dense a.x a.w1 a.b1)   -- main_v3
  hlo_step   -- main_cst
  hlo_step   -- main_v4
  hlo_step   -- main_v5
  hlo_step   -- main_cst_0
  hlo_step   -- main_v6
  hlo_step   -- main_v7
  hlo_step   -- main_v8
  hlo_as (Spec.center 0x44000000#32 (Spec.dense a.x a.w1 a.b1))   -- main_v9
  hlo_step   -- main_v10
  hlo_step   -- main_cst_1
  hlo_step   -- main_v11
  hlo_step   -- main_v12
  hlo_step   -- main_cst_2
  hlo_step   -- main_v13
  hlo_step   -- main_v14
  hlo_step   -- main_cst_3
  hlo_step   -- main_v15
  hlo_step   -- main_v16
  hlo_step   -- main_v17
  hlo_step   -- main_v18
  hlo_step   -- main_v19
  hlo_step   -- main_v20
  hlo_step   -- main_v21
  hlo_step   -- main_v22
  hlo_step   -- main_v23
  hlo_step   -- main_v24
  hlo_step   -- main_v25
  hlo_step   -- main_call0_cst
  hlo_step   -- main_call0_v0
  hlo_as (Spec.h1 a)   -- main_v26
  exact step_nil fun h => k _ (h.shrink (E1 a) (by env_sub))

/-- Stretch 2 of the line. -/
abbrev l2 {F : FTy → Type} [FloatOps F] : List (HloOp τ sig (Elt F)) :=
  [ binary main_v26 main_arg5 main_v27 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg6 main_v28 (broadcastInDim S1x256 ![1] bcast_S256_S1x256_1 : (⟨S256, .f32⟩ : BufTy).Contents (Elt F) → (⟨S1x256, .f32⟩ : BufTy).Contents (Elt F)),
    unary main_v28 main_v29 (broadcastInDim S16384x256 ![0, 1] bcast_S1x256_S16384x256_0_1 : (⟨S1x256, .f32⟩ : BufTy).Contents (Elt F) → (⟨S16384x256, .f32⟩ : BufTy).Contents (Elt F)),
    binary main_v27 main_v29 main_v30 (addf : (⟨S16384x256, .f32⟩ : BufTy).Contents (Elt F) → (⟨S16384x256, .f32⟩ : BufTy).Contents (Elt F) → (⟨S16384x256, .f32⟩ : BufTy).Contents (Elt F)),
    nullary main_cst_4 (constant S_ .f32 0x00000000#32),
    binary main_v30 main_cst_4 main_v31 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    nullary main_cst_5 (constant S_ .f32 0x43800000#32),
    unary main_cst_5 main_v33 (broadcastInDim S16384x1 ![] bcast_S_S16384x1 : (⟨S_, .f32⟩ : BufTy).Contents (Elt F) → (⟨S16384x1, .f32⟩ : BufTy).Contents (Elt F)),
    binary main_v32 main_v33 main_v34 (Host.divf : (⟨S16384x1, .f32⟩ : BufTy).Contents (Elt F) → (⟨S16384x1, .f32⟩ : BufTy).Contents (Elt F) → (⟨S16384x1, .f32⟩ : BufTy).Contents (Elt F)),
    unary main_v34 main_v35 (broadcastInDim S16384x256 ![0, 1] bcast_S16384x1_S16384x256_0_1 : (⟨S16384x1, .f32⟩ : BufTy).Contents (Elt F) → (⟨S16384x256, .f32⟩ : BufTy).Contents (Elt F)),
    binary main_v30 main_v35 main_v36 (subf : (⟨S16384x256, .f32⟩ : BufTy).Contents (Elt F) → (⟨S16384x256, .f32⟩ : BufTy).Contents (Elt F) → (⟨S16384x256, .f32⟩ : BufTy).Contents (Elt F)),
    binary main_v36 main_v36 main_v37 (mulf : (⟨S16384x256, .f32⟩ : BufTy).Contents (Elt F) → (⟨S16384x256, .f32⟩ : BufTy).Contents (Elt F) → (⟨S16384x256, .f32⟩ : BufTy).Contents (Elt F)),
    nullary main_cst_6 (constant S_ .f32 0x00000000#32),
    binary main_v37 main_cst_6 main_v38 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v38 main_v39 (broadcastInDim S16384x1 ![0] bcast_S16384_S16384x1_0 : (⟨S16384, .f32⟩ : BufTy).Contents (Elt F) → (⟨S16384x1, .f32⟩ : BufTy).Contents (Elt F)),
    nullary main_cst_7 (constant S_ .f32 0x43800000#32),
    unary main_cst_7 main_v40 (broadcastInDim S16384x1 ![] bcast_S_S16384x1 : (⟨S_, .f32⟩ : BufTy).Contents (Elt F) → (⟨S16384x1, .f32⟩ : BufTy).Contents (Elt F)),
    binary main_v39 main_v40 main_v41 (Host.divf : (⟨S16384x1, .f32⟩ : BufTy).Contents (Elt F) → (⟨S16384x1, .f32⟩ : BufTy).Contents (Elt F) → (⟨S16384x1, .f32⟩ : BufTy).Contents (Elt F)),
    nullary main_cst_8 (constant S_ .f32 0x3727C5AC#32),
    unary main_cst_8 main_v42 (broadcastInDim S16384x1 ![] bcast_S_S16384x1 : (⟨S_, .f32⟩ : BufTy).Contents (Elt F) → (⟨S16384x1, .f32⟩ : BufTy).Contents (Elt F)),
    binary main_v41 main_v42 main_v43 (addf : (⟨S16384x1, .f32⟩ : BufTy).Contents (Elt F) → (⟨S16384x1, .f32⟩ : BufTy).Contents (Elt F) → (⟨S16384x1, .f32⟩ : BufTy).Contents (Elt F)),
    unary main_v43 main_v44 (Host.rsqrt : (⟨S16384x1, .f32⟩ : BufTy).Contents (Elt F) → (⟨S16384x1, .f32⟩ : BufTy).Contents (Elt F)),
    unary main_v44 main_v45 (broadcastInDim S16384x256 ![0, 1] bcast_S16384x1_S16384x256_0_1 : (⟨S16384x1, .f32⟩ : BufTy).Contents (Elt F) → (⟨S16384x256, .f32⟩ : BufTy).Contents (Elt F)),
    binary main_v36 main_v45 main_v46 (mulf : (⟨S16384x256, .f32⟩ : BufTy).Contents (Elt F) → (⟨S16384x256, .f32⟩ : BufTy).Contents (Elt F) → (⟨S16384x256, .f32⟩ : BufTy).Contents (Elt F)),
    unary main_arg7 main_v47 (broadcastInDim S1x256 ![1] bcast_S256_S1x256_1 : (⟨S256, .f32⟩ : BufTy).Contents (Elt F) → (⟨S1x256, .f32⟩ : BufTy).Contents (Elt F)),
    unary main_v47 main_v48 (broadcastInDim S16384x256 ![0, 1] bcast_S1x256_S16384x256_0_1 : (⟨S1x256, .f32⟩ : BufTy).Contents (Elt F) → (⟨S16384x256, .f32⟩ : BufTy).Contents (Elt F)),
    binary main_v46 main_v48 main_v49 (mulf : (⟨S16384x256, .f32⟩ : BufTy).Contents (Elt F) → (⟨S16384x256, .f32⟩ : BufTy).Contents (Elt F) → (⟨S16384x256, .f32⟩ : BufTy).Contents (Elt F)),
    unary main_arg8 main_v50 (broadcastInDim S1x256 ![1] bcast_S256_S1x256_1 : (⟨S256, .f32⟩ : BufTy).Contents (Elt F) → (⟨S1x256, .f32⟩ : BufTy).Contents (Elt F)),
    unary main_v50 main_v51 (broadcastInDim S16384x256 ![0, 1] bcast_S1x256_S16384x256_0_1 : (⟨S1x256, .f32⟩ : BufTy).Contents (Elt F) → (⟨S16384x256, .f32⟩ : BufTy).Contents (Elt F)),
    binary main_v49 main_v51 main_v52 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v52) (TRef.of (T := ⟨S16384x256, .f32⟩) main_call1_v0) (TRef.of (T := ⟨S16384x256, .f32⟩) main_v53) maximumf ]

abbrev K2 : List (Ref sig .tc) := [main_v53, main_arg0, main_arg1, main_arg2, main_arg3, main_arg4, main_arg5, main_arg6, main_arg7, main_arg8, main_arg9, main_arg10, main_arg11, main_arg12]
abbrev E2 (a : Spec.Args) : List (Entry sig (Elt Ideal)) := [⟨main_v53, Spec.h2 a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch2 (a : Spec.Args) {Q : Valuation τ sig (Elt Ideal) → Prop} {W : Valuation τ sig (Elt Ideal)}
    (k : ∀ W', Inv W' K2 (E2 a) → Q W') : Inv W K1 (E1 a) → Q (after (l2 (F := Ideal)) W) := by
  hlo_step   -- main_v27
  hlo_step   -- main_v28
  hlo_step   -- main_v29
  hlo_as (Spec.dense (Spec.h1 a) a.w2 a.b2)   -- main_v30
  hlo_step   -- main_cst_4
  hlo_step   -- main_v31
  hlo_step   -- main_v32
  hlo_step   -- main_cst_5
  hlo_step   -- main_v33
  hlo_step   -- main_v34
  hlo_step   -- main_v35
  hlo_as (Spec.center 0x43800000#32 (Spec.dense (Spec.h1 a) a.w2 a.b2))   -- main_v36
  hlo_step   -- main_v37
  hlo_step   -- main_cst_6
  hlo_step   -- main_v38
  hlo_step   -- main_v39
  hlo_step   -- main_cst_7
  hlo_step   -- main_v40
  hlo_step   -- main_v41
  hlo_step   -- main_cst_8
  hlo_step   -- main_v42
  hlo_step   -- main_v43
  hlo_step   -- main_v44
  hlo_step   -- main_v45
  hlo_step   -- main_v46
  hlo_step   -- main_v47
  hlo_step   -- main_v48
  hlo_step   -- main_v49
  hlo_step   -- main_v50
  hlo_step   -- main_v51
  hlo_step   -- main_v52
  hlo_step   -- main_call1_cst
  hlo_step   -- main_call1_v0
  hlo_as (Spec.h2 a)   -- main_v53
  exact step_nil fun h => k _ (h.shrink (E2 a) (by env_sub))

/-- Stretch 3 of the line. -/
abbrev l3 {F : FTy → Type} [FloatOps F] : List (HloOp τ sig (Elt F)) :=
  [ binary main_v53 main_arg9 main_v54 ((fun l r => Host.dotGeneral dot_S16384x256_S256x3072_S16384x3072_1_0_0_1_n_n none l r) : (⟨S16384x256, .f32⟩ : BufTy).Contents (Elt F) → (⟨S256x3072, .f32⟩ : BufTy).Contents (Elt F) → (⟨S16384x3072, .f32⟩ : BufTy).Contents (Elt F)),
    unary main_arg10 main_v55 (broadcastInDim S1x3072 ![1] bcast_S3072_S1x3072_1 : (⟨S3072, .f32⟩ : BufTy).Contents (Elt F) → (⟨S1x3072, .f32⟩ : BufTy).Contents (Elt F)),
    unary main_v55 main_v56 (broadcastInDim S16384x3072 ![0, 1] bcast_S1x3072_S16384x3072_0_1 : (⟨S1x3072, .f32⟩ : BufTy).Contents (Elt F) → (⟨S16384x3072, .f32⟩ : BufTy).Contents (Elt F)),
    binary main_v54 main_v56 main_v57 (addf : (⟨S16384x3072, .f32⟩ : BufTy).Contents (Elt F) → (⟨S16384x3072, .f32⟩ : BufTy).Contents (Elt F) → (⟨S16384x3072, .f32⟩ : BufTy).Contents (Elt F)),
    reshape main_v57 main_v58 rfl shapeCasts_S16384x3072_S16384x4x768,
    binary main_v53 main_arg11 main_v59 ((fun l r => Host.dotGeneral dot_S16384x256_S256x768_S16384x768_1_0_0_1_n_n none l r) : (⟨S16384x256, .f32⟩ : BufTy).Contents (Elt F) → (⟨S256x768, .f32⟩ : BufTy).Contents (Elt F) → (⟨S16384x768, .f32⟩ : BufTy).Contents (Elt F)),
    unary main_arg12 main_v60 (broadcastInDim S1x768 ![1] bcast_S768_S1x768_1 : (⟨S768, .f32⟩ : BufTy).Contents (Elt F) → (⟨S1x768, .f32⟩ : BufTy).Contents (Elt F)),
    unary main_v60 main_v61 (broadcastInDim S16384x768 ![0, 1] bcast_S1x768_S16384x768_0_1 : (⟨S1x768, .f32⟩ : BufTy).Contents (Elt F) → (⟨S16384x768, .f32⟩ : BufTy).Contents (Elt F)),
    binary main_v59 main_v61 main_v62 (addf : (⟨S16384x768, .f32⟩ : BufTy).Contents (Elt F) → (⟨S16384x768, .f32⟩ : BufTy).Contents (Elt F) → (⟨S16384x768, .f32⟩ : BufTy).Contents (Elt F)),
    nullary main_cst_9 (constant S_ .f32 0xFF800000#32),
    binary main_v62 main_cst_9 main_v63 ((fun x v => Host.reduce FloatOps.maximumf x v reducesTo_S16384x768_S16384_d1 h_S_) : (⟨S16384x768, .f32⟩ : BufTy).Contents (Elt F) → (⟨S_, .f32⟩ : BufTy).Contents (Elt F) → (⟨S16384, .f32⟩ : BufTy).Contents (Elt F)),
    nullary main_cst_10 (constant S_ .f32 0xFF800000#32),
    unary main_cst_10 main_v64 (broadcastInDim S16384 ![] bcast_S_S16384 : (⟨S_, .f32⟩ : BufTy).Contents (Elt F) → (⟨S16384, .f32⟩ : BufTy).Contents (Elt F)),
    binary main_v64 main_v63 main_v65 (maximumf : (⟨S16384, .f32⟩ : BufTy).Contents (Elt F) → (⟨S16384, .f32⟩ : BufTy).Contents (Elt F) → (⟨S16384, .f32⟩ : BufTy).Contents (Elt F)),
    unary main_v65 main_v66 (broadcastInDim S16384x1 ![0] bcast_S16384_S16384x1_0 : (⟨S16384, .f32⟩ : BufTy).Contents (Elt F) → (⟨S16384x1, .f32⟩ : BufTy).Contents (Elt F)),
    unary main_v66 main_v67 (broadcastInDim S16384x768 ![0, 1] bcast_S16384x1_S16384x768_0_1 : (⟨S16384x1, .f32⟩ : BufTy).Contents (Elt F) → (⟨S16384x768, .f32⟩ : BufTy).Contents (Elt F)),
    binary main_v62 main_v67 main_v68 (subf : (⟨S16384x768, .f32⟩ : BufTy).Contents (Elt F) → (⟨S16384x768, .f32⟩ : BufTy).Contents (Elt F) → (⟨S16384x768, .f32⟩ : BufTy).Contents (Elt F)),
    unary main_v68 main_v69 (Host.exp : (⟨S16384x768, .f32⟩ : BufTy).Contents (Elt F) → (⟨S16384x768, .f32⟩ : BufTy).Contents (Elt F)),
    nullary main_cst_11 (constant S_ .f32 0x00000000#32),
    binary main_v69 main_cst_11 main_v70 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v70 main_v71 (broadcastInDim S16384x1 ![0] bcast_S16384_S16384x1_0 : (⟨S16384, .f32⟩ : BufTy).Contents (Elt F) → (⟨S16384x1, .f32⟩ : BufTy).Contents (Elt F)),
    unary main_v71 main_v72 (broadcastInDim S16384x768 ![0, 1] bcast_S16384x1_S16384x768_0_1 : (⟨S16384x1, .f32⟩ : BufTy).Contents (Elt F) → (⟨S16384x768, .f32⟩ : BufTy).Contents (Elt F)),
    binary main_v69 main_v72 main_v73 (Host.divf : (⟨S16384x768, .f32⟩ : BufTy).Contents (Elt F) → (⟨S16384x768, .f32⟩ : BufTy).Contents (Elt F) → (⟨S16384x768, .f32⟩ : BufTy).Contents (Elt F)),
    unary main_v73 main_v74 (broadcastInDim S16384x1x768 ![0, 2] bcast_S16384x768_S16384x1x768_0_2 : (⟨S16384x768, .f32⟩ : BufTy).Contents (Elt F) → (⟨S16384x1x768, .f32⟩ : BufTy).Contents (Elt F)),
    unary main_v74 main_v75 (broadcastInDim S16384x4x768 ![0, 1, 2] bcast_S16384x1x768_S16384x4x768_0_1_2 : (⟨S16384x1x768, .f32⟩ : BufTy).Contents (Elt F) → (⟨S16384x4x768, .f32⟩ : BufTy).Contents (Elt F)),
    binary main_v58 main_v75 main_v76 (mulf : (⟨S16384x4x768, .f32⟩ : BufTy).Contents (Elt F) → (⟨S16384x4x768, .f32⟩ : BufTy).Contents (Elt F) → (⟨S16384x4x768, .f32⟩ : BufTy).Contents (Elt F)) ]

abbrev K3 : List (Ref sig .tc) := [main_v76, main_v73, main_arg0, main_arg1, main_arg2, main_arg3, main_arg4, main_arg5, main_arg6, main_arg7, main_arg8, main_arg9, main_arg10, main_arg11, main_arg12]
abbrev E3 (a : Spec.Args) : List (Entry sig (Elt Ideal)) := [⟨main_v76, Spec.vals a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch3 (a : Spec.Args) {Q : Valuation τ sig (Elt Ideal) → Prop} {W : Valuation τ sig (Elt Ideal)}
    (k : ∀ W', Inv W' K3 (E3 a) → Q W') : Inv W K2 (E2 a) → Q (after (l3 (F := Ideal)) W) := by
  hlo_step   -- main_v54
  hlo_step   -- main_v55
  hlo_step   -- main_v56
  hlo_as (Spec.dense (Spec.h2 a) a.wd a.bd)   -- main_v57
  hlo_step   -- main_v58
  hlo_step   -- main_v59
  hlo_step   -- main_v60
  hlo_step   -- main_v61
  hlo_as (Spec.dense (Spec.h2 a) a.wa a.ba)   -- main_v62
  hlo_step   -- main_cst_9
  hlo_step   -- main_v63
  hlo_step   -- main_cst_10
  hlo_step   -- main_v64
  hlo_step   -- main_v65
  hlo_step   -- main_v66
  hlo_step   -- main_v67
  hlo_step   -- main_v68
  hlo_as (Spec.expShift (Spec.dense (Spec.h2 a) a.wa a.ba))   -- main_v69
  hlo_step   -- main_cst_11
  hlo_step   -- main_v70
  hlo_step   -- main_v71
  hlo_step   -- main_v72
  hlo_as (Spec.attn a)   -- main_v73
  hlo_step   -- main_v74
  hlo_step   -- main_v75
  hlo_as (Spec.vals a)   -- main_v76
  exact step_nil fun h => k _ (h.shrink (E3 a) (by env_sub))

/-- Stretch 4 of the line. -/
abbrev l4 {F : FTy → Type} [FloatOps F] : List (HloOp τ sig (Elt F)) :=
  [ unary main_v76 main_v77 ((extractStridedSlice S16384x1x768 ![0, 0, 0] · slices_S16384x4x768_S16384x1x768_0_0_0) : (⟨S16384x4x768, .f32⟩ : BufTy).Contents (Elt F) → (⟨S16384x1x768, .f32⟩ : BufTy).Contents (Elt F)),
    reshape main_v77 main_v78 rfl shapeCasts_S16384x1x768_S16384x768,
    TRef.binary (TRef.of (T := ⟨S16384x768, .f32⟩) main_v78) (TRef.of (T := ⟨S16384x768, .f32⟩) main_v78) (TRef.of (T := ⟨S16384x768, .f32⟩) main_call2_v0) mulf,
    TRef.nullary (TRef.of (T := ⟨S_, .f32⟩) main_call2_cst) (constant S_ .f32 0x00000000#32),
    TRef.binary (TRef.of (T := ⟨S16384x768, .f32⟩) main_call2_v0) (TRef.of (T := ⟨S_, .f32⟩) main_call2_cst) (TRef.of (T := ⟨S16384, .f32⟩) main_call2_v1) (fun x v => Host.reduceAdd x v reducesTo_S16384x768_S16384_d1 h_S_),
    TRef.unary (TRef.of (T := ⟨S16384, .f32⟩) main_call2_v1) (TRef.of (T := ⟨S16384x1, .f32⟩) main_call2_v2) (broadcastInDim S16384x1 ![0] bcast_S16384_S16384x1_0),
    TRef.unary (TRef.of (T := ⟨S16384x1, .f32⟩) main_call2_v2) (TRef.of (T := ⟨S16384x1, .f32⟩) main_v79) Host.sqrt,
    nullary main_cst_12 (constant S_ .f32 0x2B8CBCCC#32),
    unary main_cst_12 main_v80 (broadcastInDim S16384x1 ![] bcast_S_S16384x1 : (⟨S_, .f32⟩ : BufTy).Contents (Elt F) → (⟨S16384x1, .f32⟩ : BufTy).Contents (Elt F)),
    binary main_v79 main_v80 main_v81 (maximumf : (⟨S16384x1, .f32⟩ : BufTy).Contents (Elt F) → (⟨S16384x1, .f32⟩ : BufTy).Contents (Elt F) → (⟨S16384x1, .f32⟩ : BufTy).Contents (Elt F)),
    unary main_v81 main_v82 (broadcastInDim S16384x768 ![0, 1] bcast_S16384x1_S16384x768_0_1 : (⟨S16384x1, .f32⟩ : BufTy).Contents (Elt F) → (⟨S16384x768, .f32⟩ : BufTy).Contents (Elt F)),
    binary main_v78 main_v82 main_v83 (Host.divf : (⟨S16384x768, .f32⟩ : BufTy).Contents (Elt F) → (⟨S16384x768, .f32⟩ : BufTy).Contents (Elt F) → (⟨S16384x768, .f32⟩ : BufTy).Contents (Elt F)) ]

abbrev K4 : List (Ref sig .tc) := [main_v83, main_v76, main_v73, main_arg0, main_arg1, main_arg2, main_arg3, main_arg4, main_arg5, main_arg6, main_arg7, main_arg8, main_arg9, main_arg10, main_arg11, main_arg12]
abbrev E4 (a : Spec.Args) : List (Entry sig (Elt Ideal)) := [⟨main_v83, Spec.u0 a⟩, ⟨main_v76, Spec.vals a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch4 (a : Spec.Args) {Q : Valuation τ sig (Elt Ideal) → Prop} {W : Valuation τ sig (Elt Ideal)}
    (k : ∀ W', Inv W' K4 (E4 a) → Q W') : Inv W K3 (E3 a) → Q (after (l4 (F := Ideal)) W) := by
  hlo_step   -- main_v77
  hlo_as (Spec.val a 0 slices_S16384x4x768_S16384x1x768_0_0_0)   -- main_v78
  hlo_step   -- main_call2_v0
  hlo_step   -- main_call2_cst
  hlo_step   -- main_call2_v1
  hlo_step   -- main_call2_v2
  hlo_step   -- main_v79
  hlo_step   -- main_cst_12
  hlo_step   -- main_v80
  hlo_step   -- main_v81
  hlo_step   -- main_v82
  hlo_as (Spec.u0 a)   -- main_v83
  exact step_nil fun h => k _ (h.shrink (E4 a) (by env_sub))

/-- Stretch 5 of the line. -/
abbrev l5 {F : FTy → Type} [FloatOps F] : List (HloOp τ sig (Elt F)) :=
  [ unary main_v76 main_v84 ((extractStridedSlice S16384x1x768 ![0, 1, 0] · slices_S16384x4x768_S16384x1x768_0_1_0) : (⟨S16384x4x768, .f32⟩ : BufTy).Contents (Elt F) → (⟨S16384x1x768, .f32⟩ : BufTy).Contents (Elt F)),
    reshape main_v84 main_v85 rfl shapeCasts_S16384x1x768_S16384x768,
    binary main_v85 main_v83 main_v86 (mulf : (⟨S16384x768, .f32⟩ : BufTy).Contents (Elt F) → (⟨S16384x768, .f32⟩ : BufTy).Contents (Elt F) → (⟨S16384x768, .f32⟩ : BufTy).Contents (Elt F)),
    nullary main_cst_13 (constant S_ .f32 0x00000000#32),
    binary main_v86 main_cst_13 main_v87 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v87 main_v88 (broadcastInDim S16384x1 ![0] bcast_S16384_S16384x1_0 : (⟨S16384, .f32⟩ : BufTy).Contents (Elt F) → (⟨S16384x1, .f32⟩ : BufTy).Contents (Elt F)),
    unary main_v88 main_v89 (broadcastInDim S16384x768 ![0, 1] bcast_S16384x1_S16384x768_0_1 : (⟨S16384x1, .f32⟩ : BufTy).Contents (Elt F) → (⟨S16384x768, .f32⟩ : BufTy).Contents (Elt F)),
    binary main_v89 main_v83 main_v90 (mulf : (⟨S16384x768, .f32⟩ : BufTy).Contents (Elt F) → (⟨S16384x768, .f32⟩ : BufTy).Contents (Elt F) → (⟨S16384x768, .f32⟩ : BufTy).Contents (Elt F)),
    binary main_v85 main_v90 main_v91 (subf : (⟨S16384x768, .f32⟩ : BufTy).Contents (Elt F) → (⟨S16384x768, .f32⟩ : BufTy).Contents (Elt F) → (⟨S16384x768, .f32⟩ : BufTy).Contents (Elt F)),
    TRef.binary (TRef.of (T := ⟨S16384x768, .f32⟩) main_v91) (TRef.of (T := ⟨S16384x768, .f32⟩) main_v91) (TRef.of (T := ⟨S16384x768, .f32⟩) main_call3_v0) mulf,
    TRef.nullary (TRef.of (T := ⟨S_, .f32⟩) main_call3_cst) (constant S_ .f32 0x00000000#32),
    TRef.binary (TRef.of (T := ⟨S16384x768, .f32⟩) main_call3_v0) (TRef.of (T := ⟨S_, .f32⟩) main_call3_cst) (TRef.of (T := ⟨S16384, .f32⟩) main_call3_v1) (fun x v => Host.reduceAdd x v reducesTo_S16384x768_S16384_d1 h_S_),
    TRef.unary (TRef.of (T := ⟨S16384, .f32⟩) main_call3_v1) (TRef.of (T := ⟨S16384x1, .f32⟩) main_call3_v2) (broadcastInDim S16384x1 ![0] bcast_S16384_S16384x1_0),
    TRef.unary (TRef.of (T := ⟨S16384x1, .f32⟩) main_call3_v2) (TRef.of (T := ⟨S16384x1, .f32⟩) main_v92) Host.sqrt,
    nullary main_cst_14 (constant S_ .f32 0x2B8CBCCC#32),
    unary main_cst_14 main_v93 (broadcastInDim S16384x1 ![] bcast_S_S16384x1 : (⟨S_, .f32⟩ : BufTy).Contents (Elt F) → (⟨S16384x1, .f32⟩ : BufTy).Contents (Elt F)),
    binary main_v92 main_v93 main_v94 (maximumf : (⟨S16384x1, .f32⟩ : BufTy).Contents (Elt F) → (⟨S16384x1, .f32⟩ : BufTy).Contents (Elt F) → (⟨S16384x1, .f32⟩ : BufTy).Contents (Elt F)),
    unary main_v94 main_v95 (broadcastInDim S16384x768 ![0, 1] bcast_S16384x1_S16384x768_0_1 : (⟨S16384x1, .f32⟩ : BufTy).Contents (Elt F) → (⟨S16384x768, .f32⟩ : BufTy).Contents (Elt F)),
    binary main_v91 main_v95 main_v96 (Host.divf : (⟨S16384x768, .f32⟩ : BufTy).Contents (Elt F) → (⟨S16384x768, .f32⟩ : BufTy).Contents (Elt F) → (⟨S16384x768, .f32⟩ : BufTy).Contents (Elt F)) ]

abbrev K5 : List (Ref sig .tc) := [main_v96, main_v83, main_v76, main_v73, main_arg0, main_arg1, main_arg2, main_arg3, main_arg4, main_arg5, main_arg6, main_arg7, main_arg8, main_arg9, main_arg10, main_arg11, main_arg12]
abbrev E5 (a : Spec.Args) : List (Entry sig (Elt Ideal)) := [⟨main_v96, Spec.u1 a⟩, ⟨main_v83, Spec.u0 a⟩, ⟨main_v76, Spec.vals a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch5 (a : Spec.Args) {Q : Valuation τ sig (Elt Ideal) → Prop} {W : Valuation τ sig (Elt Ideal)}
    (k : ∀ W', Inv W' K5 (E5 a) → Q W') : Inv W K4 (E4 a) → Q (after (l5 (F := Ideal)) W) := by
  hlo_step   -- main_v84
  hlo_as (Spec.val a 1 slices_S16384x4x768_S16384x1x768_0_1_0)   -- main_v85
  hlo_step   -- main_v86
  hlo_step   -- main_cst_13
  hlo_step   -- main_v87
  hlo_step   -- main_v88
  hlo_step   -- main_v89
  hlo_step   -- main_v90
  hlo_as (Spec.r1 a)   -- main_v91
  hlo_step   -- main_call3_v0
  hlo_step   -- main_call3_cst
  hlo_step   -- main_call3_v1
  hlo_step   -- main_call3_v2
  hlo_step   -- main_v92
  hlo_step   -- main_cst_14
  hlo_step   -- main_v93
  hlo_step   -- main_v94
  hlo_step   -- main_v95
  hlo_as (Spec.u1 a)   -- main_v96
  exact step_nil fun h => k _ (h.shrink (E5 a) (by env_sub))

/-- Stretch 6 of the line. -/
abbrev l6 {F : FTy → Type} [FloatOps F] : List (HloOp τ sig (Elt F)) :=
  [ unary main_v76 main_v97 ((extractStridedSlice S16384x1x768 ![0, 2, 0] · slices_S16384x4x768_S16384x1x768_0_2_0) : (⟨S16384x4x768, .f32⟩ : BufTy).Contents (Elt F) → (⟨S16384x1x768, .f32⟩ : BufTy).Contents (Elt F)),
    reshape main_v97 main_v98 rfl shapeCasts_S16384x1x768_S16384x768,
    binary main_v98 main_v83 main_v99 (mulf : (⟨S16384x768, .f32⟩ : BufTy).Contents (Elt F) → (⟨S16384x768, .f32⟩ : BufTy).Contents (Elt F) → (⟨S16384x768, .f32⟩ : BufTy).Contents (Elt F)),
    nullary main_cst_15 (constant S_ .f32 0x00000000#32),
    binary main_v99 main_cst_15 main_v100 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v100 main_v101 (broadcastInDim S16384x1 ![0] bcast_S16384_S16384x1_0 : (⟨S16384, .f32⟩ : BufTy).Contents (Elt F) → (⟨S16384x1, .f32⟩ : BufTy).Contents (Elt F)),
    unary main_v101 main_v102 (broadcastInDim S16384x768 ![0, 1] bcast_S16384x1_S16384x768_0_1 : (⟨S16384x1, .f32⟩ : BufTy).Contents (Elt F) → (⟨S16384x768, .f32⟩ : BufTy).Contents (Elt F)),
    binary main_v102 main_v83 main_v103 (mulf : (⟨S16384x768, .f32⟩ : BufTy).Contents (Elt F) → (⟨S16384x768, .f32⟩ : BufTy).Contents (Elt F) → (⟨S16384x768, .f32⟩ : BufTy).Contents (Elt F)),
    binary main_v98 main_v103 main_v104 (subf : (⟨S16384x768, .f32⟩ : BufTy).Contents (Elt F) → (⟨S16384x768, .f32⟩ : BufTy).Contents (Elt F) → (⟨S16384x768, .f32⟩ : BufTy).Contents (Elt F)),
    binary main_v104 main_v96 main_v105 (mulf : (⟨S16384x768, .f32⟩ : BufTy).Contents (Elt F) → (⟨S16384x768, .f32⟩ : BufTy).Contents (Elt F) → (⟨S16384x768, .f32⟩ : BufTy).Contents (Elt F)),
    nullary main_cst_16 (constant S_ .f32 0x00000000#32),
    binary main_v105 main_cst_16 main_v106 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v106 main_v107 (broadcastInDim S16384x1 ![0] bcast_S16384_S16384x1_0 : (⟨S16384, .f32⟩ : BufTy).Contents (Elt F) → (⟨S16384x1, .f32⟩ : BufTy).Contents (Elt F)),
    unary main_v107 main_v108 (broadcastInDim S16384x768 ![0, 1] bcast_S16384x1_S16384x768_0_1 : (⟨S16384x1, .f32⟩ : BufTy).Contents (Elt F) → (⟨S16384x768, .f32⟩ : BufTy).Contents (Elt F)),
    binary main_v108 main_v96 main_v109 (mulf : (⟨S16384x768, .f32⟩ : BufTy).Contents (Elt F) → (⟨S16384x768, .f32⟩ : BufTy).Contents (Elt F) → (⟨S16384x768, .f32⟩ : BufTy).Contents (Elt F)),
    binary main_v104 main_v109 main_v110 (subf : (⟨S16384x768, .f32⟩ : BufTy).Contents (Elt F) → (⟨S16384x768, .f32⟩ : BufTy).Contents (Elt F) → (⟨S16384x768, .f32⟩ : BufTy).Contents (Elt F)),
    TRef.binary (TRef.of (T := ⟨S16384x768, .f32⟩) main_v110) (TRef.of (T := ⟨S16384x768, .f32⟩) main_v110) (TRef.of (T := ⟨S16384x768, .f32⟩) main_call4_v0) mulf,
    TRef.nullary (TRef.of (T := ⟨S_, .f32⟩) main_call4_cst) (constant S_ .f32 0x00000000#32),
    TRef.binary (TRef.of (T := ⟨S16384x768, .f32⟩) main_call4_v0) (TRef.of (T := ⟨S_, .f32⟩) main_call4_cst) (TRef.of (T := ⟨S16384, .f32⟩) main_call4_v1) (fun x v => Host.reduceAdd x v reducesTo_S16384x768_S16384_d1 h_S_),
    TRef.unary (TRef.of (T := ⟨S16384, .f32⟩) main_call4_v1) (TRef.of (T := ⟨S16384x1, .f32⟩) main_call4_v2) (broadcastInDim S16384x1 ![0] bcast_S16384_S16384x1_0),
    TRef.unary (TRef.of (T := ⟨S16384x1, .f32⟩) main_call4_v2) (TRef.of (T := ⟨S16384x1, .f32⟩) main_v111) Host.sqrt,
    nullary main_cst_17 (constant S_ .f32 0x2B8CBCCC#32),
    unary main_cst_17 main_v112 (broadcastInDim S16384x1 ![] bcast_S_S16384x1 : (⟨S_, .f32⟩ : BufTy).Contents (Elt F) → (⟨S16384x1, .f32⟩ : BufTy).Contents (Elt F)),
    binary main_v111 main_v112 main_v113 (maximumf : (⟨S16384x1, .f32⟩ : BufTy).Contents (Elt F) → (⟨S16384x1, .f32⟩ : BufTy).Contents (Elt F) → (⟨S16384x1, .f32⟩ : BufTy).Contents (Elt F)),
    unary main_v113 main_v114 (broadcastInDim S16384x768 ![0, 1] bcast_S16384x1_S16384x768_0_1 : (⟨S16384x1, .f32⟩ : BufTy).Contents (Elt F) → (⟨S16384x768, .f32⟩ : BufTy).Contents (Elt F)),
    binary main_v110 main_v114 main_v115 (Host.divf : (⟨S16384x768, .f32⟩ : BufTy).Contents (Elt F) → (⟨S16384x768, .f32⟩ : BufTy).Contents (Elt F) → (⟨S16384x768, .f32⟩ : BufTy).Contents (Elt F)) ]

abbrev K6 : List (Ref sig .tc) := [main_v115, main_v96, main_v83, main_v76, main_v73, main_arg0, main_arg1, main_arg2, main_arg3, main_arg4, main_arg5, main_arg6, main_arg7, main_arg8, main_arg9, main_arg10, main_arg11, main_arg12]
abbrev E6 (a : Spec.Args) : List (Entry sig (Elt Ideal)) := [⟨main_v115, Spec.u2 a⟩, ⟨main_v96, Spec.u1 a⟩, ⟨main_v83, Spec.u0 a⟩, ⟨main_v76, Spec.vals a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch6 (a : Spec.Args) {Q : Valuation τ sig (Elt Ideal) → Prop} {W : Valuation τ sig (Elt Ideal)}
    (k : ∀ W', Inv W' K6 (E6 a) → Q W') : Inv W K5 (E5 a) → Q (after (l6 (F := Ideal)) W) := by
  hlo_step   -- main_v97
  hlo_as (Spec.val a 2 slices_S16384x4x768_S16384x1x768_0_2_0)   -- main_v98
  hlo_step   -- main_v99
  hlo_step   -- main_cst_15
  hlo_step   -- main_v100
  hlo_step   -- main_v101
  hlo_step   -- main_v102
  hlo_step   -- main_v103
  hlo_as (Spec.r2a a)   -- main_v104
  hlo_step   -- main_v105
  hlo_step   -- main_cst_16
  hlo_step   -- main_v106
  hlo_step   -- main_v107
  hlo_step   -- main_v108
  hlo_step   -- main_v109
  hlo_as (Spec.r2 a)   -- main_v110
  hlo_step   -- main_call4_v0
  hlo_step   -- main_call4_cst
  hlo_step   -- main_call4_v1
  hlo_step   -- main_call4_v2
  hlo_step   -- main_v111
  hlo_step   -- main_cst_17
  hlo_step   -- main_v112
  hlo_step   -- main_v113
  hlo_step   -- main_v114
  hlo_as (Spec.u2 a)   -- main_v115
  exact step_nil fun h => k _ (h.shrink (E6 a) (by env_sub))

/-- Stretch 7 of the line. -/
abbrev l7 {F : FTy → Type} [FloatOps F] : List (HloOp τ sig (Elt F)) :=
  [ unary main_v76 main_v116 ((extractStridedSlice S16384x1x768 ![0, 3, 0] · slices_S16384x4x768_S16384x1x768_0_3_0) : (⟨S16384x4x768, .f32⟩ : BufTy).Contents (Elt F) → (⟨S16384x1x768, .f32⟩ : BufTy).Contents (Elt F)),
    reshape main_v116 main_v117 rfl shapeCasts_S16384x1x768_S16384x768,
    binary main_v117 main_v83 main_v118 (mulf : (⟨S16384x768, .f32⟩ : BufTy).Contents (Elt F) → (⟨S16384x768, .f32⟩ : BufTy).Contents (Elt F) → (⟨S16384x768, .f32⟩ : BufTy).Contents (Elt F)),
    nullary main_cst_18 (constant S_ .f32 0x00000000#32),
    binary main_v118 main_cst_18 main_v119 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v119 main_v120 (broadcastInDim S16384x1 ![0] bcast_S16384_S16384x1_0 : (⟨S16384, .f32⟩ : BufTy).Contents (Elt F) → (⟨S16384x1, .f32⟩ : BufTy).Contents (Elt F)),
    unary main_v120 main_v121 (broadcastInDim S16384x768 ![0, 1] bcast_S16384x1_S16384x768_0_1 : (⟨S16384x1, .f32⟩ : BufTy).Contents (Elt F) → (⟨S16384x768, .f32⟩ : BufTy).Contents (Elt F)),
    binary main_v121 main_v83 main_v122 (mulf : (⟨S16384x768, .f32⟩ : BufTy).Contents (Elt F) → (⟨S16384x768, .f32⟩ : BufTy).Contents (Elt F) → (⟨S16384x768, .f32⟩ : BufTy).Contents (Elt F)),
    binary main_v117 main_v122 main_v123 (subf : (⟨S16384x768, .f32⟩ : BufTy).Contents (Elt F) → (⟨S16384x768, .f32⟩ : BufTy).Contents (Elt F) → (⟨S16384x768, .f32⟩ : BufTy).Contents (Elt F)),
    binary main_v123 main_v96 main_v124 (mulf : (⟨S16384x768, .f32⟩ : BufTy).Contents (Elt F) → (⟨S16384x768, .f32⟩ : BufTy).Contents (Elt F) → (⟨S16384x768, .f32⟩ : BufTy).Contents (Elt F)),
    nullary main_cst_19 (constant S_ .f32 0x00000000#32),
    binary main_v124 main_cst_19 main_v125 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v125 main_v126 (broadcastInDim S16384x1 ![0] bcast_S16384_S16384x1_0 : (⟨S16384, .f32⟩ : BufTy).Contents (Elt F) → (⟨S16384x1, .f32⟩ : BufTy).Contents (Elt F)),
    unary main_v126 main_v127 (broadcastInDim S16384x768 ![0, 1] bcast_S16384x1_S16384x768_0_1 : (⟨S16384x1, .f32⟩ : BufTy).Contents (Elt F) → (⟨S16384x768, .f32⟩ : BufTy).Contents (Elt F)),
    binary main_v127 main_v96 main_v128 (mulf : (⟨S16384x768, .f32⟩ : BufTy).Contents (Elt F) → (⟨S16384x768, .f32⟩ : BufTy).Contents (Elt F) → (⟨S16384x768, .f32⟩ : BufTy).Contents (Elt F)),
    binary main_v123 main_v128 main_v129 (subf : (⟨S16384x768, .f32⟩ : BufTy).Contents (Elt F) → (⟨S16384x768, .f32⟩ : BufTy).Contents (Elt F) → (⟨S16384x768, .f32⟩ : BufTy).Contents (Elt F)),
    binary main_v129 main_v115 main_v130 (mulf : (⟨S16384x768, .f32⟩ : BufTy).Contents (Elt F) → (⟨S16384x768, .f32⟩ : BufTy).Contents (Elt F) → (⟨S16384x768, .f32⟩ : BufTy).Contents (Elt F)),
    nullary main_cst_20 (constant S_ .f32 0x00000000#32),
    binary main_v130 main_cst_20 main_v131 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    unary main_v131 main_v132 (broadcastInDim S16384x1 ![0] bcast_S16384_S16384x1_0 : (⟨S16384, .f32⟩ : BufTy).Contents (Elt F) → (⟨S16384x1, .f32⟩ : BufTy).Contents (Elt F)),
    unary main_v132 main_v133 (broadcastInDim S16384x768 ![0, 1] bcast_S16384x1_S16384x768_0_1 : (⟨S16384x1, .f32⟩ : BufTy).Contents (Elt F) → (⟨S16384x768, .f32⟩ : BufTy).Contents (Elt F)),
    binary main_v133 main_v115 main_v134 (mulf : (⟨S16384x768, .f32⟩ : BufTy).Contents (Elt F) → (⟨S16384x768, .f32⟩ : BufTy).Contents (Elt F) → (⟨S16384x768, .f32⟩ : BufTy).Contents (Elt F)),
    binary main_v129 main_v134 main_v135 (subf : (⟨S16384x768, .f32⟩ : BufTy).Contents (Elt F) → (⟨S16384x768, .f32⟩ : BufTy).Contents (Elt F) → (⟨S16384x768, .f32⟩ : BufTy).Contents (Elt F)),
    TRef.binary (TRef.of (T := ⟨S16384x768, .f32⟩) main_v135) (TRef.of (T := ⟨S16384x768, .f32⟩) main_v135) (TRef.of (T := ⟨S16384x768, .f32⟩) main_call5_v0) mulf,
    TRef.nullary (TRef.of (T := ⟨S_, .f32⟩) main_call5_cst) (constant S_ .f32 0x00000000#32),
    TRef.binary (TRef.of (T := ⟨S16384x768, .f32⟩) main_call5_v0) (TRef.of (T := ⟨S_, .f32⟩) main_call5_cst) (TRef.of (T := ⟨S16384, .f32⟩) main_call5_v1) (fun x v => Host.reduceAdd x v reducesTo_S16384x768_S16384_d1 h_S_),
    TRef.unary (TRef.of (T := ⟨S16384, .f32⟩) main_call5_v1) (TRef.of (T := ⟨S16384x1, .f32⟩) main_call5_v2) (broadcastInDim S16384x1 ![0] bcast_S16384_S16384x1_0),
    TRef.unary (TRef.of (T := ⟨S16384x1, .f32⟩) main_call5_v2) (TRef.of (T := ⟨S16384x1, .f32⟩) main_v136) Host.sqrt,
    nullary main_cst_21 (constant S_ .f32 0x2B8CBCCC#32),
    unary main_cst_21 main_v137 (broadcastInDim S16384x1 ![] bcast_S_S16384x1 : (⟨S_, .f32⟩ : BufTy).Contents (Elt F) → (⟨S16384x1, .f32⟩ : BufTy).Contents (Elt F)),
    binary main_v136 main_v137 main_v138 (maximumf : (⟨S16384x1, .f32⟩ : BufTy).Contents (Elt F) → (⟨S16384x1, .f32⟩ : BufTy).Contents (Elt F) → (⟨S16384x1, .f32⟩ : BufTy).Contents (Elt F)),
    unary main_v138 main_v139 (broadcastInDim S16384x768 ![0, 1] bcast_S16384x1_S16384x768_0_1 : (⟨S16384x1, .f32⟩ : BufTy).Contents (Elt F) → (⟨S16384x768, .f32⟩ : BufTy).Contents (Elt F)),
    binary main_v135 main_v139 main_v140 (Host.divf : (⟨S16384x768, .f32⟩ : BufTy).Contents (Elt F) → (⟨S16384x768, .f32⟩ : BufTy).Contents (Elt F) → (⟨S16384x768, .f32⟩ : BufTy).Contents (Elt F)) ]

abbrev K7 : List (Ref sig .tc) := [main_v140, main_v115, main_v96, main_v83, main_v73, main_arg0, main_arg1, main_arg2, main_arg3, main_arg4, main_arg5, main_arg6, main_arg7, main_arg8, main_arg9, main_arg10, main_arg11, main_arg12]
abbrev E7 (a : Spec.Args) : List (Entry sig (Elt Ideal)) := [⟨main_v140, Spec.u3 a⟩, ⟨main_v115, Spec.u2 a⟩, ⟨main_v96, Spec.u1 a⟩, ⟨main_v83, Spec.u0 a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch7 (a : Spec.Args) {Q : Valuation τ sig (Elt Ideal) → Prop} {W : Valuation τ sig (Elt Ideal)}
    (k : ∀ W', Inv W' K7 (E7 a) → Q W') : Inv W K6 (E6 a) → Q (after (l7 (F := Ideal)) W) := by
  hlo_step   -- main_v116
  hlo_as (Spec.val a 3 slices_S16384x4x768_S16384x1x768_0_3_0)   -- main_v117
  hlo_step   -- main_v118
  hlo_step   -- main_cst_18
  hlo_step   -- main_v119
  hlo_step   -- main_v120
  hlo_step   -- main_v121
  hlo_step   -- main_v122
  hlo_as (Spec.r3a a)   -- main_v123
  hlo_step   -- main_v124
  hlo_step   -- main_cst_19
  hlo_step   -- main_v125
  hlo_step   -- main_v126
  hlo_step   -- main_v127
  hlo_step   -- main_v128
  hlo_as (Spec.r3b a)   -- main_v129
  hlo_step   -- main_v130
  hlo_step   -- main_cst_20
  hlo_step   -- main_v131
  hlo_step   -- main_v132
  hlo_step   -- main_v133
  hlo_step   -- main_v134
  hlo_as (Spec.r3 a)   -- main_v135
  hlo_step   -- main_call5_v0
  hlo_step   -- main_call5_cst
  hlo_step   -- main_call5_v1
  hlo_step   -- main_call5_v2
  hlo_step   -- main_v136
  hlo_step   -- main_cst_21
  hlo_step   -- main_v137
  hlo_step   -- main_v138
  hlo_step   -- main_v139
  hlo_as (Spec.u3 a)   -- main_v140
  exact step_nil fun h => k _ (h.shrink (E7 a) (by env_sub))

/-- Stretch 8 of the line. -/
abbrev l8 {F : FTy → Type} [FloatOps F] : List (HloOp τ sig (Elt F)) :=
  [ unary main_v83 main_v141 (broadcastInDim S16384x1x768 ![0, 2] bcast_S16384x768_S16384x1x768_0_2 : (⟨S16384x768, .f32⟩ : BufTy).Contents (Elt F) → (⟨S16384x1x768, .f32⟩ : BufTy).Contents (Elt F)),
    unary main_v96 main_v142 (broadcastInDim S16384x1x768 ![0, 2] bcast_S16384x768_S16384x1x768_0_2 : (⟨S16384x768, .f32⟩ : BufTy).Contents (Elt F) → (⟨S16384x1x768, .f32⟩ : BufTy).Contents (Elt F)),
    unary main_v115 main_v143 (broadcastInDim S16384x1x768 ![0, 2] bcast_S16384x768_S16384x1x768_0_2 : (⟨S16384x768, .f32⟩ : BufTy).Contents (Elt F) → (⟨S16384x1x768, .f32⟩ : BufTy).Contents (Elt F)),
    unary main_v140 main_v144 (broadcastInDim S16384x1x768 ![0, 2] bcast_S16384x768_S16384x1x768_0_2 : (⟨S16384x768, .f32⟩ : BufTy).Contents (Elt F) → (⟨S16384x1x768, .f32⟩ : BufTy).Contents (Elt F)),
    nary ![main_v141, main_v142, main_v143, main_v144] main_v145 (fun u => concatenate S16384x4x768 1 [⟨S16384x1x768, u 0⟩, ⟨S16384x1x768, u 1⟩, ⟨S16384x1x768, u 2⟩, ⟨S16384x1x768, u 3⟩] concatenates_S16384x1x768_S16384x1x768_S16384x1x768_S16384x1x768_S16384x4x768_d1) ]

abbrev K8 : List (Ref sig .tc) := [main_v145, main_v73, main_arg0, main_arg1, main_arg2, main_arg3, main_arg4, main_arg5, main_arg6, main_arg7, main_arg8, main_arg9, main_arg10, main_arg11, main_arg12]
abbrev E8 (a : Spec.Args) : List (Entry sig (Elt Ideal)) := [⟨main_v145, Spec.dirs a⟩, ⟨main_v73, Spec.attn a⟩, ⟨main_arg0, a.x⟩, ⟨main_arg1, a.w1⟩, ⟨main_arg2, a.b1⟩, ⟨main_arg3, a.g1⟩, ⟨main_arg4, a.be1⟩, ⟨main_arg5, a.w2⟩, ⟨main_arg6, a.b2⟩, ⟨main_arg7, a.g2⟩, ⟨main_arg8, a.be2⟩, ⟨main_arg9, a.wd⟩, ⟨main_arg10, a.bd⟩, ⟨main_arg11, a.wa⟩, ⟨main_arg12, a.ba⟩]

set_option maxRecDepth 8192 in
set_option maxHeartbeats 4000000 in
theorem stretch8 (a : Spec.Args) {Q : Valuation τ sig (Elt Ideal) → Prop} {W : Valuation τ sig (Elt Ideal)}
    (k : ∀ W', Inv W' K8 (E8 a) → Q W') : Inv W K7 (E7 a) → Q (after (l8 (F := Ideal)) W) := by
  hlo_as (Spec.mid (Spec.u0 a))   -- main_v141
  hlo_as (Spec.mid (Spec.u1 a))   -- main_v142
  hlo_as (Spec.mid (Spec.u2 a))   -- main_v143
  hlo_as (Spec.mid (Spec.u3 a))   -- main_v144
  refine step_nary _ _ _ _ _ (fun j => match j with | 0 => Spec.mid (Spec.u0 a) | 1 => Spec.mid (Spec.u1 a) | 2 => Spec.mid (Spec.u2 a) | 3 => Spec.mid (Spec.u3 a)) ?hm (by decide +kernel) (fun W' => ?k)
  case hm => intro j; fin_cases j <;> env_mem
  refine refold _ _ (Spec.dirs a) rfl ?_
  exact step_nil fun h => k _ (h.shrink (E8 a) (by env_sub))

/-! ## The whole line -/

set_option maxRecDepth 8192 in
set_option maxHeartbeats 4000000 in
/-- The line is its eight stretches, one after the other. -/
theorem after_ops (V : Valuation τ sig (Elt Ideal)) :
    after (ops (F := Ideal)) V
      = after l8 (after l7 (after l6 (after l5 (after l4 (after l3 (after l2 (after l1 V))))))) := by
  show after (l1 ++ (l2 ++ (l3 ++ (l4 ++ (l5 ++ (l6 ++ (l7 ++ l8))))))) V = _
  simp only [HloEnv.after_append]

/-- From contents that hold the thirteen arguments, the line ends with the directions and the attention in their
    buffers and the arguments where they were. -/
theorem walk (a : Spec.Args) (V : Valuation τ sig (Elt Ideal)) (h : Inv V K0 (E0 a)) :
    Inv (after (ops (F := Ideal)) V) K8 (E8 a) := by
  rw [after_ops]
  exact stretch8 a (Q := fun W => Inv W K8 (E8 a)) (fun _ h => h)
    (stretch7 a (Q := fun W => Inv W K7 (E7 a)) (fun _ h => h)
    (stretch6 a (Q := fun W => Inv W K6 (E6 a)) (fun _ h => h)
    (stretch5 a (Q := fun W => Inv W K5 (E5 a)) (fun _ h => h)
    (stretch4 a (Q := fun W => Inv W K4 (E4 a)) (fun _ h => h)
    (stretch3 a (Q := fun W => Inv W K3 (E3 a)) (fun _ h => h)
    (stretch2 a (Q := fun W => Inv W K2 (E2 a)) (fun _ h => h)
    (stretch1 a (Q := fun W => Inv W K1 (E1 a)) (fun _ h => h) h)))))))

/-- The thirteen argument arrays one core is launched with. -/
def argsOf (m : (ℓ : Loc Cert.ReferenceIdeal.nD Cert.ReferenceIdeal.τ Cert.ReferenceIdeal.sig) → Buf (Elt Ideal) ℓ)
    (c : Dev Cert.ReferenceIdeal.nD) : Cert.Spec.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12)⟩

/-- The launch contents hold the arguments. -/
theorem start (m : (ℓ : Loc nD τ sig) → Buf (Elt Ideal) ℓ) (c : Dev nD) :
    Inv (launchContents m c) K0 (E0 (argsOf m c)) :=
  Inv.start (launchContents m c) K0

/-- On every device, from any memory with zero counters: every weakly fair execution of the reference program
    terminates with the four directions in its first result, the attention in its second, and the arguments
    unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v145) = Cert.Spec.dirs (argsOf m c)
        ∧ r.2.mem ((c.tc : Thread nD τ).loc main_v73) = Cert.Spec.attn (argsOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c =>
      have w := walk (argsOf m c) (launchContents m c) (start m c)
      ⟨(h c main_v145).trans (w.agrees ⟨main_v145, Spec.dirs (argsOf m c)⟩ (by env_mem)),
        (h c main_v73).trans (w.agrees ⟨main_v73, Spec.attn (argsOf m c)⟩ (by env_mem)),
        (h c main_arg0).trans (w.agrees ⟨main_arg0, (argsOf m c).x⟩ (by env_mem)),
        (h c main_arg1).trans (w.agrees ⟨main_arg1, (argsOf m c).w1⟩ (by env_mem)),
        (h c main_arg2).trans (w.agrees ⟨main_arg2, (argsOf m c).b1⟩ (by env_mem)),
        (h c main_arg3).trans (w.agrees ⟨main_arg3, (argsOf m c).g1⟩ (by env_mem)),
        (h c main_arg4).trans (w.agrees ⟨main_arg4, (argsOf m c).be1⟩ (by env_mem)),
        (h c main_arg5).trans (w.agrees ⟨main_arg5, (argsOf m c).w2⟩ (by env_mem)),
        (h c main_arg6).trans (w.agrees ⟨main_arg6, (argsOf m c).b2⟩ (by env_mem)),
        (h c main_arg7).trans (w.agrees ⟨main_arg7, (argsOf m c).g2⟩ (by env_mem)),
        (h c main_arg8).trans (w.agrees ⟨main_arg8, (argsOf m c).be2⟩ (by env_mem)),
        (h c main_arg9).trans (w.agrees ⟨main_arg9, (argsOf m c).wd⟩ (by env_mem)),
        (h c main_arg10).trans (w.agrees ⟨main_arg10, (argsOf m c).bd⟩ (by env_mem)),
        (h c main_arg11).trans (w.agrees ⟨main_arg11, (argsOf m c).wa⟩ (by env_mem)),
        (h c main_arg12).trans (w.agrees ⟨main_arg12, (argsOf m c).ba⟩ (by env_mem))⟩)
    (run_seq scopedRefs_eq scopedSems_eq defs main (fun _ => ops) main_eq (fun _ => ops_sub) m ρ)

end Cert.RefRun

end
-- ==== Proof.lean ====
/-
  A two-layer network with layer normalisation, a softmax attention head and four attention-weighted value slices made
  orthonormal row by row (Gram–Schmidt), computed by a kernel on tiles of 256 rows and by a host reference on the whole
  batch of 16384 rows: the two end with equal results on the extended reals.

  Every operation of the network works row by row, so a tile of rows stays a tile through every layer (LibTileLayers.lean,
  KPay.lean): at each grid point the kernel's five stored values are rows [256 t, 256 t + 256) of the attention and of the
  four directions of the whole batch (Spec.lean), the value slice k being the dense layer of columns [768 k, 768 k + 768)
  of the second head (ValSlices.lean). The 64 blocks tile the two result arrays, and the host line after the call reads
  the 16384 × 3072 array of the four directions side by side as 16384 × 4 × 768 (KValue.lean). The reference's straight
  line of host operations computes the same functions of its arguments, value by value (RefRun.lean). No law of
  arithmetic is needed between the two sides beyond reading the operations at an index, so the precondition is not used.
  The idealisation rewrote nothing, so it preserves the kernel trivially.
-/
import proofs.«127205_j48309792146077_2_alg».proof.Defs
import proofs.«127205_j48309792146077_2_alg».proof.Proof.Gen.Kernel
import proofs.«127205_j48309792146077_2_alg».proof.Proof.Gen.Kernel.Skeleton
import proofs.«127205_j48309792146077_2_alg».proof.Proof.Gen.Kernel.Launch
import proofs.«127205_j48309792146077_2_alg».proof.Proof.Gen.Kernel.Points
import proofs.«127205_j48309792146077_2_alg».proof.Proof.Gen.Kernel.Frame
import proofs.«127205_j48309792146077_2_alg».proof.Proof.Gen.KernelIdeal
import proofs.«127205_j48309792146077_2_alg».proof.Proof.Gen.KernelIdeal.Skeleton
import proofs.«127205_j48309792146077_2_alg».proof.Proof.Gen.KernelIdeal.Launch
import proofs.«127205_j48309792146077_2_alg».proof.Proof.Gen.KernelIdeal.Points
import proofs.«127205_j48309792146077_2_alg».proof.Proof.Gen.KernelIdeal.Frame
import proofs.«127205_j48309792146077_2_alg».proof.Proof.Gen.ReferenceIdeal
import proofs.«127205_j48309792146077_2_alg».proof.Proof.Gen.Pre_finite_inputs
import proofs.«127205_j48309792146077_2_alg».proof.Proof.Assemble
import proofs.«127205_j48309792146077_2_alg».proof.Proof.RefRun
import Idealize.ShloMosaic.Adequacy
import Idealize.ShloMosaic.Init

noncomputable section

namespace Cert.Proof

open Idealize.ShloMosaic Idealize.SL.Sem Cert.Kernel

/-- The reference's run ends with its results at the network's functions of its arguments. -/
theorem refRuns : Cert.Assemble.RefRuns := fun m' ρ' => Cert.RefRun.run m' ρ'

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Assemble.frame_ref refRuns,
  trivial,
  Cert.Assemble.algebraic refRuns⟩

end Cert.Proof

end
